-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x64 : Shape := ⟨2, ![4096, 64]⟩
abbrev S64x64 : Shape := ⟨2, ![64, 64]⟩
abbrev S64 : Shape := ⟨1, ![64]⟩
abbrev S8x128 : Shape := ⟨2, ![8, 128]⟩
abbrev S8 : Shape := ⟨1, ![8]⟩
abbrev S32x64 : Shape := ⟨2, ![32, 64]⟩
abbrev S32 : Shape := ⟨1, ![32]⟩
abbrev S8x64 : Shape := ⟨2, ![8, 64]⟩
abbrev S_ : Shape := ⟨0, ![]⟩

class Facts : Prop where
  bcast_S_S4096x64 : S_.BroadcastsInDim S4096x64 (![] : Fin 0 → Fin S4096x64.rank)
  reducesTo_S4096x64_S_d0_1 : S4096x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S8x128 : S_.BroadcastsInDim S8x128 (![] : Fin 0 → Fin S8x128.rank)
  reducesTo_S8x128_S_d0_1 : S8x128.ReducesTo [0, 1] S_
  bcast_S_S8 : S_.BroadcastsInDim S8 (![] : Fin 0 → Fin S8.rank)
  reducesTo_S8_S_d0 : S8.ReducesTo [0] S_
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_
  bcast_S_S8x64 : S_.BroadcastsInDim S8x64 (![] : Fin 0 → Fin S8x64.rank)
  reducesTo_S8x64_S_d0_1 : S8x64.ReducesTo [0, 1] S_

variable [Facts]

def fn_part2 {F : FTy → Type} [FloatOps F] (main_arg7 : FVec F S8x64 .f32) (main_arg8 : FVec F S8 .f32) (main_v33 : IVec S_ 1) : IVec S_ 1 :=
  let main_v34 : FVec F S8x64 .f32 := Host.absf main_arg7
  let main_cst_12 : FVec F S_ .f32 := constant S_ .f32 0x7F800000#32
  let main_v35 : FVec F S8x64 .f32 := broadcastInDim S8x64 ![] bcast_S_S8x64 main_cst_12
  let main_v36 : IVec S8x64 1 := cmpf .olt main_v34 main_v35
  let main_c_13 : IVec S_ 1 := constantI S_ 1 1#1
  let main_v37 : IVec S_ 1 := (fun x v => Host.reduce IntOp.andi x v reducesTo_S8x64_S_d0_1 h_S_) main_v36 main_c_13
  let main_v38 : IVec S_ 1 := andi main_v33 main_v37
  let main_v39 : FVec F S8 .f32 := Host.absf main_arg8
  let main_cst_14 : FVec F S_ .f32 := constant S_ .f32 0x7F800000#32
  let main_v40 : FVec F S8 .f32 := broadcastInDim S8 ![] bcast_S_S8 main_cst_14
  let main_v41 : IVec S8 1 := cmpf .olt main_v39 main_v40
  let main_c_15 : IVec S_ 1 := constantI S_ 1 1#1
  let main_v42 : IVec S_ 1 := (fun x v => Host.reduce IntOp.andi x v reducesTo_S8_S_d0 h_S_) main_v41 main_c_15
  let main_v43 : IVec S_ 1 := andi main_v38 main_v42
  main_v43

def fn_part1 {F : FTy → Type} [FloatOps F] (main_arg4 : FVec F S8 .f32) (main_arg5 : FVec F S32x64 .f32) (main_arg6 : FVec F S32 .f32) (main_arg7 : FVec F S8x64 .f32) (main_arg8 : FVec F S8 .f32) (main_v13 : IVec S_ 1) (main_v16 : IVec S8x128 1) : IVec S_ 1 :=
  let main_c_5 : IVec S_ 1 := constantI S_ 1 1#1
  let main_v17 : IVec S_ 1 := (fun x v => Host.reduce IntOp.andi x v reducesTo_S8x128_S_d0_1 h_S_) main_v16 main_c_5
  let main_v18 : IVec S_ 1 := andi main_v13 main_v17
  let main_v19 : FVec F S8 .f32 := Host.absf main_arg4
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  let main_v24 : FVec F S32x64 .f32 := Host.absf main_arg5
  let main_cst_8 : FVec F S_ .f32 := constant S_ .f32 0x7F800000#32
  let main_v25 : FVec F S32x64 .f32 := broadcastInDim S32x64 ![] bcast_S_S32x64 main_cst_8
  let main_v26 : IVec S32x64 1 := cmpf .olt main_v24 main_v25
  let main_c_9 : IVec S_ 1 := constantI S_ 1 1#1
  let main_v27 : IVec S_ 1 := (fun x v => Host.reduce IntOp.andi x v reducesTo_S32x64_S_d0_1 h_S_) main_v26 main_c_9
  let main_v28 : IVec S_ 1 := andi main_v23 main_v27
  let main_v29 : FVec F S32 .f32 := Host.absf main_arg6
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg7 main_arg8 main_v33

def fn {F : FTy → Type} [FloatOps F] (main_arg0 : FVec F S4096x64 .f32) (main_arg1 : FVec F S64x64 .f32) (main_arg2 : FVec F S64 .f32) (main_arg3 : FVec F S8x128 .f32) (main_arg4 : FVec F S8 .f32) (main_arg5 : FVec F S32x64 .f32) (main_arg6 : FVec F S32 .f32) (main_arg7 : FVec F S8x64 .f32) (main_arg8 : FVec F S8 .f32) : IVec S_ 1 :=
  let main_v0 : FVec F S4096x64 .f32 := Host.absf main_arg0
  let main_cst : FVec F S_ .f32 := constant S_ .f32 0x7F800000#32
  let main_v1 : FVec F S4096x64 .f32 := broadcastInDim S4096x64 ![] bcast_S_S4096x64 main_cst
  let main_v2 : IVec S4096x64 1 := cmpf .olt main_v0 main_v1
  let main_c : IVec S_ 1 := constantI S_ 1 1#1
  let main_v3 : IVec S_ 1 := (fun x v => Host.reduce IntOp.andi x v reducesTo_S4096x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S8x128 .f32 := Host.absf main_arg3
  let main_cst_4 : FVec F S_ .f32 := constant S_ .f32 0x7F800000#32
  let main_v15 : FVec F S8x128 .f32 := broadcastInDim S8x128 ![] bcast_S_S8x128 main_cst_4
  let main_v16 : IVec S8x128 1 := cmpf .olt main_v14 main_v15
  fn_part1 (F := F) main_arg4 main_arg5 main_arg6 main_arg7 main_arg8 main_v13 main_v16
-- ==== Kernel.lean ====
abbrev S4096x64 : Shape := ⟨2, ![4096, 64]⟩
abbrev S64x64 : Shape := ⟨2, ![64, 64]⟩
abbrev S64 : Shape := ⟨1, ![64]⟩
abbrev S8x128 : Shape := ⟨2, ![8, 128]⟩
abbrev S8 : Shape := ⟨1, ![8]⟩
abbrev S32x64 : Shape := ⟨2, ![32, 64]⟩
abbrev S32 : Shape := ⟨1, ![32]⟩
abbrev S8x64 : Shape := ⟨2, ![8, 64]⟩
abbrev S1x64 : Shape := ⟨2, ![1, 64]⟩
abbrev S64x8 : Shape := ⟨2, ![64, 8]⟩
abbrev S4096x8 : Shape := ⟨2, ![4096, 8]⟩
abbrev S8x4096 : Shape := ⟨2, ![8, 4096]⟩
abbrev S1x8 : Shape := ⟨2, ![1, 8]⟩
abbrev S256x8 : Shape := ⟨2, ![256, 8]⟩
abbrev S256x64 : Shape := ⟨2, ![256, 64]⟩
abbrev S256x1 : Shape := ⟨2, ![256, 1]⟩
abbrev S1x4096 : Shape := ⟨2, ![1, 4096]⟩
abbrev S256x4096 : Shape := ⟨2, ![256, 4096]⟩
abbrev S1x1 : Shape := ⟨2, ![1, 1]⟩
abbrev S256 : Shape := ⟨1, ![256]⟩
abbrev S_ : Shape := ⟨0, ![]⟩
abbrev S64x32 : Shape := ⟨2, ![64, 32]⟩
abbrev S4096x32 : Shape := ⟨2, ![4096, 32]⟩
abbrev S1x32 : Shape := ⟨2, ![1, 32]⟩
abbrev S8x32 : Shape := ⟨2, ![8, 32]⟩
abbrev S32x8 : Shape := ⟨2, ![32, 8]⟩
abbrev S256x32 : Shape := ⟨2, ![256, 32]⟩

abbrev nBuf : Space → Nat
  | .hbm => 42
  | .vmem => 14
  | .smem => 0
  | _ => 0

abbrev bufTy : (tb : Table) → Fin (tcTables nBuf tb) → BufTy
  | .hbm, ⟨0, _⟩ => ⟨S4096x64, .f32⟩
  | .hbm, ⟨1, _⟩ => ⟨S64x64, .f32⟩
  | .hbm, ⟨2, _⟩ => ⟨S64, .f32⟩
  | .hbm, ⟨3, _⟩ => ⟨S8x128, .f32⟩
  | .hbm, ⟨4, _⟩ => ⟨S8, .f32⟩
  | .hbm, ⟨5, _⟩ => ⟨S32x64, .f32⟩
  | .hbm, ⟨6, _⟩ => ⟨S32, .f32⟩
  | .hbm, ⟨7, _⟩ => ⟨S8x64, .f32⟩
  | .hbm, ⟨8, _⟩ => ⟨S8, .f32⟩
  | .hbm, ⟨9, _⟩ => ⟨S64x64, .f32⟩
  | .hbm, ⟨10, _⟩ => ⟨S4096x64, .f32⟩
  | .hbm, ⟨11, _⟩ => ⟨S1x64, .f32⟩
  | .hbm, ⟨12, _⟩ => ⟨S4096x64, .f32⟩
  | .hbm, ⟨13, _⟩ => ⟨S4096x64, .f32⟩
  | .hbm, ⟨14, _⟩ => ⟨S8x64, .f32⟩
  | .hbm, ⟨15, _⟩ => ⟨S64x8, .f32⟩
  | .hbm, ⟨16, _⟩ => ⟨S4096x8, .f32⟩
  | .hbm, ⟨17, _⟩ => ⟨S8x64, .f32⟩
  | .hbm, ⟨18, _⟩ => ⟨S64x8, .f32⟩
  | .hbm, ⟨19, _⟩ => ⟨S4096x8, .f32⟩
  | .hbm, ⟨20, _⟩ => ⟨S8x4096, .f32⟩
  | .hbm, ⟨21, _⟩ => ⟨S1x8, .f32⟩
  | .hbm, ⟨22, _⟩ => ⟨S4096x64, .f32⟩
  | .hbm, ⟨23, _⟩ => ⟨S_, .f32⟩
  | .hbm, ⟨24, _⟩ => ⟨S4096x64, .f32⟩
  | .hbm, ⟨25, _⟩ => ⟨S4096x64, .i1⟩
  | .hbm, ⟨26, _⟩ => ⟨S4096x64, .f32⟩
  | .hbm, ⟨27, _⟩ => ⟨S4096x64, .f32⟩
  | .hbm, ⟨28, _⟩ => ⟨S64x32, .f32⟩
  | .hbm, ⟨29, _⟩ => ⟨S4096x32, .f32⟩
  | .hbm, ⟨30, _⟩ => ⟨S1x32, .f32⟩
  | .hbm, ⟨31, _⟩ => ⟨S4096x32, .f32⟩
  | .hbm, ⟨32, _⟩ => ⟨S4096x32, .f32⟩
  | .hbm, ⟨33, _⟩ => ⟨S8x32, .f32⟩
  | .hbm, ⟨34, _⟩ => ⟨S32x8, .f32⟩
  | .hbm, ⟨35, _⟩ => ⟨S4096x8, .f32⟩
  | .hbm, ⟨36, _⟩ => ⟨S8x32, .f32⟩
  | .hbm, ⟨37, _⟩ => ⟨S32x8, .f32⟩
  | .hbm, ⟨38, _⟩ => ⟨S4096x8, .f32⟩
  | .hbm, ⟨39, _⟩ => ⟨S8x4096, .f32⟩
  | .hbm, ⟨40, _⟩ => ⟨S1x8, .f32⟩
  | .hbm, ⟨41, _⟩ => ⟨S4096x32, .f32⟩
  | .local _ .vmem, ⟨0, _⟩ => ⟨S256x8, .f32⟩
  | .local _ .vmem, ⟨1, _⟩ => ⟨S256x8, .f32⟩
  | .local _ .vmem, ⟨2, _⟩ => ⟨S8x4096, .f32⟩
  | .local _ .vmem, ⟨3, _⟩ => ⟨S1x8, .f32⟩
  | .local _ .vmem, ⟨4, _⟩ => ⟨S4096x64, .f32⟩
  | .local _ .vmem, ⟨5, _⟩ => ⟨S256x64, .f32⟩
  | .local _ .vmem, ⟨6, _⟩ => ⟨S256x64, .f32⟩
  | .local _ .vmem, ⟨7, _⟩ => ⟨S256x8, .f32⟩
  | .local _ .vmem, ⟨8, _⟩ => ⟨S256x8, .f32⟩
  | .local _ .vmem, ⟨9, _⟩ => ⟨S8x4096, .f32⟩
  | .local _ .vmem, ⟨10, _⟩ => ⟨S1x8, .f32⟩
  | .local _ .vmem, ⟨11, _⟩ => ⟨S4096x32, .f32⟩
  | .local _ .vmem, ⟨12, _⟩ => ⟨S256x32, .f32⟩
  | .local _ .vmem, ⟨13, _⟩ => ⟨S256x32, .f32⟩
  | _, _ => ⟨S4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x8 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x8 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S4096x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S256x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  transposes_S64x64_S64x64_1_0 : S64x64.Transposes [1, 0] S64x64
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  slices_S8x128_S8x64_0_0 : S8x128.Slices ![0, 0] S8x64
  transposes_S8x64_S64x8_1_0 : S8x64.Transposes [1, 0] S64x8
  slices_S8x128_S8x64_0_64 : S8x128.Slices ![0, 64] S8x64
  transposes_S4096x8_S8x4096_1_0 : S4096x8.Transposes [1, 0] S8x4096
  shapeCasts_S8_S1x8 : S8.ShapeCasts S1x8
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  bitsLt_bf16_f32 : FTy.bits .bf16 < FTy.bits .f32
  inb_S1x8_S1x8_0_0 : ∀ a, (![0, 0] : Fin 2 → Nat) a + S1x8.size a ≤ S1x8.size a
  h_S1x8 : 0 < S1x8.numel
  shapeCasts_S1x8_S1x8 : S1x8.ShapeCasts S1x8
  inb_S256x8_S256x1_0_0 : ∀ a, (![0, 0] : Fin 2 → Nat) a + S256x1.size a ≤ S256x8.size a
  h_S256x1 : 0 < S256x1.numel
  shapeCasts_S256x1_S256x1 : S256x1.ShapeCasts S256x1
  inb_S8x4096_S1x4096_0_0 : ∀ a, (![0, 0] : Fin 2 → Nat) a + S1x4096.size a ≤ S8x4096.size a
  h_S1x4096 : 0 < S1x4096.numel
  shapeCasts_S1x4096_S1x4096 : S1x4096.ShapeCasts S1x4096
  broadcasts_S256x1_S256x4096 : S256x1.Broadcasts S256x4096
  broadcasts_S1x4096_S256x4096 : S1x4096.Broadcasts S256x4096
  slices_S1x8_o0_0_S1x1 : S1x8.Slices ![0, 0] S1x1
  inpos_S1x1_p0_0 : ∀ a, (![0, 0] : Fin 2 → Nat) a < S1x1.size a
  reduces_S256x4096_S256 : S256x4096.Reduces [1] S256
  shapeCasts_S256_S256x1 : S256.ShapeCasts S256x1
  inb_S256x8_S256x1_0_1 : ∀ a, (![0, 1] : Fin 2 → Nat) a + S256x1.size a ≤ S256x8.size a
  inb_S8x4096_S1x4096_1_0 : ∀ a, (![1, 0] : Fin 2 → Nat) a + S1x4096.size a ≤ S8x4096.size a
  slices_S1x8_o0_1_S1x1 : S1x8.Slices ![0, 1] S1x1
  inb_S256x8_S256x1_0_2 : ∀ a, (![0, 2] : Fin 2 → Nat) a + S256x1.size a ≤ S256x8.size a
  inb_S8x4096_S1x4096_2_0 : ∀ a, (![2, 0] : Fin 2 → Nat) a + S1x4096.size a ≤ S8x4096.size a
  slices_S1x8_o0_2_S1x1 : S1x8.Slices ![0, 2] S1x1
  inb_S256x8_S256x1_0_3 : ∀ a, (![0, 3] : Fin 2 → Nat) a + S256x1.size a ≤ S256x8.size a
  inb_S8x4096_S1x4096_3_0 : ∀ a, (![3, 0] : Fin 2 → Nat) a + S1x4096.size a ≤ S8x4096.size a
  slices_S1x8_o0_3_S1x1 : S1x8.Slices ![0, 3] S1x1
  inb_S256x8_S256x1_0_4 : ∀ a, (![0, 4] : Fin 2 → Nat) a + S256x1.size a ≤ S256x8.size a
  inb_S8x4096_S1x4096_4_0 : ∀ a, (![4, 0] : Fin 2 → Nat) a + S1x4096.size a ≤ S8x4096.size a
  slices_S1x8_o0_4_S1x1 : S1x8.Slices ![0, 4] S1x1
  inb_S256x8_S256x1_0_5 : ∀ a, (![0, 5] : Fin 2 → Nat) a + S256x1.size a ≤ S256x8.size a
  inb_S8x4096_S1x4096_5_0 : ∀ a, (![5, 0] : Fin 2 → Nat) a + S1x4096.size a ≤ S8x4096.size a
  slices_S1x8_o0_5_S1x1 : S1x8.Slices ![0, 5] S1x1
  inb_S256x8_S256x1_0_6 : ∀ a, (![0, 6] : Fin 2 → Nat) a + S256x1.size a ≤ S256x8.size a
  inb_S8x4096_S1x4096_6_0 : ∀ a, (![6, 0] : Fin 2 → Nat) a + S1x4096.size a ≤ S8x4096.size a
  slices_S1x8_o0_6_S1x1 : S1x8.Slices ![0, 6] S1x1
  inb_S256x8_S256x1_0_7 : ∀ a, (![0, 7] : Fin 2 → Nat) a + S256x1.size a ≤ S256x8.size a
  inb_S8x4096_S1x4096_7_0 : ∀ a, (![7, 0] : Fin 2 → Nat) a + S1x4096.size a ≤ S8x4096.size a
  slices_S1x8_o0_7_S1x1 : S1x8.Slices ![0, 7] S1x1
  inb_S256x64_S256x64_0_0 : ∀ a, (![0, 0] : Fin 2 → Nat) a + S256x64.size a ≤ S256x64.size a
  h_S256x64 : 0 < S256x64.numel
  bcast_S_S4096x64 : S_.BroadcastsInDim S4096x64 (![] : Fin 0 → Fin S4096x64.rank)
  transposes_S32x64_S64x32_1_0 : S32x64.Transposes [1, 0] S64x32
  bcast_S32_S1x32_1 : S32.BroadcastsInDim S1x32 (![1] : Fin 1 → Fin S1x32.rank)
  bcast_S1x32_S4096x32_0_1 : S1x32.BroadcastsInDim S4096x32 (![0, 1] : Fin 2 → Fin S4096x32.rank)
  slices_S8x64_S8x32_0_0 : S8x64.Slices ![0, 0] S8x32
  transposes_S8x32_S32x8_1_0 : S8x32.Transposes [1, 0] S32x8
  slices_S8x64_S8x32_0_32 : S8x64.Slices ![0, 32] S8x32
  inb_S4096x32_S4096x32_0_0 : ∀ a, (![0, 0] : Fin 2 → Nat) a + S4096x32.size a ≤ S4096x32.size a
  h_S4096x32 : 0 < S4096x32.numel
  shapeCasts_S4096x32_S4096x32 : S4096x32.ShapeCasts S4096x32
  inb_S256x32_S256x32_0_0 : ∀ a, (![0, 0] : Fin 2 → Nat) a + S256x32.size a ≤ S256x32.size a
  h_S256x32 : 0 < S256x32.numel
  dot_S4096x64_S64x64_S4096x64_1_0_0_1_n_n_wf : DotDims.WF S4096x64 S64x64 S4096x64 [1] [0] [0] [1] [] []
  dot_S4096x64_S64x8_S4096x8_1_0_0_1_n_n_wf : DotDims.WF S4096x64 S64x8 S4096x8 [1] [0] [0] [1] [] []
  dot_S256x4096_S4096x64_S256x64_1_0_0_1_n_n_wf : DotDims.WF S256x4096 S4096x64 S256x64 [1] [0] [0] [1] [] []
  dot_S4096x64_S64x32_S4096x32_1_0_0_1_n_n_wf : DotDims.WF S4096x64 S64x32 S4096x32 [1] [0] [0] [1] [] []
  dot_S4096x32_S32x8_S4096x8_1_0_0_1_n_n_wf : DotDims.WF S4096x32 S32x8 S4096x8 [1] [0] [0] [1] [] []
  dot_S256x4096_S4096x32_S256x32_1_0_0_1_n_n_wf : DotDims.WF S256x4096 S4096x32 S256x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8.size a ≤ S4096x8.size a
  hwx0_0 : ∀ i : grid0.Coords, EltTy.bits .f32 = 32 ∨ (Rect.block (s := S4096x8) S256x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x4096.size a ≤ S8x4096.size a
  hwx0_1 : ∀ i : grid0.Coords, EltTy.bits .f32 = 32 ∨ (Rect.block (s := S8x4096) S8x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8.size a ≤ S1x8.size a
  hwx0_2 : ∀ i : grid0.Coords, EltTy.bits .f32 = 32 ∨ (Rect.block (s := S1x8) S1x8.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x64.size a ≤ S4096x64.size a
  hwx0_3 : ∀ i : grid0.Coords, EltTy.bits .f32 = 32 ∨ (Rect.block (s := S4096x64) S4096x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x64.size a ≤ S4096x64.size a
  hwx0_4 : ∀ i : grid0.Coords, EltTy.bits .f32 = 32 ∨ (Rect.block (s := S4096x64) S256x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x8.size a ≤ S4096x8.size a
  hwx1_0 : ∀ i : grid1.Coords, EltTy.bits .f32 = 32 ∨ (Rect.block (s := S4096x8) S256x8.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8x4096.size a ≤ S8x4096.size a
  hwx1_1 : ∀ i : grid1.Coords, EltTy.bits .f32 = 32 ∨ (Rect.block (s := S8x4096) S8x4096.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x8.size a ≤ S1x8.size a
  hwx1_2 : ∀ i : grid1.Coords, EltTy.bits .f32 = 32 ∨ (Rect.block (s := S1x8) S1x8.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S4096x32.size a ≤ S4096x32.size a
  hwx1_3 : ∀ i : grid1.Coords, EltTy.bits .f32 = 32 ∨ (Rect.block (s := S4096x32) S4096x32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x32.size a ≤ S4096x32.size a
  hwx1_4 : ∀ i : grid1.Coords, EltTy.bits .f32 = 32 ∨ (Rect.block (s := S4096x32) S256x32.size (cc1_transform_4 i) (hinb1_4 i)).WholeWords (EltTy.packing .f32)

variable [Facts₀]

def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S4096x64_S64x8_S4096x8_1_0_0_1_n_n : DotDims S4096x64 S64x8 S4096x8 where
  lhsContracting := [1]
  rhsContracting := [0]
  lhsNonContracting := [0]
  rhsNonContracting := [1]
  lhsBatch := []
  rhsBatch := []
  wf := dot_S4096x64_S64x8_S4096x8_1_0_0_1_n_n_wf
def dot_S256x4096_S4096x64_S256x64_1_0_0_1_n_n : DotDims S256x4096 S4096x64 S256x64 where
  lhsContracting := [1]
  rhsContracting := [0]
  lhsNonContracting := [0]
  rhsNonContracting := [1]
  lhsBatch := []
  rhsBatch := []
  wf := dot_S256x4096_S4096x64_S256x64_1_0_0_1_n_n_wf
def dot_S4096x64_S64x32_S4096x32_1_0_0_1_n_n : DotDims S4096x64 S64x32 S4096x32 where
  lhsContracting := [1]
  rhsContracting := [0]
  lhsNonContracting := [0]
  rhsNonContracting := [1]
  lhsBatch := []
  rhsBatch := []
  wf := dot_S4096x64_S64x32_S4096x32_1_0_0_1_n_n_wf
def dot_S4096x32_S32x8_S4096x8_1_0_0_1_n_n : DotDims S4096x32 S32x8 S4096x8 where
  lhsContracting := [1]
  rhsContracting := [0]
  lhsNonContracting := [0]
  rhsNonContracting := [1]
  lhsBatch := []
  rhsBatch := []
  wf := dot_S4096x32_S32x8_S4096x8_1_0_0_1_n_n_wf
def dot_S256x4096_S4096x32_S256x32_1_0_0_1_n_n : DotDims S256x4096 S4096x32 S256x32 where
  lhsContracting := [1]
  rhsContracting := [0]
  lhsNonContracting := [0]
  rhsNonContracting := [1]
  lhsBatch := []
  rhsBatch := []
  wf := dot_S256x4096_S4096x32_S256x32_1_0_0_1_n_n_wf

abbrev win0_0 : Pipeline.Window sig grid0 :=
  Pipeline.Window.ofSpec (Memref.whole main_v7) S256x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S8x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S4096x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S256x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v25) S256x8.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S8x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v30) S1x8.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v22) S4096x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S256x32.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S4096x64 : Shape := ⟨2, ![4096, 64]⟩
abbrev S64x64 : Shape := ⟨2, ![64, 64]⟩
abbrev S64 : Shape := ⟨1, ![64]⟩
abbrev S8x128 : Shape := ⟨2, ![8, 128]⟩
abbrev S8 : Shape := ⟨1, ![8]⟩
abbrev S32x64 : Shape := ⟨2, ![32, 64]⟩
abbrev S32 : Shape := ⟨1, ![32]⟩
abbrev S8x64 : Shape := ⟨2, ![8, 64]⟩
abbrev S1x64 : Shape := ⟨2, ![1, 64]⟩
abbrev S64x8 : Shape := ⟨2, ![64, 8]⟩
abbrev S4096x8 : Shape := ⟨2, ![4096, 8]⟩
abbrev S8x4096 : Shape := ⟨2, ![8, 4096]⟩
abbrev S8x4096x1 : Shape := ⟨3, ![8, 4096, 1]⟩
abbrev S8x1x4096 : Shape := ⟨3, ![8, 1, 4096]⟩
abbrev S8x4096x4096 : Shape := ⟨3, ![8, 4096, 4096]⟩
abbrev S8x1x1 : Shape := ⟨3, ![8, 1, 1]⟩
abbrev S_ : Shape := ⟨0, ![]⟩
abbrev S8x4096x64 : Shape := ⟨3, ![8, 4096, 64]⟩
abbrev S64x32 : Shape := ⟨2, ![64, 32]⟩
abbrev S4096x32 : Shape := ⟨2, ![4096, 32]⟩
abbrev S1x32 : Shape := ⟨2, ![1, 32]⟩
abbrev S8x32 : Shape := ⟨2, ![8, 32]⟩
abbrev S32x8 : Shape := ⟨2, ![32, 8]⟩
abbrev S8x4096x32 : Shape := ⟨3, ![8, 4096, 32]⟩

abbrev nBuf : Space → Nat
  | .hbm => 122
  | .vmem => 0
  | .smem => 0
  | _ => 0

abbrev bufTy : (tb : Table) → Fin (tcTables nBuf tb) → BufTy
  | .hbm, ⟨0, _⟩ => ⟨S4096x64, .f32⟩
  | .hbm, ⟨1, _⟩ => ⟨S64x64, .f32⟩
  | .hbm, ⟨2, _⟩ => ⟨S64, .f32⟩
  | .hbm, ⟨3, _⟩ => ⟨S8x128, .f32⟩
  | .hbm, ⟨4, _⟩ => ⟨S8, .f32⟩
  | .hbm, ⟨5, _⟩ => ⟨S32x64, .f32⟩
  | .hbm, ⟨6, _⟩ => ⟨S32, .f32⟩
  | .hbm, ⟨7, _⟩ => ⟨S8x64, .f32⟩
  | .hbm, ⟨8, _⟩ => ⟨S8, .f32⟩
  | .hbm, ⟨9, _⟩ => ⟨S64x64, .f32⟩
  | .hbm, ⟨10, _⟩ => ⟨S4096x64, .f32⟩
  | .hbm, ⟨11, _⟩ => ⟨S1x64, .f32⟩
  | .hbm, ⟨12, _⟩ => ⟨S4096x64, .f32⟩
  | .hbm, ⟨13, _⟩ => ⟨S4096x64, .f32⟩
  | .hbm, ⟨14, _⟩ => ⟨S8x64, .f32⟩
  | .hbm, ⟨15, _⟩ => ⟨S64x8, .f32⟩
  | .hbm, ⟨16, _⟩ => ⟨S4096x8, .f32⟩
  | .hbm, ⟨17, _⟩ => ⟨S8x64, .f32⟩
  | .hbm, ⟨18, _⟩ => ⟨S64x8, .f32⟩
  | .hbm, ⟨19, _⟩ => ⟨S4096x8, .f32⟩
  | .hbm, ⟨20, _⟩ => ⟨S8x4096, .f32⟩
  | .hbm, ⟨21, _⟩ => ⟨S8x4096x1, .f32⟩
  | .hbm, ⟨22, _⟩ => ⟨S8x4096, .f32⟩
  | .hbm, ⟨23, _⟩ => ⟨S8x1x4096, .f32⟩
  | .hbm, ⟨24, _⟩ => ⟨S8x4096x4096, .f32⟩
  | .hbm, ⟨25, _⟩ => ⟨S8x4096x4096, .f32⟩
  | .hbm, ⟨26, _⟩ => ⟨S8x4096x4096, .f32⟩
  | .hbm, ⟨27, _⟩ => ⟨S8x1x1, .f32⟩
  | .hbm, ⟨28, _⟩ => ⟨S8x4096x4096, .f32⟩
  | .hbm, ⟨29, _⟩ => ⟨S8x4096x4096, .f32⟩
  | .hbm, ⟨30, _⟩ => ⟨S_, .f32⟩
  | .hbm, ⟨31, _⟩ => ⟨S8x4096, .f32⟩
  | .hbm, ⟨32, _⟩ => ⟨S_, .f32⟩
  | .hbm, ⟨33, _⟩ => ⟨S8x4096, .f32⟩
  | .hbm, ⟨34, _⟩ => ⟨S8x4096, .f32⟩
  | .hbm, ⟨35, _⟩ => ⟨S8x4096x1, .f32⟩
  | .hbm, ⟨36, _⟩ => ⟨S8x4096x4096, .f32⟩
  | .hbm, ⟨37, _⟩ => ⟨S8x4096x4096, .f32⟩
  | .hbm, ⟨38, _⟩ => ⟨S8x4096x4096, .f32⟩
  | .hbm, ⟨39, _⟩ => ⟨S_, .f32⟩
  | .hbm, ⟨40, _⟩ => ⟨S8x4096, .f32⟩
  | .hbm, ⟨41, _⟩ => ⟨S8x4096x1, .f32⟩
  | .hbm, ⟨42, _⟩ => ⟨S8x4096x4096, .f32⟩
  | .hbm, ⟨43, _⟩ => ⟨S8x4096x4096, .f32⟩
  | .hbm, ⟨44, _⟩ => ⟨S8x4096x64, .f32⟩
  | .hbm, ⟨45, _⟩ => ⟨S_, .f32⟩
  | .hbm, ⟨46, _⟩ => ⟨S4096x64, .f32⟩
  | .hbm, ⟨47, _⟩ => ⟨S_, .f32⟩
  | .hbm, ⟨48, _⟩ => ⟨S4096x64, .f32⟩
  | .hbm, ⟨49, _⟩ => ⟨S4096x64, .f32⟩
  | .hbm, ⟨50, _⟩ => ⟨S_, .f32⟩
  | .hbm, ⟨51, _⟩ => ⟨S_, .f32⟩
  | .hbm, ⟨52, _⟩ => ⟨S4096x64, .f32⟩
  | .hbm, ⟨53, _⟩ => ⟨S4096x64, .i1⟩
  | .hbm, ⟨54, _⟩ => ⟨S_, .f32⟩
  | .hbm, ⟨55, _⟩ => ⟨S4096x64, .f32⟩
  | .hbm, ⟨56, _⟩ => ⟨S4096x64, .f32⟩
  | .hbm, ⟨57, _⟩ => ⟨S4096x64, .f32⟩
  | .hbm, ⟨58, _⟩ => ⟨S_, .f32⟩
  | .hbm, ⟨59, _⟩ => ⟨S4096x64, .f32⟩
  | .hbm, ⟨60, _⟩ => ⟨S4096x64, .i1⟩
  | .hbm, ⟨61, _⟩ => ⟨S_, .f32⟩
  | .hbm, ⟨62, _⟩ => ⟨S4096x64, .f32⟩
  | .hbm, ⟨63, _⟩ => ⟨S4096x64, .i1⟩
  | .hbm, ⟨64, _⟩ => ⟨S_, .f32⟩
  | .hbm, ⟨65, _⟩ => ⟨S_, .f32⟩
  | .hbm, ⟨66, _⟩ => ⟨S4096x64, .f32⟩
  | .hbm, ⟨67, _⟩ => ⟨S4096x64, .f32⟩
  | .hbm, ⟨68, _⟩ => ⟨S4096x64, .f32⟩
  | .hbm, ⟨69, _⟩ => ⟨S_, .f32⟩
  | .hbm, ⟨70, _⟩ => ⟨S4096x64, .f32⟩
  | .hbm, ⟨71, _⟩ => ⟨S4096x64, .f32⟩
  | .hbm, ⟨72, _⟩ => ⟨S4096x64, .f32⟩
  | .hbm, ⟨73, _⟩ => ⟨S64x32, .f32⟩
  | .hbm, ⟨74, _⟩ => ⟨S4096x32, .f32⟩
  | .hbm, ⟨75, _⟩ => ⟨S1x32, .f32⟩
  | .hbm, ⟨76, _⟩ => ⟨S4096x32, .f32⟩
  | .hbm, ⟨77, _⟩ => ⟨S4096x32, .f32⟩
  | .hbm, ⟨78, _⟩ => ⟨S8x32, .f32⟩
  | .hbm, ⟨79, _⟩ => ⟨S32x8, .f32⟩
  | .hbm, ⟨80, _⟩ => ⟨S4096x8, .f32⟩
  | .hbm, ⟨81, _⟩ => ⟨S8x32, .f32⟩
  | .hbm, ⟨82, _⟩ => ⟨S32x8, .f32⟩
  | .hbm, ⟨83, _⟩ => ⟨S4096x8, .f32⟩
  | .hbm, ⟨84, _⟩ => ⟨S8x4096, .f32⟩
  | .hbm, ⟨85, _⟩ => ⟨S8x4096x1, .f32⟩
  | .hbm, ⟨86, _⟩ => ⟨S8x4096, .f32⟩
  | .hbm, ⟨87, _⟩ => ⟨S8x1x4096, .f32⟩
  | .hbm, ⟨88, _⟩ => ⟨S8x4096x4096, .f32⟩
  | .hbm, ⟨89, _⟩ => ⟨S8x4096x4096, .f32⟩
  | .hbm, ⟨90, _⟩ => ⟨S8x4096x4096, .f32⟩
  | .hbm, ⟨91, _⟩ => ⟨S8x1x1, .f32⟩
  | .hbm, ⟨92, _⟩ => ⟨S8x4096x4096, .f32⟩
  | .hbm, ⟨93, _⟩ => ⟨S8x4096x4096, .f32⟩
  | .hbm, ⟨94, _⟩ => ⟨S_, .f32⟩
  | .hbm, ⟨95, _⟩ => ⟨S8x4096, .f32⟩
  | .hbm, ⟨96, _⟩ => ⟨S_, .f32⟩
  | .hbm, ⟨97, _⟩ => ⟨S8x4096, .f32⟩
  | .hbm, ⟨98, _⟩ => ⟨S8x4096, .f32⟩
  | .hbm, ⟨99, _⟩ => ⟨S8x4096x1, .f32⟩
  | .hbm, ⟨100, _⟩ => ⟨S8x4096x4096, .f32⟩
  | .hbm, ⟨101, _⟩ => ⟨S8x4096x4096, .f32⟩
  | .hbm, ⟨102, _⟩ => ⟨S8x4096x4096, .f32⟩
  | .hbm, ⟨103, _⟩ => ⟨S_, .f32⟩
  | .hbm, ⟨104, _⟩ => ⟨S8x4096, .f32⟩
  | .hbm, ⟨105, _⟩ => ⟨S8x4096x1, .f32⟩
  | .hbm, ⟨106, _⟩ => ⟨S8x4096x4096, .f32⟩
  | .hbm, ⟨107, _⟩ => ⟨S8x4096x4096, .f32⟩
  | .hbm, ⟨108, _⟩ => ⟨S8x4096x32, .f32⟩
  | .hbm, ⟨109, _⟩ => ⟨S_, .f32⟩
  | .hbm, ⟨110, _⟩ => ⟨S4096x32, .f32⟩
  | .hbm, ⟨111, _⟩ => ⟨S_, .f32⟩
  | .hbm, ⟨112, _⟩ => ⟨S4096x32, .f32⟩
  | .hbm, ⟨113, _⟩ => ⟨S4096x32, .f32⟩
  | .hbm, ⟨114, _⟩ => ⟨S_, .f32⟩
  | .hbm, ⟨115, _⟩ => ⟨S_, .f32⟩
  | .hbm, ⟨116, _⟩ => ⟨S4096x32, .f32⟩
  | .hbm, ⟨117, _⟩ => ⟨S4096x32, .i1⟩
  | .hbm, ⟨118, _⟩ => ⟨S_, .f32⟩
  | .hbm, ⟨119, _⟩ => ⟨S4096x32, .f32⟩
  | .hbm, ⟨120, _⟩ => ⟨S4096x32, .f32⟩
  | .hbm, ⟨121, _⟩ => ⟨S4096x32, .f32⟩
  | _, _ => ⟨S4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst : Ref sig .tc := ⟨.hbm, 30, rfl⟩
abbrev main_v21 : Ref sig .tc := ⟨.hbm, 31, rfl⟩
abbrev main_cst_0 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_1 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_2 : Ref sig .tc := ⟨.hbm, 45, rfl⟩
abbrev main_v33 : Ref sig .tc := ⟨.hbm, 46, rfl⟩
abbrev main_cst_3 : Ref sig .tc := ⟨.hbm, 47, rfl⟩
abbrev main_v34 : Ref sig .tc := ⟨.hbm, 48, rfl⟩
abbrev main_v35 : Ref sig .tc := ⟨.hbm, 49, rfl⟩
abbrev main_cst_4 : Ref sig .tc := ⟨.hbm, 50, rfl⟩
abbrev main_call0_cst : Ref sig .tc := ⟨.hbm, 51, rfl⟩
abbrev main_call0_v0 : Ref sig .tc := ⟨.hbm, 52, rfl⟩
abbrev main_call0_v1 : Ref sig .tc := ⟨.hbm, 53, rfl⟩
abbrev main_call0_v2 : Ref sig .tc := ⟨.hbm, 54, rfl⟩
abbrev main_call0_v3 : Ref sig .tc := ⟨.hbm, 55, rfl⟩
abbrev main_call0_v4 : Ref sig .tc := ⟨.hbm, 56, rfl⟩
abbrev main_v36 : Ref sig .tc := ⟨.hbm, 57, rfl⟩
abbrev main_call1_cst : Ref sig .tc := ⟨.hbm, 58, rfl⟩
abbrev main_call1_v0 : Ref sig .tc := ⟨.hbm, 59, rfl⟩
abbrev main_call1_v1 : Ref sig .tc := ⟨.hbm, 60, rfl⟩
abbrev main_call1_cst_0 : Ref sig .tc := ⟨.hbm, 61, rfl⟩
abbrev main_call1_v2 : Ref sig .tc := ⟨.hbm, 62, rfl⟩
abbrev main_call1_v3 : Ref sig .tc := ⟨.hbm, 63, rfl⟩
abbrev main_call1_cst_1 : Ref sig .tc := ⟨.hbm, 64, rfl⟩
abbrev main_call1_call0_v0 : Ref sig .tc := ⟨.hbm, 65, rfl⟩
abbrev main_call1_call0_v1 : Ref sig .tc := ⟨.hbm, 66, rfl⟩
abbrev main_call1_v4 : Ref sig .tc := ⟨.hbm, 67, rfl⟩
abbrev main_call1_v5 : Ref sig .tc := ⟨.hbm, 68, rfl⟩
abbrev main_call1_cst_2 : Ref sig .tc := ⟨.hbm, 69, rfl⟩
abbrev main_call1_v6 : Ref sig .tc := ⟨.hbm, 70, rfl⟩
abbrev main_call1_v7 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_cst_5 : Ref sig .tc := ⟨.hbm, 94, rfl⟩
abbrev main_v59 : Ref sig .tc := ⟨.hbm, 95, rfl⟩
abbrev main_cst_6 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_cst_7 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_cst_8 : Ref sig .tc := ⟨.hbm, 109, rfl⟩
abbrev main_v71 : Ref sig .tc := ⟨.hbm, 110, rfl⟩
abbrev main_cst_9 : Ref sig .tc := ⟨.hbm, 111, rfl⟩
abbrev main_v72 : Ref sig .tc := ⟨.hbm, 112, rfl⟩
abbrev main_v73 : Ref sig .tc := ⟨.hbm, 113, rfl⟩
abbrev main_cst_10 : Ref sig .tc := ⟨.hbm, 114, rfl⟩
abbrev main_call2_cst : Ref sig .tc := ⟨.hbm, 115, rfl⟩
abbrev main_call2_v0 : Ref sig .tc := ⟨.hbm, 116, rfl⟩
abbrev main_call2_v1 : Ref sig .tc := ⟨.hbm, 117, rfl⟩
abbrev main_call2_v2 : Ref sig .tc := ⟨.hbm, 118, rfl⟩
abbrev main_call2_v3 : Ref sig .tc := ⟨.hbm, 119, rfl⟩
abbrev main_call2_v4 : Ref sig .tc := ⟨.hbm, 120, rfl⟩
abbrev main_v74 : Ref sig .tc := ⟨.hbm, 121, rfl⟩

abbrev nD : Nat := 1
abbrev τ : Topo := Topo.v7x

variable {F : FTy → Type} [FloatOps F]

class Facts₀ : Prop where
  transposes_S64x64_S64x64_1_0 : S64x64.Transposes [1, 0] S64x64
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  slices_S8x128_S8x64_0_0 : S8x128.Slices ![0, 0] S8x64
  transposes_S8x64_S64x8_1_0 : S8x64.Transposes [1, 0] S64x8
  slices_S8x128_S8x64_0_64 : S8x128.Slices ![0, 64] S8x64
  transposes_S4096x8_S8x4096_1_0 : S4096x8.Transposes [1, 0] S8x4096
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S8_S8x1x1_0 : S8.BroadcastsInDim S8x1x1 (![0] : Fin 1 → Fin S8x1x1.rank)
  bcast_S8x1x1_S8x4096x4096_0_1_2 : S8x1x1.BroadcastsInDim S8x4096x4096 (![0, 1, 2] : Fin 3 → Fin S8x4096x4096.rank)
  reducesTo_S8x4096x4096_S8x4096_d2 : S8x4096x4096.ReducesTo [2] S8x4096
  h_S_ : 0 < S_.numel
  bcast_S_S8x4096 : S_.BroadcastsInDim S8x4096 (![] : Fin 0 → Fin S8x4096.rank)
  reducesTo_S8x4096x64_S4096x64_d0 : S8x4096x64.ReducesTo [0] S4096x64
  bcast_S_S4096x64 : S_.BroadcastsInDim S4096x64 (![] : Fin 0 → Fin S4096x64.rank)
  transposes_S32x64_S64x32_1_0 : S32x64.Transposes [1, 0] S64x32
  bcast_S32_S1x32_1 : S32.BroadcastsInDim S1x32 (![1] : Fin 1 → Fin S1x32.rank)
  bcast_S1x32_S4096x32_0_1 : S1x32.BroadcastsInDim S4096x32 (![0, 1] : Fin 2 → Fin S4096x32.rank)
  slices_S8x64_S8x32_0_0 : S8x64.Slices ![0, 0] S8x32
  transposes_S8x32_S32x8_1_0 : S8x32.Transposes [1, 0] S32x8
  slices_S8x64_S8x32_0_32 : S8x64.Slices ![0, 32] S8x32
  reducesTo_S8x4096x32_S4096x32_d0 : S8x4096x32.ReducesTo [0] S4096x32
  bcast_S_S4096x32 : S_.BroadcastsInDim S4096x32 (![] : Fin 0 → Fin S4096x32.rank)
  dot_S4096x64_S64x64_S4096x64_1_0_0_1_n_n_wf : DotDims.WF S4096x64 S64x64 S4096x64 [1] [0] [0] [1] [] []
  dot_S4096x64_S64x8_S4096x8_1_0_0_1_n_n_wf : DotDims.WF S4096x64 S64x8 S4096x8 [1] [0] [0] [1] [] []
  dot_S8x4096x4096_S4096x64_S8x4096x64_2_0_01_1_n_n_wf : DotDims.WF S8x4096x4096 S4096x64 S8x4096x64 [2] [0] [0, 1] [1] [] []
  dot_S4096x64_S64x32_S4096x32_1_0_0_1_n_n_wf : DotDims.WF S4096x64 S64x32 S4096x32 [1] [0] [0] [1] [] []
  dot_S4096x32_S32x8_S4096x8_1_0_0_1_n_n_wf : DotDims.WF S4096x32 S32x8 S4096x8 [1] [0] [0] [1] [] []
  dot_S8x4096x4096_S4096x32_S8x4096x32_2_0_01_1_n_n_wf : DotDims.WF S8x4096x4096 S4096x32 S8x4096x32 [2] [0] [0, 1] [1] [] []

variable [Facts₀]

def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S4096x64_S64x8_S4096x8_1_0_0_1_n_n : DotDims S4096x64 S64x8 S4096x8 where
  lhsContracting := [1]
  rhsContracting := [0]
  lhsNonContracting := [0]
  rhsNonContracting := [1]
  lhsBatch := []
  rhsBatch := []
  wf := dot_S4096x64_S64x8_S4096x8_1_0_0_1_n_n_wf
def dot_S8x4096x4096_S4096x64_S8x4096x64_2_0_01_1_n_n : DotDims S8x4096x4096 S4096x64 S8x4096x64 where
  lhsContracting := [2]
  rhsContracting := [0]
  lhsNonContracting := [0, 1]
  rhsNonContracting := [1]
  lhsBatch := []
  rhsBatch := []
  wf := dot_S8x4096x4096_S4096x64_S8x4096x64_2_0_01_1_n_n_wf
def dot_S4096x64_S64x32_S4096x32_1_0_0_1_n_n : DotDims S4096x64 S64x32 S4096x32 where
  lhsContracting := [1]
  rhsContracting := [0]
  lhsNonContracting := [0]
  rhsNonContracting := [1]
  lhsBatch := []
  rhsBatch := []
  wf := dot_S4096x64_S64x32_S4096x32_1_0_0_1_n_n_wf
def dot_S4096x32_S32x8_S4096x8_1_0_0_1_n_n : DotDims S4096x32 S32x8 S4096x8 where
  lhsContracting := [1]
  rhsContracting := [0]
  lhsNonContracting := [0]
  rhsNonContracting := [1]
  lhsBatch := []
  rhsBatch := []
  wf := dot_S4096x32_S32x8_S4096x8_1_0_0_1_n_n_wf
def dot_S8x4096x4096_S4096x32_S8x4096x32_2_0_01_1_n_n : DotDims S8x4096x4096 S4096x32 S8x4096x32 where
  lhsContracting := [2]
  rhsContracting := [0]
  lhsNonContracting := [0, 1]
  rhsNonContracting := [1]
  lhsBatch := []
  rhsBatch := []
  wf := dot_S8x4096x4096_S4096x32_S8x4096x32_2_0_01_1_n_n_wf

class Facts : Prop extends Facts₀ where

variable [Facts]
-- ==== Proof.KRun.lean ====
/-
  The kernel program's run with its result buffer named.

  From any memory with zero counters, every weakly fair execution of the program on the TensorCores terminates, nothing
  faulting, and in every final state the result buffer holds what the fold of buffer contents through the program
  leaves there (the second region's exit contents at the result's buffer), and each of the nine argument arrays holds
  what it was launched with.
-/
import proofs.«136446_j28295244546247_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option backward.isDefEq.respectTransparency.types false in
/-- The run: the result buffer ends at the last boundary's contents, the arguments as launched. -/
theorem run_named (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v31) = Gen.W6 m ρ c (Proc.devRef .tc main_v31)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v31 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c)⟩)

end Cert.KernelIdeal.KRun

end
-- ==== Proof.LibSeqChain.lean ====
/-
  Two facts about straight lines of host operations.

  `seq ops` runs the operations of a list one after the other, and `after ops V` is what the buffers hold afterwards, from
  contents `V`. Running `l₁ ++ l₂` is running `l₁` and then `l₂`, so
  * `after (l₁ ++ l₂) V = after l₂ (after l₁ V)` (`after_append`), and
  * a chain of straight lines is the straight line of their concatenation,
    `chain [seq l₁, …, seq lₙ] = seq (l₁ ++ … ++ lₙ)` (`chain_map_seq`).
  With the second, a host program that calls small outlined functions can be stated as a chain with one item per call
  and one per stretch between calls, each call's body rewritten to the straight line of its own operations, and the
  whole then read as ONE straight line; with the first, that line's effect is read stretch by stretch.
-/
import Idealize.ShloMosaic.Lib.StableHlo.Run
import Idealize.ShloMosaic.Lib.Pipeline.Regions

namespace Idealize.ShloMosaic.StableHlo

open Idealize.SL.Sem

/-- What the buffers hold after `l₁ ++ l₂` is what they hold after `l₂`, run from what they hold after `l₁`. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

/-- A chain of straight lines is the straight line of their concatenation. -/
theorem chain_map_seq {nD : Nat} {τ : Topo} {sig : RefSig} {Val : EltTy → Type} {Λ : Labels} (ls : List (List (HloOp τ sig Val))) :
    Pipeline.chain (ls.map (seq (nD := nD) (Λ := Λ))) = seq ls.flatten := by
  induction ls with
  | nil => rfl
  | cons l ls ih => rw [List.map_cons, Pipeline.chain_cons, ih, List.flatten_cons, seq_append]

end Idealize.ShloMosaic.StableHlo
-- ==== Proof.RefRunOps.lean ====
/-
  The reference program as ONE straight line of host operations.

  @main is eighty-four host operations and three calls of outlined functions (the leaky rectifier of layer 1, the
  exponential linear unit between the layers, the leaky rectifier of layer 2), whose bodies are again host operations
  (each ends in a call of a three-operand choice).  Written out at their call sites, over the buffers each call was
  given, the operations make one list of 113, cut here into five stretches:
  * `opsA`: layer 1 up to the mean over the heads (the embedding, the two projections, the scores, their softmax, the
    weighted sum and its division by eight);
  * `opsB`: the slope constant and the leaky rectifier's body;
  * `opsE`: the exponential linear unit's body;
  * `opsC`: layer 2 up to the mean over the heads;
  * `opsD`: the slope constant and the second leaky rectifier's body.
  `main_eq` says @main is the straight line of their concatenation: both sides are the same chain of steps once
  sequencing is re-associated, which is a computation.
-/
import proofs.«136446_j28295244546247_2_alg».proof.ReferenceIdeal
import proofs.«136446_j28295244546247_2_alg».proof.Proof.Gen.ReferenceIdeal
import proofs.«136446_j28295244546247_2_alg».proof.Proof.LibSeqChain
import Idealize.ShloMosaic.Lib.StableHlo.Run
import Idealize.ShloMosaic.PureOps.Ideal.Laws
import Idealize.ShloMosaic.Lib.Pipeline.Regions

noncomputable section

namespace Cert.ReferenceIdeal.RefRun

open Cert.ReferenceIdeal Cert.ReferenceIdeal.Gen Idealize.ShloMosaic Idealize.ShloMosaic.TcCoe Idealize.SL.Sem Idealize.ShloMosaic.StableHlo

/-- Layer 1 up to the mean over the heads: 41 operations. -/
abbrev opsA : List (HloOp τ sig (Elt Ideal)) :=
  [ StableHlo.unary main_arg1 main_v0 ((transpose S64x64 [1, 0] · transposes_S64x64_S64x64_1_0) : FVec Ideal S64x64 .f32 → FVec Ideal S64x64 .f32),
    StableHlo.binary main_arg0 main_v0 main_v1 ((fun l r => Host.dotGeneral dot_S4096x64_S64x64_S4096x64_1_0_0_1_n_n none l r) : FVec Ideal S4096x64 .f32 → FVec Ideal S64x64 .f32 → FVec Ideal S4096x64 .f32),
    StableHlo.unary main_arg2 main_v2 (broadcastInDim S1x64 ![1] bcast_S64_S1x64_1 : FVec Ideal S64 .f32 → FVec Ideal S1x64 .f32),
    StableHlo.unary main_v2 main_v3 (broadcastInDim S4096x64 ![0, 1] bcast_S1x64_S4096x64_0_1 : FVec Ideal S1x64 .f32 → FVec Ideal S4096x64 .f32),
    StableHlo.binary main_v1 main_v3 main_v4 (addf : FVec Ideal S4096x64 .f32 → FVec Ideal S4096x64 .f32 → FVec Ideal S4096x64 .f32),
    StableHlo.unary main_arg3 main_v5 ((extractStridedSlice S8x64 ![0, 0] · slices_S8x128_S8x64_0_0) : FVec Ideal S8x128 .f32 → FVec Ideal S8x64 .f32),
    StableHlo.unary main_v5 main_v6 ((transpose S64x8 [1, 0] · transposes_S8x64_S64x8_1_0) : FVec Ideal S8x64 .f32 → FVec Ideal S64x8 .f32),
    StableHlo.binary main_v4 main_v6 main_v7 ((fun l r => Host.dotGeneral dot_S4096x64_S64x8_S4096x8_1_0_0_1_n_n none l r) : FVec Ideal S4096x64 .f32 → FVec Ideal S64x8 .f32 → FVec Ideal S4096x8 .f32),
    StableHlo.unary main_arg3 main_v8 ((extractStridedSlice S8x64 ![0, 64] · slices_S8x128_S8x64_0_64) : FVec Ideal S8x128 .f32 → FVec Ideal S8x64 .f32),
    StableHlo.unary main_v8 main_v9 ((transpose S64x8 [1, 0] · transposes_S8x64_S64x8_1_0) : FVec Ideal S8x64 .f32 → FVec Ideal S64x8 .f32),
    StableHlo.binary main_v4 main_v9 main_v10 ((fun l r => Host.dotGeneral dot_S4096x64_S64x8_S4096x8_1_0_0_1_n_n none l r) : FVec Ideal S4096x64 .f32 → FVec Ideal S64x8 .f32 → FVec Ideal S4096x8 .f32),
    StableHlo.unary main_v7 main_v11 ((transpose S8x4096 [1, 0] · transposes_S4096x8_S8x4096_1_0) : FVec Ideal S4096x8 .f32 → FVec Ideal S8x4096 .f32),
    StableHlo.unary main_v11 main_v12 (broadcastInDim S8x4096x1 ![0, 1] bcast_S8x4096_S8x4096x1_0_1 : FVec Ideal S8x4096 .f32 → FVec Ideal S8x4096x1 .f32),
    StableHlo.unary main_v10 main_v13 ((transpose S8x4096 [1, 0] · transposes_S4096x8_S8x4096_1_0) : FVec Ideal S4096x8 .f32 → FVec Ideal S8x4096 .f32),
    StableHlo.unary main_v13 main_v14 (broadcastInDim S8x1x4096 ![0, 2] bcast_S8x4096_S8x1x4096_0_2 : FVec Ideal S8x4096 .f32 → FVec Ideal S8x1x4096 .f32),
    StableHlo.unary main_v12 main_v15 (broadcastInDim S8x4096x4096 ![0, 1, 2] bcast_S8x4096x1_S8x4096x4096_0_1_2 : FVec Ideal S8x4096x1 .f32 → FVec Ideal S8x4096x4096 .f32),
    StableHlo.unary main_v14 main_v16 (broadcastInDim S8x4096x4096 ![0, 1, 2] bcast_S8x1x4096_S8x4096x4096_0_1_2 : FVec Ideal S8x1x4096 .f32 → FVec Ideal S8x4096x4096 .f32),
    StableHlo.binary main_v15 main_v16 main_v17 (addf : FVec Ideal S8x4096x4096 .f32 → FVec Ideal S8x4096x4096 .f32 → FVec Ideal S8x4096x4096 .f32),
    StableHlo.unary main_arg4 main_v18 (broadcastInDim S8x1x1 ![0] bcast_S8_S8x1x1_0 : FVec Ideal S8 .f32 → FVec Ideal S8x1x1 .f32),
    StableHlo.unary main_v18 main_v19 (broadcastInDim S8x4096x4096 ![0, 1, 2] bcast_S8x1x1_S8x4096x4096_0_1_2 : FVec Ideal S8x1x1 .f32 → FVec Ideal S8x4096x4096 .f32),
    StableHlo.binary main_v17 main_v19 main_v20 (addf : FVec Ideal S8x4096x4096 .f32 → FVec Ideal S8x4096x4096 .f32 → FVec Ideal S8x4096x4096 .f32),
    StableHlo.nullary main_cst (constant (F := Ideal) S_ .f32 0xFF800000#32),
    StableHlo.binary main_v20 main_cst main_v21 ((fun x v => Host.reduce FloatOps.maximumf x v reducesTo_S8x4096x4096_S8x4096_d2 h_S_) : FVec Ideal S8x4096x4096 .f32 → FVec Ideal S_ .f32 → FVec Ideal S8x4096 .f32),
    StableHlo.nullary main_cst_0 (constant (F := Ideal) S_ .f32 0xFF800000#32),
    StableHlo.unary main_cst_0 main_v22 (broadcastInDim S8x4096 ![] bcast_S_S8x4096 : FVec Ideal S_ .f32 → FVec Ideal S8x4096 .f32),
    StableHlo.binary main_v22 main_v21 main_v23 (maximumf : FVec Ideal S8x4096 .f32 → FVec Ideal S8x4096 .f32 → FVec Ideal S8x4096 .f32),
    StableHlo.unary main_v23 main_v24 (broadcastInDim S8x4096x1 ![0, 1] bcast_S8x4096_S8x4096x1_0_1 : FVec Ideal S8x4096 .f32 → FVec Ideal S8x4096x1 .f32),
    StableHlo.unary main_v24 main_v25 (broadcastInDim S8x4096x4096 ![0, 1, 2] bcast_S8x4096x1_S8x4096x4096_0_1_2 : FVec Ideal S8x4096x1 .f32 → FVec Ideal S8x4096x4096 .f32),
    StableHlo.binary main_v20 main_v25 main_v26 (subf : FVec Ideal S8x4096x4096 .f32 → FVec Ideal S8x4096x4096 .f32 → FVec Ideal S8x4096x4096 .f32),
    StableHlo.unary main_v26 main_v27 (Host.exp : FVec Ideal S8x4096x4096 .f32 → FVec Ideal S8x4096x4096 .f32),
    StableHlo.nullary main_cst_1 (constant (F := Ideal) S_ .f32 0x00000000#32),
    StableHlo.binary main_v27 main_cst_1 main_v28 ((fun x v => Host.reduceAdd x v reducesTo_S8x4096x4096_S8x4096_d2 h_S_) : FVec Ideal S8x4096x4096 .f32 → FVec Ideal S_ .f32 → FVec Ideal S8x4096 .f32),
    StableHlo.unary main_v28 main_v29 (broadcastInDim S8x4096x1 ![0, 1] bcast_S8x4096_S8x4096x1_0_1 : FVec Ideal S8x4096 .f32 → FVec Ideal S8x4096x1 .f32),
    StableHlo.unary main_v29 main_v30 (broadcastInDim S8x4096x4096 ![0, 1, 2] bcast_S8x4096x1_S8x4096x4096_0_1_2 : FVec Ideal S8x4096x1 .f32 → FVec Ideal S8x4096x4096 .f32),
    StableHlo.binary main_v27 main_v30 main_v31 (Host.divf : FVec Ideal S8x4096x4096 .f32 → FVec Ideal S8x4096x4096 .f32 → FVec Ideal S8x4096x4096 .f32),
    StableHlo.binary main_v31 main_v4 main_v32 ((fun l r => Host.dotGeneral dot_S8x4096x4096_S4096x64_S8x4096x64_2_0_01_1_n_n none l r) : FVec Ideal S8x4096x4096 .f32 → FVec Ideal S4096x64 .f32 → FVec Ideal S8x4096x64 .f32),
    StableHlo.nullary main_cst_2 (constant (F := Ideal) S_ .f32 0x00000000#32),
    StableHlo.binary main_v32 main_cst_2 main_v33 ((fun x v => Host.reduceAdd x v reducesTo_S8x4096x64_S4096x64_d0 h_S_) : FVec Ideal S8x4096x64 .f32 → FVec Ideal S_ .f32 → FVec Ideal S4096x64 .f32),
    StableHlo.nullary main_cst_3 (constant (F := Ideal) S_ .f32 0x41000000#32),
    StableHlo.unary main_cst_3 main_v34 (broadcastInDim S4096x64 ![] bcast_S_S4096x64 : FVec Ideal S_ .f32 → FVec Ideal S4096x64 .f32),
    StableHlo.binary main_v33 main_v34 main_v35 (Host.divf : FVec Ideal S4096x64 .f32 → FVec Ideal S4096x64 .f32 → FVec Ideal S4096x64 .f32) ]

/-- The slope constant and the body of layer 1's leaky rectifier: 8 operations. -/
abbrev opsB : List (HloOp τ sig (Elt Ideal)) :=
  [ StableHlo.nullary main_cst_4 (constant (F := Ideal) S_ .f32 0x3E4CCCCD#32),
    StableHlo.TRef.nullary main_call0.cst (constant (F := Ideal) S_ .f32 0x00000000#32),
    StableHlo.TRef.unary main_call0.cst main_call0.v0 (broadcastInDim S4096x64 ![] bcast_S_S4096x64),
    StableHlo.TRef.binary (.of main_v35 : StableHlo.TRef sig ⟨S4096x64, .f32⟩) main_call0.v0 main_call0.v1 (cmpf .oge : FVec Ideal S4096x64 .f32 → FVec Ideal S4096x64 .f32 → IVec S4096x64 1),
    StableHlo.TRef.unary (.of main_cst_4 : StableHlo.TRef sig ⟨S_, .f32⟩) main_call0.v2 id,
    StableHlo.TRef.unary main_call0.v2 main_call0.v3 (broadcastInDim S4096x64 ![] bcast_S_S4096x64),
    StableHlo.TRef.binary main_call0.v3 (.of main_v35 : StableHlo.TRef sig ⟨S4096x64, .f32⟩) main_call0.v4 (mulf : FVec Ideal S4096x64 .f32 → FVec Ideal S4096x64 .f32 → FVec Ideal S4096x64 .f32),
    StableHlo.TRef.ternary main_call0.v1 (.of main_v35 : StableHlo.TRef sig ⟨S4096x64, .f32⟩) main_call0.v4 main_call0.call0.v0 select ]

/-- The body of the exponential linear unit: 15 operations. -/
abbrev opsE : List (HloOp τ sig (Elt Ideal)) :=
  [ StableHlo.TRef.nullary main_call1.cst (constant (F := Ideal) S_ .f32 0x00000000#32),
    StableHlo.TRef.unary main_call1.cst main_call1.v0 (broadcastInDim S4096x64 ![] bcast_S_S4096x64),
    StableHlo.TRef.binary (.of main_v36 : StableHlo.TRef sig ⟨S4096x64, .f32⟩) main_call1.v0 main_call1.v1 (cmpf .ogt : FVec Ideal S4096x64 .f32 → FVec Ideal S4096x64 .f32 → IVec S4096x64 1),
    StableHlo.TRef.nullary main_call1.cst_0 (constant (F := Ideal) S_ .f32 0x00000000#32),
    StableHlo.TRef.unary main_call1.cst_0 main_call1.v2 (broadcastInDim S4096x64 ![] bcast_S_S4096x64),
    StableHlo.TRef.binary (.of main_v36 : StableHlo.TRef sig ⟨S4096x64, .f32⟩) main_call1.v2 main_call1.v3 (cmpf .ogt : FVec Ideal S4096x64 .f32 → FVec Ideal S4096x64 .f32 → IVec S4096x64 1),
    StableHlo.TRef.nullary main_call1.cst_1 (constant (F := Ideal) S_ .f32 0x00000000#32),
    StableHlo.TRef.unary main_call1.cst_1 main_call1.call0.v0 id,
    StableHlo.TRef.unary main_call1.call0.v0 main_call1.call0.v1 (broadcastInDim S4096x64 ![] bcast_S_S4096x64),
    StableHlo.TRef.ternary main_call1.v3 main_call1.call0.v1 (.of main_v36 : StableHlo.TRef sig ⟨S4096x64, .f32⟩) main_call1.call0.v2 select,
    StableHlo.TRef.unary main_call1.call0.v2 main_call1.v5 (Host.expm1 : FVec Ideal S4096x64 .f32 → FVec Ideal S4096x64 .f32),
    StableHlo.TRef.nullary main_call1.cst_2 (constant (F := Ideal) S_ .f32 0x3F800000#32),
    StableHlo.TRef.unary main_call1.cst_2 main_call1.v6 (broadcastInDim S4096x64 ![] bcast_S_S4096x64),
    StableHlo.TRef.binary main_call1.v6 main_call1.v5 main_call1.v7 (mulf : FVec Ideal S4096x64 .f32 → FVec Ideal S4096x64 .f32 → FVec Ideal S4096x64 .f32),
    StableHlo.TRef.ternary main_call1.v1 (.of main_v36 : StableHlo.TRef sig ⟨S4096x64, .f32⟩) main_call1.v7 main_call1.call1.v0 select ]

/-- Layer 2 up to the mean over the heads: 41 operations. -/
abbrev opsC : List (HloOp τ sig (Elt Ideal)) :=
  [ StableHlo.unary main_arg5 main_v38 ((transpose S64x32 [1, 0] · transposes_S32x64_S64x32_1_0) : FVec Ideal S32x64 .f32 → FVec Ideal S64x32 .f32),
    StableHlo.binary main_v37 main_v38 main_v39 ((fun l r => Host.dotGeneral dot_S4096x64_S64x32_S4096x32_1_0_0_1_n_n none l r) : FVec Ideal S4096x64 .f32 → FVec Ideal S64x32 .f32 → FVec Ideal S4096x32 .f32),
    StableHlo.unary main_arg6 main_v40 (broadcastInDim S1x32 ![1] bcast_S32_S1x32_1 : FVec Ideal S32 .f32 → FVec Ideal S1x32 .f32),
    StableHlo.unary main_v40 main_v41 (broadcastInDim S4096x32 ![0, 1] bcast_S1x32_S4096x32_0_1 : FVec Ideal S1x32 .f32 → FVec Ideal S4096x32 .f32),
    StableHlo.binary main_v39 main_v41 main_v42 (addf : FVec Ideal S4096x32 .f32 → FVec Ideal S4096x32 .f32 → FVec Ideal S4096x32 .f32),
    StableHlo.unary main_arg7 main_v43 ((extractStridedSlice S8x32 ![0, 0] · slices_S8x64_S8x32_0_0) : FVec Ideal S8x64 .f32 → FVec Ideal S8x32 .f32),
    StableHlo.unary main_v43 main_v44 ((transpose S32x8 [1, 0] · transposes_S8x32_S32x8_1_0) : FVec Ideal S8x32 .f32 → FVec Ideal S32x8 .f32),
    StableHlo.binary main_v42 main_v44 main_v45 ((fun l r => Host.dotGeneral dot_S4096x32_S32x8_S4096x8_1_0_0_1_n_n none l r) : FVec Ideal S4096x32 .f32 → FVec Ideal S32x8 .f32 → FVec Ideal S4096x8 .f32),
    StableHlo.unary main_arg7 main_v46 ((extractStridedSlice S8x32 ![0, 32] · slices_S8x64_S8x32_0_32) : FVec Ideal S8x64 .f32 → FVec Ideal S8x32 .f32),
    StableHlo.unary main_v46 main_v47 ((transpose S32x8 [1, 0] · transposes_S8x32_S32x8_1_0) : FVec Ideal S8x32 .f32 → FVec Ideal S32x8 .f32),
    StableHlo.binary main_v42 main_v47 main_v48 ((fun l r => Host.dotGeneral dot_S4096x32_S32x8_S4096x8_1_0_0_1_n_n none l r) : FVec Ideal S4096x32 .f32 → FVec Ideal S32x8 .f32 → FVec Ideal S4096x8 .f32),
    StableHlo.unary main_v45 main_v49 ((transpose S8x4096 [1, 0] · transposes_S4096x8_S8x4096_1_0) : FVec Ideal S4096x8 .f32 → FVec Ideal S8x4096 .f32),
    StableHlo.unary main_v49 main_v50 (broadcastInDim S8x4096x1 ![0, 1] bcast_S8x4096_S8x4096x1_0_1 : FVec Ideal S8x4096 .f32 → FVec Ideal S8x4096x1 .f32),
    StableHlo.unary main_v48 main_v51 ((transpose S8x4096 [1, 0] · transposes_S4096x8_S8x4096_1_0) : FVec Ideal S4096x8 .f32 → FVec Ideal S8x4096 .f32),
    StableHlo.unary main_v51 main_v52 (broadcastInDim S8x1x4096 ![0, 2] bcast_S8x4096_S8x1x4096_0_2 : FVec Ideal S8x4096 .f32 → FVec Ideal S8x1x4096 .f32),
    StableHlo.unary main_v50 main_v53 (broadcastInDim S8x4096x4096 ![0, 1, 2] bcast_S8x4096x1_S8x4096x4096_0_1_2 : FVec Ideal S8x4096x1 .f32 → FVec Ideal S8x4096x4096 .f32),
    StableHlo.unary main_v52 main_v54 (broadcastInDim S8x4096x4096 ![0, 1, 2] bcast_S8x1x4096_S8x4096x4096_0_1_2 : FVec Ideal S8x1x4096 .f32 → FVec Ideal S8x4096x4096 .f32),
    StableHlo.binary main_v53 main_v54 main_v55 (addf : FVec Ideal S8x4096x4096 .f32 → FVec Ideal S8x4096x4096 .f32 → FVec Ideal S8x4096x4096 .f32),
    StableHlo.unary main_arg8 main_v56 (broadcastInDim S8x1x1 ![0] bcast_S8_S8x1x1_0 : FVec Ideal S8 .f32 → FVec Ideal S8x1x1 .f32),
    StableHlo.unary main_v56 main_v57 (broadcastInDim S8x4096x4096 ![0, 1, 2] bcast_S8x1x1_S8x4096x4096_0_1_2 : FVec Ideal S8x1x1 .f32 → FVec Ideal S8x4096x4096 .f32),
    StableHlo.binary main_v55 main_v57 main_v58 (addf : FVec Ideal S8x4096x4096 .f32 → FVec Ideal S8x4096x4096 .f32 → FVec Ideal S8x4096x4096 .f32),
    StableHlo.nullary main_cst_5 (constant (F := Ideal) S_ .f32 0xFF800000#32),
    StableHlo.binary main_v58 main_cst_5 main_v59 ((fun x v => Host.reduce FloatOps.maximumf x v reducesTo_S8x4096x4096_S8x4096_d2 h_S_) : FVec Ideal S8x4096x4096 .f32 → FVec Ideal S_ .f32 → FVec Ideal S8x4096 .f32),
    StableHlo.nullary main_cst_6 (constant (F := Ideal) S_ .f32 0xFF800000#32),
    StableHlo.unary main_cst_6 main_v60 (broadcastInDim S8x4096 ![] bcast_S_S8x4096 : FVec Ideal S_ .f32 → FVec Ideal S8x4096 .f32),
    StableHlo.binary main_v60 main_v59 main_v61 (maximumf : FVec Ideal S8x4096 .f32 → FVec Ideal S8x4096 .f32 → FVec Ideal S8x4096 .f32),
    StableHlo.unary main_v61 main_v62 (broadcastInDim S8x4096x1 ![0, 1] bcast_S8x4096_S8x4096x1_0_1 : FVec Ideal S8x4096 .f32 → FVec Ideal S8x4096x1 .f32),
    StableHlo.unary main_v62 main_v63 (broadcastInDim S8x4096x4096 ![0, 1, 2] bcast_S8x4096x1_S8x4096x4096_0_1_2 : FVec Ideal S8x4096x1 .f32 → FVec Ideal S8x4096x4096 .f32),
    StableHlo.binary main_v58 main_v63 main_v64 (subf : FVec Ideal S8x4096x4096 .f32 → FVec Ideal S8x4096x4096 .f32 → FVec Ideal S8x4096x4096 .f32),
    StableHlo.unary main_v64 main_v65 (Host.exp : FVec Ideal S8x4096x4096 .f32 → FVec Ideal S8x4096x4096 .f32),
    StableHlo.nullary main_cst_7 (constant (F := Ideal) S_ .f32 0x00000000#32),
    StableHlo.binary main_v65 main_cst_7 main_v66 ((fun x v => Host.reduceAdd x v reducesTo_S8x4096x4096_S8x4096_d2 h_S_) : FVec Ideal S8x4096x4096 .f32 → FVec Ideal S_ .f32 → FVec Ideal S8x4096 .f32),
    StableHlo.unary main_v66 main_v67 (broadcastInDim S8x4096x1 ![0, 1] bcast_S8x4096_S8x4096x1_0_1 : FVec Ideal S8x4096 .f32 → FVec Ideal S8x4096x1 .f32),
    StableHlo.unary main_v67 main_v68 (broadcastInDim S8x4096x4096 ![0, 1, 2] bcast_S8x4096x1_S8x4096x4096_0_1_2 : FVec Ideal S8x4096x1 .f32 → FVec Ideal S8x4096x4096 .f32),
    StableHlo.binary main_v65 main_v68 main_v69 (Host.divf : FVec Ideal S8x4096x4096 .f32 → FVec Ideal S8x4096x4096 .f32 → FVec Ideal S8x4096x4096 .f32),
    StableHlo.binary main_v69 main_v42 main_v70 ((fun l r => Host.dotGeneral dot_S8x4096x4096_S4096x32_S8x4096x32_2_0_01_1_n_n none l r) : FVec Ideal S8x4096x4096 .f32 → FVec Ideal S4096x32 .f32 → FVec Ideal S8x4096x32 .f32),
    StableHlo.nullary main_cst_8 (constant (F := Ideal) S_ .f32 0x00000000#32),
    StableHlo.binary main_v70 main_cst_8 main_v71 ((fun x v => Host.reduceAdd x v reducesTo_S8x4096x32_S4096x32_d0 h_S_) : FVec Ideal S8x4096x32 .f32 → FVec Ideal S_ .f32 → FVec Ideal S4096x32 .f32),
    StableHlo.nullary main_cst_9 (constant (F := Ideal) S_ .f32 0x41000000#32),
    StableHlo.unary main_cst_9 main_v72 (broadcastInDim S4096x32 ![] bcast_S_S4096x32 : FVec Ideal S_ .f32 → FVec Ideal S4096x32 .f32),
    StableHlo.binary main_v71 main_v72 main_v73 (Host.divf : FVec Ideal S4096x32 .f32 → FVec Ideal S4096x32 .f32 → FVec Ideal S4096x32 .f32) ]

/-- The slope constant and the body of layer 2's leaky rectifier: 8 operations. -/
abbrev opsD : List (HloOp τ sig (Elt Ideal)) :=
  [ StableHlo.nullary main_cst_10 (constant (F := Ideal) S_ .f32 0x3E4CCCCD#32),
    StableHlo.TRef.nullary main_call2.cst (constant (F := Ideal) S_ .f32 0x00000000#32),
    StableHlo.TRef.unary main_call2.cst main_call2.v0 (broadcastInDim S4096x32 ![] bcast_S_S4096x32),
    StableHlo.TRef.binary (.of main_v73 : StableHlo.TRef sig ⟨S4096x32, .f32⟩) main_call2.v0 main_call2.v1 (cmpf .oge : FVec Ideal S4096x32 .f32 → FVec Ideal S4096x32 .f32 → IVec S4096x32 1),
    StableHlo.TRef.unary (.of main_cst_10 : StableHlo.TRef sig ⟨S_, .f32⟩) main_call2.v2 id,
    StableHlo.TRef.unary main_call2.v2 main_call2.v3 (broadcastInDim S4096x32 ![] bcast_S_S4096x32),
    StableHlo.TRef.binary main_call2.v3 (.of main_v73 : StableHlo.TRef sig ⟨S4096x32, .f32⟩) main_call2.v4 (mulf : FVec Ideal S4096x32 .f32 → FVec Ideal S4096x32 .f32 → FVec Ideal S4096x32 .f32),
    StableHlo.TRef.ternary main_call2.v1 (.of main_v73 : StableHlo.TRef sig ⟨S4096x32, .f32⟩) main_call2.v4 main_call2.call0.v0 select ]

/-- The whole program's operations, in order. -/
abbrev opsAll : List (HloOp τ sig (Elt Ideal)) := opsA ++ (opsB ++ (opsE ++ (opsC ++ opsD)))

/-- @main is that straight line: the functions' bodies at their calls, sequencing re-associated. -/
theorem main_eq (c : Dev nD) : main (F := Ideal) c = seq opsAll := by
  chain_rfl

theorem scopedRefs_eq : (Finset.univ.filter fun b : Ref sig .tc => b.isScoped) = ∅ := by decide
theorem scopedSems_eq : (Finset.univ.filter fun sm : SemLoc sig => sm.isScoped .tc) = ∅ := by decide

theorem opsA_forall_sub : (opsA : List (HloOp τ sig (Elt Ideal))).Forall fun op => op.bufs ⊆ tcRefs τ sig :=
  ⟨unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., unary_bufs_sub .., unary_bufs_sub .., unary_bufs_sub .., unary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., nullary_bufs_sub .., binary_bufs_sub .., nullary_bufs_sub .., unary_bufs_sub .., binary_bufs_sub ..⟩
theorem opsA_sub : ∀ op ∈ (opsA : List (HloOp τ sig (Elt Ideal))), op.bufs ⊆ tcRefs τ sig :=
  List.forall_iff_forall_mem.mp opsA_forall_sub
theorem opsA_fresh : ∀ op ∈ (opsA : List (HloOp τ sig (Elt Ideal))), op.fresh = ∅ := by
  intro _ h; (repeat (cases h with | head => rfl | tail _ h => ?_)); exact nomatch h

theorem opsB_forall_sub : (opsB : List (HloOp τ sig (Elt Ideal))).Forall fun op => op.bufs ⊆ tcRefs τ sig :=
  ⟨nullary_bufs_sub .., nullary_bufs_sub .., unary_bufs_sub .., binary_bufs_sub .., unary_bufs_sub .., unary_bufs_sub .., binary_bufs_sub .., ternary_bufs_sub ..⟩
theorem opsB_sub : ∀ op ∈ (opsB : List (HloOp τ sig (Elt Ideal))), op.bufs ⊆ tcRefs τ sig :=
  List.forall_iff_forall_mem.mp opsB_forall_sub
theorem opsB_fresh : ∀ op ∈ (opsB : List (HloOp τ sig (Elt Ideal))), op.fresh = ∅ := by
  intro _ h; (repeat (cases h with | head => rfl | tail _ h => ?_)); exact nomatch h

theorem opsE_forall_sub : (opsE : List (HloOp τ sig (Elt Ideal))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩
theorem opsE_sub : ∀ op ∈ (opsE : List (HloOp τ sig (Elt Ideal))), op.bufs ⊆ tcRefs τ sig :=
  List.forall_iff_forall_mem.mp opsE_forall_sub
theorem opsE_fresh : ∀ op ∈ (opsE : List (HloOp τ sig (Elt Ideal))), op.fresh = ∅ := by
  intro _ h; (repeat (cases h with | head => rfl | tail _ h => ?_)); exact nomatch h

theorem opsC_forall_sub : (opsC : List (HloOp τ sig (Elt Ideal))).Forall fun op => op.bufs ⊆ tcRefs τ sig :=
  ⟨unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., unary_bufs_sub .., unary_bufs_sub .., unary_bufs_sub .., unary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., nullary_bufs_sub .., binary_bufs_sub .., nullary_bufs_sub .., unary_bufs_sub .., binary_bufs_sub ..⟩
theorem opsC_sub : ∀ op ∈ (opsC : List (HloOp τ sig (Elt Ideal))), op.bufs ⊆ tcRefs τ sig :=
  List.forall_iff_forall_mem.mp opsC_forall_sub
theorem opsC_fresh : ∀ op ∈ (opsC : List (HloOp τ sig (Elt Ideal))), op.fresh = ∅ := by
  intro _ h; (repeat (cases h with | head => rfl | tail _ h => ?_)); exact nomatch h

theorem opsD_forall_sub : (opsD : List (HloOp τ sig (Elt Ideal))).Forall fun op => op.bufs ⊆ tcRefs τ sig :=
  ⟨nullary_bufs_sub .., nullary_bufs_sub .., unary_bufs_sub .., binary_bufs_sub .., unary_bufs_sub .., unary_bufs_sub .., binary_bufs_sub .., ternary_bufs_sub ..⟩
theorem opsD_sub : ∀ op ∈ (opsD : List (HloOp τ sig (Elt Ideal))), op.bufs ⊆ tcRefs τ sig :=
  List.forall_iff_forall_mem.mp opsD_forall_sub
theorem opsD_fresh : ∀ op ∈ (opsD : List (HloOp τ sig (Elt Ideal))), op.fresh = ∅ := by
  intro _ h; (repeat (cases h with | head => rfl | tail _ h => ?_)); exact nomatch h

/-- Every operation touches TensorCore references only. -/
theorem opsAll_sub : (opsAll : List (HloOp τ sig (Elt Ideal))).Forall fun op => op.bufs ⊆ tcRefs τ sig :=
  List.forall_iff_forall_mem.mpr fun op h =>
    (List.mem_append.mp h).elim (opsA_sub op) fun h => (List.mem_append.mp h).elim (opsB_sub op) fun h =>
      (List.mem_append.mp h).elim (opsE_sub op) fun h => (List.mem_append.mp h).elim (opsC_sub op) (opsD_sub op)

/-- Every operation determines its results. -/
theorem opsAll_fresh : ∀ op ∈ (opsAll : List (HloOp τ sig (Elt Ideal))), op.fresh = ∅ := fun op h =>
  (List.mem_append.mp h).elim (opsA_fresh op) fun h => (List.mem_append.mp h).elim (opsB_fresh op) fun h =>
    (List.mem_append.mp h).elim (opsE_fresh op) fun h => (List.mem_append.mp h).elim (opsC_fresh op) (opsD_fresh op)

/-- On every device, from any memory with zero counters: every weakly fair execution of @main terminates, and every
    TensorCore buffer ends at what the 113 operations, run in order from the launch contents, leave in it. -/
theorem run_all (m : (ℓ : Loc nD τ sig) → Buf (Elt Ideal) ℓ) (ρ : Dev nD → PrngReg) :
    θ_run (defs (F := Ideal)) (onTc (τ := τ) (main (F := Ideal))) ⟨m, fun _ => 0, ρ⟩ fun r =>
      ∀ (c : Dev nD) (b : Ref sig .tc), r.2.mem ((c.tc : Thread nD τ).loc b) = after opsAll (launchContents m c) (Proc.devRef .tc b) :=
  run_seq scopedRefs_eq scopedSems_eq defs main (fun _ => opsAll) main_eq (fun _ => opsAll_sub) m ρ (fun _ => opsAll_fresh)

end Cert.ReferenceIdeal.RefRun

end
-- ==== Proof.RefStages.lean ====
/-
  The reference program's stages, named.

  Each definition is one stretch of the reference's host operations as a function of the arrays it reads, at the
  extended reals: the linear embedding `x · Wᵀ + b`; the two projections of the embedding onto the halves of the
  attention weights (the query and key terms of the scores); the scores of every head and pair of nodes; their
  row-wise softmax taken after subtracting the row's largest score; the mean over the heads of the softmax-weighted
  embedding; the leaky rectifier; and the exponential linear unit between the two layers.  The program's result is
  their composition (`result`).  Nothing is proved here: the definitions only give the stretches names, so that
  the run of the program, the reading of a stretch at an index, and the comparison with the other program each
  speak about the same terms.
-/
import proofs.«136446_j28295244546247_2_alg».proof.ReferenceIdeal
import proofs.«136446_j28295244546247_2_alg».proof.Proof.Gen.ReferenceIdeal
import Idealize.ShloMosaic.PureOps.Ideal.Laws

noncomputable section

namespace Cert.ReferenceIdeal.Stages

open Cert.ReferenceIdeal Cert.ReferenceIdeal.Gen Idealize.ShloMosaic

/-! ## Shared by both layers: scores and their softmax over `[8, 4096, 4096]` -/

/-- An `[8, 4096]` array (one value per head and query node) given a unit last axis and spread over the keys:
    `[8, 4096] → [8, 4096, 1] → [8, 4096, 4096]`, constant along the last axis. -/
def overKeys (v : FVec Ideal S8x4096 .f32) : FVec Ideal S8x4096x4096 .f32 :=
  broadcastInDim S8x4096x4096 ![0, 1, 2] bcast_S8x4096x1_S8x4096x4096_0_1_2
    (broadcastInDim S8x4096x1 ![0, 1] bcast_S8x4096_S8x4096x1_0_1 v)

/-- The scores `s[h, i, j] = si[i, h] + sj[j, h] + ab[h]`. -/
def scores (si sj : FVec Ideal S4096x8 .f32) (ab : FVec Ideal S8 .f32) : FVec Ideal S8x4096x4096 .f32 :=
  addf
    (addf (overKeys (transpose S8x4096 [1, 0] si transposes_S4096x8_S8x4096_1_0))
      (broadcastInDim S8x4096x4096 ![0, 1, 2] bcast_S8x1x4096_S8x4096x4096_0_1_2
        (broadcastInDim S8x1x4096 ![0, 2] bcast_S8x4096_S8x1x4096_0_2
          (transpose S8x4096 [1, 0] sj transposes_S4096x8_S8x4096_1_0))))
    (broadcastInDim S8x4096x4096 ![0, 1, 2] bcast_S8x1x1_S8x4096x4096_0_1_2
      (broadcastInDim S8x1x1 ![0] bcast_S8_S8x1x1_0 ab))

/-- Each row's largest score: the maximum over the keys from minus infinity, taken once more against minus infinity. -/
def rowmax (s : FVec Ideal S8x4096x4096 .f32) : FVec Ideal S8x4096 .f32 :=
  maximumf (broadcastInDim S8x4096 ![] bcast_S_S8x4096 (constant (F := Ideal) S_ .f32 0xFF800000#32))
    (Host.reduce FloatOps.maximumf s (constant (F := Ideal) S_ .f32 0xFF800000#32) reducesTo_S8x4096x4096_S8x4096_d2 h_S_)

/-- The exponentials of the scores less their row's largest. -/
def expo (s : FVec Ideal S8x4096x4096 .f32) : FVec Ideal S8x4096x4096 .f32 :=
  Host.exp (subf s (overKeys (rowmax s)))

/-- The softmax of each row of scores. -/
def softmax (s : FVec Ideal S8x4096x4096 .f32) : FVec Ideal S8x4096x4096 .f32 :=
  Host.divf (expo s)
    (overKeys (Host.reduceAdd (expo s) (constant (F := Ideal) S_ .f32 0x00000000#32) reducesTo_S8x4096x4096_S8x4096_d2 h_S_))

/-! ## Layer 1: 64 features -/

/-- `x · W1ᵀ + b1`. -/
def emb1 (x : FVec Ideal S4096x64 .f32) (W : FVec Ideal S64x64 .f32) (b : FVec Ideal S64 .f32) : FVec Ideal S4096x64 .f32 :=
  addf (Host.dotGeneral dot_S4096x64_S64x64_S4096x64_1_0_0_1_n_n none x (transpose S64x64 [1, 0] W transposes_S64x64_S64x64_1_0))
    (broadcastInDim S4096x64 ![0, 1] bcast_S1x64_S4096x64_0_1 (broadcastInDim S1x64 ![1] bcast_S64_S1x64_1 b))

/-- The query terms: the embedding against the first half of the attention weights. -/
def projI1 (e : FVec Ideal S4096x64 .f32) (aw : FVec Ideal S8x128 .f32) : FVec Ideal S4096x8 .f32 :=
  Host.dotGeneral dot_S4096x64_S64x8_S4096x8_1_0_0_1_n_n none e
    (transpose S64x8 [1, 0] (extractStridedSlice S8x64 ![0, 0] aw slices_S8x128_S8x64_0_0) transposes_S8x64_S64x8_1_0)

/-- The key terms: the embedding against the second half of the attention weights. -/
def projJ1 (e : FVec Ideal S4096x64 .f32) (aw : FVec Ideal S8x128 .f32) : FVec Ideal S4096x8 .f32 :=
  Host.dotGeneral dot_S4096x64_S64x8_S4096x8_1_0_0_1_n_n none e
    (transpose S64x8 [1, 0] (extractStridedSlice S8x64 ![0, 64] aw slices_S8x128_S8x64_0_64) transposes_S8x64_S64x8_1_0)

/-- The mean over the eight heads of the attention-weighted embedding. -/
def mean1 (a : FVec Ideal S8x4096x4096 .f32) (e : FVec Ideal S4096x64 .f32) : FVec Ideal S4096x64 .f32 :=
  Host.divf
    (Host.reduceAdd (Host.dotGeneral dot_S8x4096x4096_S4096x64_S8x4096x64_2_0_01_1_n_n none a e)
      (constant (F := Ideal) S_ .f32 0x00000000#32) reducesTo_S8x4096x64_S4096x64_d0 h_S_)
    (broadcastInDim S4096x64 ![] bcast_S_S4096x64 (constant (F := Ideal) S_ .f32 0x41000000#32))

/-- The leaky rectifier of slope 0.2. -/
def leaky1 (y : FVec Ideal S4096x64 .f32) : FVec Ideal S4096x64 .f32 :=
  select (cmpf .oge y (broadcastInDim S4096x64 ![] bcast_S_S4096x64 (constant (F := Ideal) S_ .f32 0x00000000#32))) y
    (mulf (broadcastInDim S4096x64 ![] bcast_S_S4096x64 (id (constant (F := Ideal) S_ .f32 0x3E4CCCCD#32))) y)

/-- Layer 1 after its embedding and projections: scores, softmax, head mean, rectifier. -/
def tail1 (e : FVec Ideal S4096x64 .f32) (si sj : FVec Ideal S4096x8 .f32) (ab : FVec Ideal S8 .f32) : FVec Ideal S4096x64 .f32 :=
  leaky1 (mean1 (softmax (scores si sj ab)) e)

/-- The exponential linear unit between the layers: `y` above zero, otherwise `1 · expm1` of `y` (itself
    taken of zero where `y` is above zero, a value the outer choice then discards). -/
def elu1 (y : FVec Ideal S4096x64 .f32) : FVec Ideal S4096x64 .f32 :=
  select (cmpf .ogt y (broadcastInDim S4096x64 ![] bcast_S_S4096x64 (constant (F := Ideal) S_ .f32 0x00000000#32))) y
    (mulf (broadcastInDim S4096x64 ![] bcast_S_S4096x64 (constant (F := Ideal) S_ .f32 0x3F800000#32))
      (Host.expm1
        (select (cmpf .ogt y (broadcastInDim S4096x64 ![] bcast_S_S4096x64 (constant (F := Ideal) S_ .f32 0x00000000#32)))
          (broadcastInDim S4096x64 ![] bcast_S_S4096x64 (id (constant (F := Ideal) S_ .f32 0x00000000#32))) y)))

/-! ## Layer 2: 32 features -/

/-- `z · W2ᵀ + b2`. -/
def emb2 (z : FVec Ideal S4096x64 .f32) (W : FVec Ideal S32x64 .f32) (b : FVec Ideal S32 .f32) : FVec Ideal S4096x32 .f32 :=
  addf (Host.dotGeneral dot_S4096x64_S64x32_S4096x32_1_0_0_1_n_n none z (transpose S64x32 [1, 0] W transposes_S32x64_S64x32_1_0))
    (broadcastInDim S4096x32 ![0, 1] bcast_S1x32_S4096x32_0_1 (broadcastInDim S1x32 ![1] bcast_S32_S1x32_1 b))

def projI2 (e : FVec Ideal S4096x32 .f32) (aw : FVec Ideal S8x64 .f32) : FVec Ideal S4096x8 .f32 :=
  Host.dotGeneral dot_S4096x32_S32x8_S4096x8_1_0_0_1_n_n none e
    (transpose S32x8 [1, 0] (extractStridedSlice S8x32 ![0, 0] aw slices_S8x64_S8x32_0_0) transposes_S8x32_S32x8_1_0)

def projJ2 (e : FVec Ideal S4096x32 .f32) (aw : FVec Ideal S8x64 .f32) : FVec Ideal S4096x8 .f32 :=
  Host.dotGeneral dot_S4096x32_S32x8_S4096x8_1_0_0_1_n_n none e
    (transpose S32x8 [1, 0] (extractStridedSlice S8x32 ![0, 32] aw slices_S8x64_S8x32_0_32) transposes_S8x32_S32x8_1_0)

def mean2 (a : FVec Ideal S8x4096x4096 .f32) (e : FVec Ideal S4096x32 .f32) : FVec Ideal S4096x32 .f32 :=
  Host.divf
    (Host.reduceAdd (Host.dotGeneral dot_S8x4096x4096_S4096x32_S8x4096x32_2_0_01_1_n_n none a e)
      (constant (F := Ideal) S_ .f32 0x00000000#32) reducesTo_S8x4096x32_S4096x32_d0 h_S_)
    (broadcastInDim S4096x32 ![] bcast_S_S4096x32 (constant (F := Ideal) S_ .f32 0x41000000#32))

def leaky2 (y : FVec Ideal S4096x32 .f32) : FVec Ideal S4096x32 .f32 :=
  select (cmpf .oge y (broadcastInDim S4096x32 ![] bcast_S_S4096x32 (constant (F := Ideal) S_ .f32 0x00000000#32))) y
    (mulf (broadcastInDim S4096x32 ![] bcast_S_S4096x32 (id (constant (F := Ideal) S_ .f32 0x3E4CCCCD#32))) y)

def tail2 (e : FVec Ideal S4096x32 .f32) (si sj : FVec Ideal S4096x8 .f32) (ab : FVec Ideal S8 .f32) : FVec Ideal S4096x32 .f32 :=
  leaky2 (mean2 (softmax (scores si sj ab)) e)

/-! ## The whole program -/

/-- Layer 1 of the arguments. -/
def out1 (x : FVec Ideal S4096x64 .f32) (W1 : FVec Ideal S64x64 .f32) (b1 : FVec Ideal S64 .f32)
    (a1w : FVec Ideal S8x128 .f32) (a1b : FVec Ideal S8 .f32) : FVec Ideal S4096x64 .f32 :=
  tail1 (emb1 x W1 b1) (projI1 (emb1 x W1 b1) a1w) (projJ1 (emb1 x W1 b1) a1w) a1b

/-- The program's result as a function of its nine arguments. -/
def result (x : FVec Ideal S4096x64 .f32) (W1 : FVec Ideal S64x64 .f32) (b1 : FVec Ideal S64 .f32)
    (a1w : FVec Ideal S8x128 .f32) (a1b : FVec Ideal S8 .f32) (W2 : FVec Ideal S32x64 .f32) (b2 : FVec Ideal S32 .f32)
    (a2w : FVec Ideal S8x64 .f32) (a2b : FVec Ideal S8 .f32) : FVec Ideal S4096x32 .f32 :=
  tail2 (emb2 (elu1 (out1 x W1 b1 a1w a1b)) W2 b2)
    (projI2 (emb2 (elu1 (out1 x W1 b1 a1w a1b)) W2 b2) a2w)
    (projJ2 (emb2 (elu1 (out1 x W1 b1 a1w a1b)) W2 b2) a2w) a2b

end Cert.ReferenceIdeal.Stages

end
-- ==== Proof.RefRunSmall.lean ====
/-
  What the three outlined functions' bodies leave in their result buffers.

  Each body, run from any contents `V` of the buffers, leaves in the buffer the call returns the stage of the same name
  applied to what its argument buffer held: the leaky rectifier of slope 0.2 (the slope read from the constant written
  just before the call), the exponential linear unit, and the leaky rectifier again at layer 2's width.  Reading the
  result is a computation: each operation's result at its own buffer is its function of its operands' contents, and
  at any other buffer what was there; carrying contents to a typed reference's buffer and back changes nothing.  The
  bodies write no argument of @main.
-/
import proofs.«136446_j28295244546247_2_alg».proof.Proof.RefRunOps
import proofs.«136446_j28295244546247_2_alg».proof.Proof.RefStages

noncomputable section

namespace Cert.ReferenceIdeal.RefRun

open Cert.ReferenceIdeal Cert.ReferenceIdeal.Gen Idealize.ShloMosaic Idealize.ShloMosaic.TcCoe Idealize.SL.Sem Idealize.ShloMosaic.StableHlo

set_option maxHeartbeats 400000 in
/-- The slope constant, then the rectifier's body: the result is the rectified mean. -/
theorem B_val (V : Valuation τ sig (Elt Ideal)) :
    after opsB V (Proc.devRef .tc main_v36) = Stages.leaky1 (V (Proc.devRef .tc main_v35)) := by
  after_results_simp
  rfl

set_option maxHeartbeats 400000 in
/-- The exponential linear unit's body. -/
theorem E_val (V : Valuation τ sig (Elt Ideal)) :
    after opsE V (Proc.devRef .tc main_v37) = Stages.elu1 (V (Proc.devRef .tc main_v36)) := by
  after_results_simp
  rfl

set_option maxHeartbeats 400000 in
/-- The slope constant, then the second rectifier's body. -/
theorem D_val (V : Valuation τ sig (Elt Ideal)) :
    after opsD V (Proc.devRef .tc main_v74) = Stages.leaky2 (V (Proc.devRef .tc main_v73)) := by
  after_results_simp
  rfl

/-! The bodies write no argument of @main. -/

theorem B_arg0 (V : Valuation τ sig (Elt Ideal)) :
    after opsB V (Proc.devRef .tc main_arg0) = V (Proc.devRef .tc main_arg0) := by
  after_results_simp

theorem B_arg1 (V : Valuation τ sig (Elt Ideal)) :
    after opsB V (Proc.devRef .tc main_arg1) = V (Proc.devRef .tc main_arg1) := by
  after_results_simp

theorem B_arg2 (V : Valuation τ sig (Elt Ideal)) :
    after opsB V (Proc.devRef .tc main_arg2) = V (Proc.devRef .tc main_arg2) := by
  after_results_simp

theorem B_arg3 (V : Valuation τ sig (Elt Ideal)) :
    after opsB V (Proc.devRef .tc main_arg3) = V (Proc.devRef .tc main_arg3) := by
  after_results_simp

theorem B_arg4 (V : Valuation τ sig (Elt Ideal)) :
    after opsB V (Proc.devRef .tc main_arg4) = V (Proc.devRef .tc main_arg4) := by
  after_results_simp

theorem B_arg5 (V : Valuation τ sig (Elt Ideal)) :
    after opsB V (Proc.devRef .tc main_arg5) = V (Proc.devRef .tc main_arg5) := by
  after_results_simp

theorem B_arg6 (V : Valuation τ sig (Elt Ideal)) :
    after opsB V (Proc.devRef .tc main_arg6) = V (Proc.devRef .tc main_arg6) := by
  after_results_simp

theorem B_arg7 (V : Valuation τ sig (Elt Ideal)) :
    after opsB V (Proc.devRef .tc main_arg7) = V (Proc.devRef .tc main_arg7) := by
  after_results_simp

theorem B_arg8 (V : Valuation τ sig (Elt Ideal)) :
    after opsB V (Proc.devRef .tc main_arg8) = V (Proc.devRef .tc main_arg8) := by
  after_results_simp

theorem E_arg0 (V : Valuation τ sig (Elt Ideal)) :
    after opsE V (Proc.devRef .tc main_arg0) = V (Proc.devRef .tc main_arg0) := by
  after_results_simp

theorem E_arg1 (V : Valuation τ sig (Elt Ideal)) :
    after opsE V (Proc.devRef .tc main_arg1) = V (Proc.devRef .tc main_arg1) := by
  after_results_simp

theorem E_arg2 (V : Valuation τ sig (Elt Ideal)) :
    after opsE V (Proc.devRef .tc main_arg2) = V (Proc.devRef .tc main_arg2) := by
  after_results_simp

theorem E_arg3 (V : Valuation τ sig (Elt Ideal)) :
    after opsE V (Proc.devRef .tc main_arg3) = V (Proc.devRef .tc main_arg3) := by
  after_results_simp

theorem E_arg4 (V : Valuation τ sig (Elt Ideal)) :
    after opsE V (Proc.devRef .tc main_arg4) = V (Proc.devRef .tc main_arg4) := by
  after_results_simp

theorem E_arg5 (V : Valuation τ sig (Elt Ideal)) :
    after opsE V (Proc.devRef .tc main_arg5) = V (Proc.devRef .tc main_arg5) := by
  after_results_simp

theorem E_arg6 (V : Valuation τ sig (Elt Ideal)) :
    after opsE V (Proc.devRef .tc main_arg6) = V (Proc.devRef .tc main_arg6) := by
  after_results_simp

theorem E_arg7 (V : Valuation τ sig (Elt Ideal)) :
    after opsE V (Proc.devRef .tc main_arg7) = V (Proc.devRef .tc main_arg7) := by
  after_results_simp

theorem E_arg8 (V : Valuation τ sig (Elt Ideal)) :
    after opsE V (Proc.devRef .tc main_arg8) = V (Proc.devRef .tc main_arg8) := by
  after_results_simp

theorem D_arg0 (V : Valuation τ sig (Elt Ideal)) :
    after opsD V (Proc.devRef .tc main_arg0) = V (Proc.devRef .tc main_arg0) := by
  after_results_simp

theorem D_arg1 (V : Valuation τ sig (Elt Ideal)) :
    after opsD V (Proc.devRef .tc main_arg1) = V (Proc.devRef .tc main_arg1) := by
  after_results_simp

theorem D_arg2 (V : Valuation τ sig (Elt Ideal)) :
    after opsD V (Proc.devRef .tc main_arg2) = V (Proc.devRef .tc main_arg2) := by
  after_results_simp

theorem D_arg3 (V : Valuation τ sig (Elt Ideal)) :
    after opsD V (Proc.devRef .tc main_arg3) = V (Proc.devRef .tc main_arg3) := by
  after_results_simp

theorem D_arg4 (V : Valuation τ sig (Elt Ideal)) :
    after opsD V (Proc.devRef .tc main_arg4) = V (Proc.devRef .tc main_arg4) := by
  after_results_simp

theorem D_arg5 (V : Valuation τ sig (Elt Ideal)) :
    after opsD V (Proc.devRef .tc main_arg5) = V (Proc.devRef .tc main_arg5) := by
  after_results_simp

theorem D_arg6 (V : Valuation τ sig (Elt Ideal)) :
    after opsD V (Proc.devRef .tc main_arg6) = V (Proc.devRef .tc main_arg6) := by
  after_results_simp

theorem D_arg7 (V : Valuation τ sig (Elt Ideal)) :
    after opsD V (Proc.devRef .tc main_arg7) = V (Proc.devRef .tc main_arg7) := by
  after_results_simp

theorem D_arg8 (V : Valuation τ sig (Elt Ideal)) :
    after opsD V (Proc.devRef .tc main_arg8) = V (Proc.devRef .tc main_arg8) := by
  after_results_simp

end Cert.ReferenceIdeal.RefRun

end
-- ==== Proof.RefRunA.lean ====
/-
  Layer 1 up to the mean over the heads, read at its result buffer.

  Run from any contents `V` of the buffers, the forty-one operations leave in the buffer of the head mean the stages'
  composition applied to what the first five argument buffers held: the embedding `e` of the features, its two
  projections onto the halves of the attention weights, the scores of every head and pair of nodes, their softmax, the
  softmax-weighted embedding summed over the heads and divided by eight.  The operations write no argument of @main.
-/
import proofs.«136446_j28295244546247_2_alg».proof.Proof.RefRunOps
import proofs.«136446_j28295244546247_2_alg».proof.Proof.RefStages

noncomputable section

namespace Cert.ReferenceIdeal.RefRun

open Cert.ReferenceIdeal Cert.ReferenceIdeal.Gen Idealize.ShloMosaic Idealize.ShloMosaic.TcCoe Idealize.SL.Sem Idealize.ShloMosaic.StableHlo

set_option maxHeartbeats 1600000 in
/-- The head mean of layer 1 as the stages' composition of the first five arguments. -/
theorem A_val (V : Valuation τ sig (Elt Ideal)) :
    after opsA V (Proc.devRef .tc main_v35)
      = Stages.mean1
          (Stages.softmax
            (Stages.scores
              (Stages.projI1 (Stages.emb1 (V (Proc.devRef .tc main_arg0)) (V (Proc.devRef .tc main_arg1)) (V (Proc.devRef .tc main_arg2))) (V (Proc.devRef .tc main_arg3)))
              (Stages.projJ1 (Stages.emb1 (V (Proc.devRef .tc main_arg0)) (V (Proc.devRef .tc main_arg1)) (V (Proc.devRef .tc main_arg2))) (V (Proc.devRef .tc main_arg3)))
              (V (Proc.devRef .tc main_arg4))))
          (Stages.emb1 (V (Proc.devRef .tc main_arg0)) (V (Proc.devRef .tc main_arg1)) (V (Proc.devRef .tc main_arg2))) := by
  after_results_simp
  rfl

/-! The operations write no argument of @main. -/

theorem A_arg0 (V : Valuation τ sig (Elt Ideal)) :
    after opsA V (Proc.devRef .tc main_arg0) = V (Proc.devRef .tc main_arg0) := by
  after_results_simp

theorem A_arg1 (V : Valuation τ sig (Elt Ideal)) :
    after opsA V (Proc.devRef .tc main_arg1) = V (Proc.devRef .tc main_arg1) := by
  after_results_simp

theorem A_arg2 (V : Valuation τ sig (Elt Ideal)) :
    after opsA V (Proc.devRef .tc main_arg2) = V (Proc.devRef .tc main_arg2) := by
  after_results_simp

theorem A_arg3 (V : Valuation τ sig (Elt Ideal)) :
    after opsA V (Proc.devRef .tc main_arg3) = V (Proc.devRef .tc main_arg3) := by
  after_results_simp

theorem A_arg4 (V : Valuation τ sig (Elt Ideal)) :
    after opsA V (Proc.devRef .tc main_arg4) = V (Proc.devRef .tc main_arg4) := by
  after_results_simp

theorem A_arg5 (V : Valuation τ sig (Elt Ideal)) :
    after opsA V (Proc.devRef .tc main_arg5) = V (Proc.devRef .tc main_arg5) := by
  after_results_simp

theorem A_arg6 (V : Valuation τ sig (Elt Ideal)) :
    after opsA V (Proc.devRef .tc main_arg6) = V (Proc.devRef .tc main_arg6) := by
  after_results_simp

theorem A_arg7 (V : Valuation τ sig (Elt Ideal)) :
    after opsA V (Proc.devRef .tc main_arg7) = V (Proc.devRef .tc main_arg7) := by
  after_results_simp

theorem A_arg8 (V : Valuation τ sig (Elt Ideal)) :
    after opsA V (Proc.devRef .tc main_arg8) = V (Proc.devRef .tc main_arg8) := by
  after_results_simp

end Cert.ReferenceIdeal.RefRun

end
-- ==== Proof.RefRunC.lean ====
/-
  Layer 2 up to the mean over the heads, read at its result buffer.

  Run from any contents `V` of the buffers, the forty-one operations leave in the buffer of the head mean the stages'
  composition applied to what the buffer of the exponential linear unit's result and the last four argument buffers
  held: the embedding of the activations, its two projections, the scores, their softmax, the softmax-weighted
  embedding summed over the heads and divided by eight.  The operations write no argument of @main.
-/
import proofs.«136446_j28295244546247_2_alg».proof.Proof.RefRunOps
import proofs.«136446_j28295244546247_2_alg».proof.Proof.RefStages

noncomputable section

namespace Cert.ReferenceIdeal.RefRun

open Cert.ReferenceIdeal Cert.ReferenceIdeal.Gen Idealize.ShloMosaic Idealize.ShloMosaic.TcCoe Idealize.SL.Sem Idealize.ShloMosaic.StableHlo

set_option maxHeartbeats 1600000 in
/-- The head mean of layer 2 as the stages' composition of the activations and the last four arguments. -/
theorem C_val (V : Valuation τ sig (Elt Ideal)) :
    after opsC V (Proc.devRef .tc main_v73)
      = Stages.mean2
          (Stages.softmax
            (Stages.scores
              (Stages.projI2 (Stages.emb2 (V (Proc.devRef .tc main_v37)) (V (Proc.devRef .tc main_arg5)) (V (Proc.devRef .tc main_arg6))) (V (Proc.devRef .tc main_arg7)))
              (Stages.projJ2 (Stages.emb2 (V (Proc.devRef .tc main_v37)) (V (Proc.devRef .tc main_arg5)) (V (Proc.devRef .tc main_arg6))) (V (Proc.devRef .tc main_arg7)))
              (V (Proc.devRef .tc main_arg8))))
          (Stages.emb2 (V (Proc.devRef .tc main_v37)) (V (Proc.devRef .tc main_arg5)) (V (Proc.devRef .tc main_arg6))) := by
  after_results_simp
  rfl

/-! The operations write no argument of @main. -/

theorem C_arg0 (V : Valuation τ sig (Elt Ideal)) :
    after opsC V (Proc.devRef .tc main_arg0) = V (Proc.devRef .tc main_arg0) := by
  after_results_simp

theorem C_arg1 (V : Valuation τ sig (Elt Ideal)) :
    after opsC V (Proc.devRef .tc main_arg1) = V (Proc.devRef .tc main_arg1) := by
  after_results_simp

theorem C_arg2 (V : Valuation τ sig (Elt Ideal)) :
    after opsC V (Proc.devRef .tc main_arg2) = V (Proc.devRef .tc main_arg2) := by
  after_results_simp

theorem C_arg3 (V : Valuation τ sig (Elt Ideal)) :
    after opsC V (Proc.devRef .tc main_arg3) = V (Proc.devRef .tc main_arg3) := by
  after_results_simp

theorem C_arg4 (V : Valuation τ sig (Elt Ideal)) :
    after opsC V (Proc.devRef .tc main_arg4) = V (Proc.devRef .tc main_arg4) := by
  after_results_simp

theorem C_arg5 (V : Valuation τ sig (Elt Ideal)) :
    after opsC V (Proc.devRef .tc main_arg5) = V (Proc.devRef .tc main_arg5) := by
  after_results_simp

theorem C_arg6 (V : Valuation τ sig (Elt Ideal)) :
    after opsC V (Proc.devRef .tc main_arg6) = V (Proc.devRef .tc main_arg6) := by
  after_results_simp

theorem C_arg7 (V : Valuation τ sig (Elt Ideal)) :
    after opsC V (Proc.devRef .tc main_arg7) = V (Proc.devRef .tc main_arg7) := by
  after_results_simp

theorem C_arg8 (V : Valuation τ sig (Elt Ideal)) :
    after opsC V (Proc.devRef .tc main_arg8) = V (Proc.devRef .tc main_arg8) := by
  after_results_simp

end Cert.ReferenceIdeal.RefRun

end
-- ==== Proof.RefRun.lean ====
/-
  The run of the reference program, over the named stages.

  @main is one straight line of 113 host operations, cut into five stretches.  What the buffers hold after a
  concatenation is what they hold after the second part, run from what they hold after the first; so the result buffer
  is read stretch by stretch, from the last backwards: the second leaky rectifier of layer 2's head mean; that mean as the
  stages' composition of the exponential linear unit's result and the last four arguments, which the three stretches
  before leave alone; the unit of the first leaky rectifier's result; that of layer 1's head mean; and that mean as the
  stages' composition of the first five arguments.  The composition is the stages' `result` by unfolding its definition.
  No stretch writes an argument, so each argument buffer ends as launched.  The run itself — every weakly fair
  execution terminates with each buffer at what the operations leave in it — is the library's statement for a straight
  line of host operations.
-/
import proofs.«136446_j28295244546247_2_alg».proof.Proof.RefRunOps
import proofs.«136446_j28295244546247_2_alg».proof.Proof.RefRunSmall
import proofs.«136446_j28295244546247_2_alg».proof.Proof.RefRunA
import proofs.«136446_j28295244546247_2_alg».proof.Proof.RefRunC
import proofs.«136446_j28295244546247_2_alg».proof.Proof.RefStages

noncomputable section

namespace Cert.ReferenceIdeal.RefRun

open Cert.ReferenceIdeal Cert.ReferenceIdeal.Gen Idealize.ShloMosaic Idealize.ShloMosaic.TcCoe Idealize.SL.Sem Idealize.ShloMosaic.StableHlo

set_option maxHeartbeats 400000 in
/-- The result buffer after the whole line is the stages' `result` of what the nine argument buffers held. -/
theorem all_val (V : Valuation τ sig (Elt Ideal)) :
    after opsAll V (Proc.devRef .tc main_v74)
      = Stages.result (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  rw [after_append, after_append, after_append, after_append, D_val, C_val, E_val, E_arg5, E_arg6, E_arg7, E_arg8,
    B_val, B_arg5, B_arg6, B_arg7, B_arg8, A_val, A_arg5, A_arg6, A_arg7, A_arg8]
  rfl

theorem all_arg0 (V : Valuation τ sig (Elt Ideal)) :
    after opsAll V (Proc.devRef .tc main_arg0) = V (Proc.devRef .tc main_arg0) := by
  rw [after_append, after_append, after_append, after_append, D_arg0, C_arg0, E_arg0, B_arg0, A_arg0]

theorem all_arg1 (V : Valuation τ sig (Elt Ideal)) :
    after opsAll V (Proc.devRef .tc main_arg1) = V (Proc.devRef .tc main_arg1) := by
  rw [after_append, after_append, after_append, after_append, D_arg1, C_arg1, E_arg1, B_arg1, A_arg1]

theorem all_arg2 (V : Valuation τ sig (Elt Ideal)) :
    after opsAll V (Proc.devRef .tc main_arg2) = V (Proc.devRef .tc main_arg2) := by
  rw [after_append, after_append, after_append, after_append, D_arg2, C_arg2, E_arg2, B_arg2, A_arg2]

theorem all_arg3 (V : Valuation τ sig (Elt Ideal)) :
    after opsAll V (Proc.devRef .tc main_arg3) = V (Proc.devRef .tc main_arg3) := by
  rw [after_append, after_append, after_append, after_append, D_arg3, C_arg3, E_arg3, B_arg3, A_arg3]

theorem all_arg4 (V : Valuation τ sig (Elt Ideal)) :
    after opsAll V (Proc.devRef .tc main_arg4) = V (Proc.devRef .tc main_arg4) := by
  rw [after_append, after_append, after_append, after_append, D_arg4, C_arg4, E_arg4, B_arg4, A_arg4]

theorem all_arg5 (V : Valuation τ sig (Elt Ideal)) :
    after opsAll V (Proc.devRef .tc main_arg5) = V (Proc.devRef .tc main_arg5) := by
  rw [after_append, after_append, after_append, after_append, D_arg5, C_arg5, E_arg5, B_arg5, A_arg5]

theorem all_arg6 (V : Valuation τ sig (Elt Ideal)) :
    after opsAll V (Proc.devRef .tc main_arg6) = V (Proc.devRef .tc main_arg6) := by
  rw [after_append, after_append, after_append, after_append, D_arg6, C_arg6, E_arg6, B_arg6, A_arg6]

theorem all_arg7 (V : Valuation τ sig (Elt Ideal)) :
    after opsAll V (Proc.devRef .tc main_arg7) = V (Proc.devRef .tc main_arg7) := by
  rw [after_append, after_append, after_append, after_append, D_arg7, C_arg7, E_arg7, B_arg7, A_arg7]

theorem all_arg8 (V : Valuation τ sig (Elt Ideal)) :
    after opsAll V (Proc.devRef .tc main_arg8) = V (Proc.devRef .tc main_arg8) := by
  rw [after_append, after_append, after_append, after_append, D_arg8, C_arg8, E_arg8, B_arg8, A_arg8]

/-- On every device, from any memory with zero counters: every weakly fair execution of @main terminates with the
    result buffer at the stages' `result` of the launch contents of the nine arguments, and the arguments as launched. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v74)
          = Stages.result (m ((c.tc : Thread nD τ).loc main_arg0))
              (m ((c.tc : Thread nD τ).loc main_arg1))
              (m ((c.tc : Thread nD τ).loc main_arg2))
              (m ((c.tc : Thread nD τ).loc main_arg3))
              (m ((c.tc : Thread nD τ).loc main_arg4))
              (m ((c.tc : Thread nD τ).loc main_arg5))
              (m ((c.tc : Thread nD τ).loc main_arg6))
              (m ((c.tc : Thread nD τ).loc main_arg7))
              (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run (defs (F := Ideal)) _ _).mono
    (fun _ h c => ⟨(h c main_v74).trans (all_val (launchContents m c)),
      (h c main_arg0).trans (all_arg0 (launchContents m c)),
      (h c main_arg1).trans (all_arg1 (launchContents m c)),
      (h c main_arg2).trans (all_arg2 (launchContents m c)),
      (h c main_arg3).trans (all_arg3 (launchContents m c)),
      (h c main_arg4).trans (all_arg4 (launchContents m c)),
      (h c main_arg5).trans (all_arg5 (launchContents m c)),
      (h c main_arg6).trans (all_arg6 (launchContents m c)),
      (h c main_arg7).trans (all_arg7 (launchContents m c)),
      (h c main_arg8).trans (all_arg8 (launchContents m c))⟩)
    (run_all m ρ)

end Cert.ReferenceIdeal.RefRun

end
-- ==== Proof.KStages.lean ====
/-
  The kernel program's host stages, named.

  Each definition is one stretch of the kernel program's host operations as a function of the arrays it reads, at the
  extended reals: the linear embedding `x · Wᵀ + b`; the two projections of the embedding onto the halves of the
  attention weights (the query and key terms of the scores), the key terms also transposed to `[8, 4096]`, the layout
  the attention kernel reads them in; the head biases as one row `[1, 8]`; and the exponential linear unit between the
  two layers.  The theorems read the buffer contents at the two regions' entries as these functions of the program's
  nine argument arrays and of the first region's result.
-/
import proofs.«136446_j28295244546247_2_alg».proof.KernelIdeal
import proofs.«136446_j28295244546247_2_alg».proof.Proof.Gen.KernelIdeal.Frame
import Idealize.ShloMosaic.PureOps.Ideal.Laws

noncomputable section

namespace Cert.KernelIdeal.KStages

open Cert.KernelIdeal Cert.KernelIdeal.Gen Idealize.ShloMosaic Idealize.ShloMosaic.TcCoe

/-! ## Layer 1: 64 features -/

/-- `x · W1ᵀ + b1`. -/
def emb1 (x : FVec Ideal S4096x64 .f32) (W : FVec Ideal S64x64 .f32) (b : FVec Ideal S64 .f32) : FVec Ideal S4096x64 .f32 :=
  addf (Host.dotGeneral dot_S4096x64_S64x64_S4096x64_1_0_0_1_n_n none x (transpose S64x64 [1, 0] W transposes_S64x64_S64x64_1_0))
    (broadcastInDim S4096x64 ![0, 1] bcast_S1x64_S4096x64_0_1 (broadcastInDim S1x64 ![1] bcast_S64_S1x64_1 b))

/-- The query terms: the embedding against the first half of the attention weights. -/
def projI1 (e : FVec Ideal S4096x64 .f32) (aw : FVec Ideal S8x128 .f32) : FVec Ideal S4096x8 .f32 :=
  Host.dotGeneral dot_S4096x64_S64x8_S4096x8_1_0_0_1_n_n none e
    (transpose S64x8 [1, 0] (extractStridedSlice S8x64 ![0, 0] aw slices_S8x128_S8x64_0_0) transposes_S8x64_S64x8_1_0)

/-- The key terms: the embedding against the second half of the attention weights. -/
def projJ1 (e : FVec Ideal S4096x64 .f32) (aw : FVec Ideal S8x128 .f32) : FVec Ideal S4096x8 .f32 :=
  Host.dotGeneral dot_S4096x64_S64x8_S4096x8_1_0_0_1_n_n none e
    (transpose S64x8 [1, 0] (extractStridedSlice S8x64 ![0, 64] aw slices_S8x128_S8x64_0_64) transposes_S8x64_S64x8_1_0)

/-- The key terms with the heads along the rows: `[4096, 8] → [8, 4096]`. -/
def projJT1 (e : FVec Ideal S4096x64 .f32) (aw : FVec Ideal S8x128 .f32) : FVec Ideal S8x4096 .f32 :=
  transpose S8x4096 [1, 0] (projJ1 e aw) transposes_S4096x8_S8x4096_1_0

/-- The head biases as one row: the reshape `[8] → [1, 8]`. -/
def abRow (ab : FVec Ideal S8 .f32) : FVec Ideal S1x8 .f32 :=
  fun i => shapeCast S1x8 ab shapeCasts_S8_S1x8 i

/-! ## Between the layers -/

/-- The exponential linear unit: `y` where it is above zero, `expm1 y` elsewhere. -/
def eluK (y : FVec Ideal S4096x64 .f32) : FVec Ideal S4096x64 .f32 :=
  select (cmpf .ogt y (broadcastInDim S4096x64 ![] bcast_S_S4096x64 (constant (F := Ideal) S_ .f32 0x00000000#32))) y
    (Host.expm1 y)

/-! ## Layer 2: 32 features -/

/-- `z · W2ᵀ + b2`. -/
def emb2 (z : FVec Ideal S4096x64 .f32) (W : FVec Ideal S32x64 .f32) (b : FVec Ideal S32 .f32) : FVec Ideal S4096x32 .f32 :=
  addf (Host.dotGeneral dot_S4096x64_S64x32_S4096x32_1_0_0_1_n_n none z (transpose S64x32 [1, 0] W transposes_S32x64_S64x32_1_0))
    (broadcastInDim S4096x32 ![0, 1] bcast_S1x32_S4096x32_0_1 (broadcastInDim S1x32 ![1] bcast_S32_S1x32_1 b))

/-- The query terms of layer 2. -/
def projI2 (e : FVec Ideal S4096x32 .f32) (aw : FVec Ideal S8x64 .f32) : FVec Ideal S4096x8 .f32 :=
  Host.dotGeneral dot_S4096x32_S32x8_S4096x8_1_0_0_1_n_n none e
    (transpose S32x8 [1, 0] (extractStridedSlice S8x32 ![0, 0] aw slices_S8x64_S8x32_0_0) transposes_S8x32_S32x8_1_0)

/-- The key terms of layer 2. -/
def projJ2 (e : FVec Ideal S4096x32 .f32) (aw : FVec Ideal S8x64 .f32) : FVec Ideal S4096x8 .f32 :=
  Host.dotGeneral dot_S4096x32_S32x8_S4096x8_1_0_0_1_n_n none e
    (transpose S32x8 [1, 0] (extractStridedSlice S8x32 ![0, 32] aw slices_S8x64_S8x32_0_32) transposes_S8x32_S32x8_1_0)

/-- The key terms of layer 2 with the heads along the rows. -/
def projJT2 (e : FVec Ideal S4096x32 .f32) (aw : FVec Ideal S8x64 .f32) : FVec Ideal S8x4096 .f32 :=
  transpose S8x4096 [1, 0] (projJ2 e aw) transposes_S4096x8_S8x4096_1_0

/-! ## Which buffers the two regions' windows are -/

/-- Region 0 reads the query terms, the transposed key terms, the bias row and the embedding, and writes `%13`. -/
theorem arr0 : Pipeline.arrRef spec0 0 = main_v7 ∧ Pipeline.arrRef spec0 1 = main_v11 ∧ Pipeline.arrRef spec0 2 = main_v12
    ∧ Pipeline.arrRef spec0 3 = main_v4 ∧ Pipeline.arrRef spec0 4 = main_v13 := ⟨rfl, rfl, rfl, rfl, rfl⟩

/-- Region 1 reads layer 2's query terms, transposed key terms, bias row and embedding, and writes `%31`. -/
theorem arr1 : Pipeline.arrRef spec1 0 = main_v25 ∧ Pipeline.arrRef spec1 1 = main_v29 ∧ Pipeline.arrRef spec1 2 = main_v30
    ∧ Pipeline.arrRef spec1 3 = main_v22 ∧ Pipeline.arrRef spec1 4 = main_v31 := ⟨rfl, rfl, rfl, rfl, rfl⟩

/-! ## Region 0's entry: the first stretch of host operations from the launch memory -/

section Entry0

variable (m : (ℓ : Loc nD τ sig) → Buf (Elt Ideal) ℓ) (ρ : Dev nD → PrngReg) (c : Dev nD)

set_option maxHeartbeats 400000 in
/-- `%4` is the embedding of the arguments. -/
theorem W1_v4 : Gen.W1 m ρ c (Proc.devRef .tc main_v4) = emb1 (m ((c.tc : Thread nD τ).loc main_arg0)) (m ((c.tc : Thread nD τ).loc main_arg1)) (m ((c.tc : Thread nD τ).loc main_arg2)) := by
  dsimp only [Gen.W1, Gen.hostOps0]
  after_results
  rfl

set_option maxHeartbeats 400000 in
/-- `%7` is the query terms of that embedding. -/
theorem W1_v7 : Gen.W1 m ρ c (Proc.devRef .tc main_v7) = projI1 (emb1 (m ((c.tc : Thread nD τ).loc main_arg0)) (m ((c.tc : Thread nD τ).loc main_arg1)) (m ((c.tc : Thread nD τ).loc main_arg2))) (m ((c.tc : Thread nD τ).loc main_arg3)) := by
  dsimp only [Gen.W1, Gen.hostOps0]
  after_results
  rfl

set_option maxHeartbeats 400000 in
/-- `%11` is the key terms of that embedding, transposed. -/
theorem W1_v11 : Gen.W1 m ρ c (Proc.devRef .tc main_v11) = projJT1 (emb1 (m ((c.tc : Thread nD τ).loc main_arg0)) (m ((c.tc : Thread nD τ).loc main_arg1)) (m ((c.tc : Thread nD τ).loc main_arg2))) (m ((c.tc : Thread nD τ).loc main_arg3)) := by
  dsimp only [Gen.W1, Gen.hostOps0]
  after_results
  rfl

set_option maxHeartbeats 400000 in
/-- `%12` is the bias row. -/
theorem W1_v12 : Gen.W1 m ρ c (Proc.devRef .tc main_v12) = abRow (m ((c.tc : Thread nD τ).loc main_arg4)) := by
  dsimp only [Gen.W1, Gen.hostOps0]
  after_results
  rfl

end Entry0

/-! ## Region 1's entry: the three stretches after region 0, from any contents `V` -/

section Entry1

variable (V : Valuation τ sig (Elt Ideal))

set_option maxHeartbeats 400000 in
/-- `%22` is layer 2's embedding of the exponential linear unit of `%13`. -/
theorem after_v22 :
    StableHlo.after hostOps1_2 (StableHlo.after hostOps1_1 (StableHlo.after hostOps1 V)) (Proc.devRef .tc main_v22)
      = emb2 (eluK (V (Proc.devRef .tc main_v13))) (V (Proc.devRef .tc main_arg5)) (V (Proc.devRef .tc main_arg6)) := by
  dsimp only [Gen.hostOps1, Gen.hostOps1_1, Gen.hostOps1_2]
  after_results
  rfl

set_option maxHeartbeats 400000 in
/-- `%25` is the query terms of that embedding. -/
theorem after_v25 :
    StableHlo.after hostOps1_2 (StableHlo.after hostOps1_1 (StableHlo.after hostOps1 V)) (Proc.devRef .tc main_v25)
      = projI2 (emb2 (eluK (V (Proc.devRef .tc main_v13))) (V (Proc.devRef .tc main_arg5)) (V (Proc.devRef .tc main_arg6)))
          (V (Proc.devRef .tc main_arg7)) := by
  dsimp only [Gen.hostOps1, Gen.hostOps1_1, Gen.hostOps1_2]
  after_results
  rfl

set_option maxHeartbeats 400000 in
/-- `%29` is the key terms of that embedding, transposed. -/
theorem after_v29 :
    StableHlo.after hostOps1_2 (StableHlo.after hostOps1_1 (StableHlo.after hostOps1 V)) (Proc.devRef .tc main_v29)
      = projJT2 (emb2 (eluK (V (Proc.devRef .tc main_v13))) (V (Proc.devRef .tc main_arg5)) (V (Proc.devRef .tc main_arg6)))
          (V (Proc.devRef .tc main_arg7)) := by
  dsimp only [Gen.hostOps1, Gen.hostOps1_1, Gen.hostOps1_2]
  after_results
  rfl

set_option maxHeartbeats 400000 in
/-- `%30` is layer 2's bias row. -/
theorem after_v30 :
    StableHlo.after hostOps1_2 (StableHlo.after hostOps1_1 (StableHlo.after hostOps1 V)) (Proc.devRef .tc main_v30)
      = abRow (V (Proc.devRef .tc main_arg8)) := by
  dsimp only [Gen.hostOps1, Gen.hostOps1_1, Gen.hostOps1_2]
  after_results
  rfl

end Entry1

/-! ## Region 1's entry in the run: `V` is region 0's exit contents, where the arguments are as launched -/

section Run1

variable (m : (ℓ : Loc nD τ sig) → Buf (Elt Ideal) ℓ) (ρ : Dev nD → PrngReg) (c : Dev nD)

set_option maxHeartbeats 400000 in
/-- Argument 5 at region 0's exit is as launched: no window of region 0 is its buffer and no host operation writes it. -/
theorem W2_arg5 : Gen.W2 m ρ c (Proc.devRef .tc main_arg5) = m ((c.tc : Thread nD τ).loc main_arg5) := by
  refine (Gen.W2_of_ne m ρ c main_arg5 (by decide)).trans ?_
  dsimp only [Gen.W1, Gen.hostOps0]
  after_results

set_option maxHeartbeats 400000 in
/-- Argument 6 at region 0's exit is as launched: no window of region 0 is its buffer and no host operation writes it. -/
theorem W2_arg6 : Gen.W2 m ρ c (Proc.devRef .tc main_arg6) = m ((c.tc : Thread nD τ).loc main_arg6) := by
  refine (Gen.W2_of_ne m ρ c main_arg6 (by decide)).trans ?_
  dsimp only [Gen.W1, Gen.hostOps0]
  after_results

set_option maxHeartbeats 400000 in
/-- Argument 7 at region 0's exit is as launched: no window of region 0 is its buffer and no host operation writes it. -/
theorem W2_arg7 : Gen.W2 m ρ c (Proc.devRef .tc main_arg7) = m ((c.tc : Thread nD τ).loc main_arg7) := by
  refine (Gen.W2_of_ne m ρ c main_arg7 (by decide)).trans ?_
  dsimp only [Gen.W1, Gen.hostOps0]
  after_results

set_option maxHeartbeats 400000 in
/-- Argument 8 at region 0's exit is as launched: no window of region 0 is its buffer and no host operation writes it. -/
theorem W2_arg8 : Gen.W2 m ρ c (Proc.devRef .tc main_arg8) = m ((c.tc : Thread nD τ).loc main_arg8) := by
  refine (Gen.W2_of_ne m ρ c main_arg8 (by decide)).trans ?_
  dsimp only [Gen.W1, Gen.hostOps0]
  after_results

/-- `%22` at region 1's entry. -/
theorem W5_v22 : Gen.W5 m ρ c (Proc.devRef .tc main_v22)
    = emb2 (eluK (Gen.W2 m ρ c (Proc.devRef .tc main_v13))) (m ((c.tc : Thread nD τ).loc main_arg5)) (m ((c.tc : Thread nD τ).loc main_arg6)) := by
  refine (after_v22 (Gen.W2 m ρ c)).trans ?_
  rw [W2_arg5, W2_arg6]

/-- `%25` at region 1's entry. -/
theorem W5_v25 : Gen.W5 m ρ c (Proc.devRef .tc main_v25)
    = projI2 (emb2 (eluK (Gen.W2 m ρ c (Proc.devRef .tc main_v13))) (m ((c.tc : Thread nD τ).loc main_arg5)) (m ((c.tc : Thread nD τ).loc main_arg6))) (m ((c.tc : Thread nD τ).loc main_arg7)) := by
  refine (after_v25 (Gen.W2 m ρ c)).trans ?_
  rw [W2_arg5, W2_arg6, W2_arg7]

/-- `%29` at region 1's entry. -/
theorem W5_v29 : Gen.W5 m ρ c (Proc.devRef .tc main_v29)
    = projJT2 (emb2 (eluK (Gen.W2 m ρ c (Proc.devRef .tc main_v13))) (m ((c.tc : Thread nD τ).loc main_arg5)) (m ((c.tc : Thread nD τ).loc main_arg6))) (m ((c.tc : Thread nD τ).loc main_arg7)) := by
  refine (after_v29 (Gen.W2 m ρ c)).trans ?_
  rw [W2_arg5, W2_arg6, W2_arg7]

/-- `%30` at region 1's entry. -/
theorem W5_v30 : Gen.W5 m ρ c (Proc.devRef .tc main_v30) = abRow (m ((c.tc : Thread nD τ).loc main_arg8)) := by
  refine (after_v30 (Gen.W2 m ρ c)).trans ?_
  rw [W2_arg8]

end Run1

end Cert.KernelIdeal.KStages

end
-- ==== Proof.Spec.lean ====
/-
  One multi-head attention layer over the extended reals, entry by entry, and the few laws that let two
  spellings of it meet.

  For node features `emb : N × d`, per-head query terms `si : N × 8`, key terms `sj : N × 8` and head
  biases `ab : 8` (N = 4096 nodes, 8 heads), head `h` scores the pair `(i, j)` by `si i h + sj j h + ab h`,
  normalises row `i` of the scores by a softmax taken after subtracting the row's largest score, and weights the
  rows of `emb` by it; the layer's output at `(i, q)` is the mean over the eight heads of those weighted sums,
  passed through the leaky rectifier of slope 0.2.  The mean is a division by eight: on the extended reals that is
  the product with one eighth, whatever the dividend (an infinity included), which is the only law the two
  programs' layers differ by, besides the order in which the eight heads are added up.
-/
import Idealize.ShloMosaic.PureOps.Ideal.Laws
import Idealize.ShloMosaic.Lib.ValueIdx

noncomputable section

open scoped BigOperators

namespace MHA

open Idealize.ShloMosaic

/-- The score of head `h` between query node `i` and key node `j`. -/
def score (si sj : Fin 4096 → Fin 8 → EReal) (ab : Fin 8 → EReal) (h : Fin 8) (i j : Fin 4096) : EReal :=
  si i h + sj j h + ab h

/-- The largest entry of a row of scores, folded from the float pattern of minus infinity. -/
def rowMax (s : Fin 4096 → EReal) : EReal :=
  (Finset.univ : Finset (Fin 4096)).fold max (Ideal.ofBits .f32 0xFF800000#32) s

/-- The exponential of a score less its row's largest. -/
def expo (s : Fin 4096 → EReal) (j : Fin 4096) : EReal := Ideal.exp (s j - rowMax s)

/-- Column `q` of the features, weighted by the softmax of one row of scores. -/
def head {d : Nat} (emb : Fin 4096 → Fin d → EReal) (s : Fin 4096 → EReal) (q : Fin d) : EReal :=
  ∑ j : Fin 4096, Ideal.div (expo s j) (∑ j' : Fin 4096, expo s j') * emb j q

/-- The leaky rectifier of slope 0.2 (the slope as its float pattern; the comparison is `v ≥ 0`). -/
def leaky (v : EReal) : EReal :=
  Scalar.select (FloatOps.cmpf (F := Ideal) (φ := .f32) .oge v (Ideal.ofBits .f32 0x00000000#32)) v
    (Ideal.ofBits .f32 0x3E4CCCCD#32 * v)

/-- One attention layer at `(i, q)`: the mean over the heads of the softmax-weighted feature columns, rectified. -/
def layer {d : Nat} (emb : Fin 4096 → Fin d → EReal) (si sj : Fin 4096 → Fin 8 → EReal) (ab : Fin 8 → EReal)
    (i : Fin 4096) (q : Fin d) : EReal :=
  leaky (Ideal.div (∑ h : Fin 8, head emb (score si sj ab h i) q) (Ideal.ofBits .f32 0x41000000#32))

/-- The exponential linear unit: `v` above zero, `exp v - 1` otherwise. -/
def elu (v : EReal) : EReal :=
  Scalar.select (FloatOps.cmpf (F := Ideal) (φ := .f32) .ogt v (Ideal.ofBits .f32 0x00000000#32)) v (Ideal.exp v - 1)

/-- The float pattern of `8.0` denotes the real 8. -/
theorem ofBits_eight : Ideal.ofBits .f32 0x41000000#32 = ((8 : ℝ) : EReal) := by
  simp [Ideal.ofBits, Ideal.ieee, -EReal.coe_mul]; norm_num

/-- The float pattern of `0.125` denotes one eighth exactly. -/
theorem ofBits_eighth : Ideal.ofBits .f32 0x3E000000#32 = ((1 / 8 : ℝ) : EReal) := by
  simp [Ideal.ofBits, Ideal.ieee, -EReal.coe_mul]; norm_num

/-- The float pattern of `1.0` denotes 1. -/
theorem ofBits_one : Ideal.ofBits .f32 0x3F800000#32 = 1 := by
  simp [Ideal.ofBits, Ideal.ieee, -EReal.coe_mul]; norm_num

/-- The float pattern of minus infinity denotes the bottom of the extended reals. -/
theorem ofBits_negInf : Ideal.ofBits .f32 0xFF800000#32 = ⊥ := by
  simp [Ideal.ofBits, Ideal.ieee]

/-- Multiplying by one eighth is dividing by eight, for every extended real. -/
theorem mul_eighth (a : EReal) :
    a * Ideal.ofBits .f32 0x3E000000#32 = Ideal.div a (Ideal.ofBits .f32 0x41000000#32) := by
  rw [ofBits_eighth, ofBits_eight, Ideal.div_coe (by norm_num : (8 : ℝ) ≠ 0)]

/-- Eight terms added one after the other onto zero are their sum over the eight indices. -/
theorem sum8 (c : Fin 8 → EReal) :
    0 + c 0 + c 1 + c 2 + c 3 + c 4 + c 5 + c 6 + c 7 = ∑ h : Fin 8, c h := by
  rw [Fin.sum_univ_eight, zero_add]

end MHA

end
-- ==== Proof.KStagesRead.lean ====
/-
  The kernel program's host stages read at an index.

  The transposed key terms at `(h, j)` are the key terms at `(j, h)`; the bias row at `(0, h)` is the bias at `h`; and
  the exponential linear unit acts entry by entry: a transpose, a reshape that adds a leading unit axis, and the
  elementwise choice between `v` and `exp v - 1` by the comparison of `v` with zero.
-/
import proofs.«136446_j28295244546247_2_alg».proof.Proof.KStages
import proofs.«136446_j28295244546247_2_alg».proof.Proof.Spec
import Idealize.ShloMosaic.Lib.ValueIdx
import Idealize.ShloMosaic.Lib.ValueLayout

noncomputable section

namespace Cert.KernelIdeal.KStages

open Cert.KernelIdeal Cert.KernelIdeal.Gen Idealize.ShloMosaic Idealize.ShloMosaic.ValueIdx

/-- The transposed key terms of layer 1 at `(h, j)` are the key terms at `(j, h)`. -/
theorem projJT1_apply (e : FVec Ideal S4096x64 .f32) (aw : FVec Ideal S8x128 .f32) (h : Fin 8) (j : Fin 4096) :
    projJT1 e aw (ix2 h j) = projJ1 e aw (ix2 j h) :=
  transpose_ix2_apply (projJ1 e aw) transposes_S4096x8_S8x4096_1_0 h j

/-- The transposed key terms of layer 2 at `(h, j)` are the key terms at `(j, h)`. -/
theorem projJT2_apply (e : FVec Ideal S4096x32 .f32) (aw : FVec Ideal S8x64 .f32) (h : Fin 8) (j : Fin 4096) :
    projJT2 e aw (ix2 h j) = projJ2 e aw (ix2 j h) :=
  transpose_ix2_apply (projJ2 e aw) transposes_S4096x8_S8x4096_1_0 h j

/-- The bias row at `(0, h)` is the bias of head `h`: the reshape keeps every element's row-major position. -/
theorem abRow_apply (ab : FVec Ideal S8 .f32) (h : Fin 8) : abRow ab (ix2 (0 : Fin 1) h) = ab (ix1 h) :=
  shapeCast_a_1a_apply ab shapeCasts_S8_S1x8 (0 : Fin 1) h

set_option maxHeartbeats 400000 in
/-- The exponential linear unit at an entry: the comparison, the exponential less one and the choice are all taken
    entry by entry, and the zero it compares with is a constant spread over the array. -/
theorem eluK_apply (y : FVec Ideal S4096x64 .f32) (j : S4096x64.Idx) : eluK y j = MHA.elu (y j) := rfl

end Cert.KernelIdeal.KStages

end
-- ==== Proof.LibMatmulNN.lean ====
/-
  A matrix product of a row-major `M × K` block against a `K × N` block (the right operand NOT transposed:
  the left operand's axis 1 is contracted with the right operand's axis 0), accumulated into the zero block,
  read at the extended reals: entry `(p, q)` of the result is the sum over `k` of `x[p, k] · w[k, q]`.
  The matrix unit's contraction index ranges over a one-axis shape of extent `K`; it is re-indexed to `Fin K`,
  and the operand indices the dot's dimension record computes are named coordinate by coordinate.
  General in the three extents and in the operands' float formats.
-/
import Idealize.ShloMosaic.PureOps.Ideal.Laws
import Idealize.ShloMosaic.Lib.ValueIdx

noncomputable section

open scoped BigOperators

namespace LibMatmulNN

open Idealize.ShloMosaic Idealize.ShloMosaic.ValueIdx

variable (M K N : Nat)

/-- The left operand's index at output index `(p, q)` and contraction index `k` is `(p, k)`. -/
theorem lhsIdx_eq (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl _ _).trans hk

/-- The right operand's index at output index `(p, q)` and contraction index `k` is `(k, q)`. -/
theorem rhsIdx_eq (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl _ _).trans hk
  | ⟨1, _⟩ => rfl

/-- Entry `(p, q)` of `x · w` accumulated into zero is `∑ k, x[p, k] · w[k, q]` on the extended reals. -/
theorem matmul_zero_apply {φ₁ φ₂ : FTy} (prec : Option ContractPrecision)
    (x : FVec Ideal ⟨2, ![M, K]⟩ φ₁) (w : FVec Ideal ⟨2, ![K, N]⟩ φ₂) (p : Fin M) (q : Fin N) :
    FloatOps.matmul (DotDims.plain M K N) prec x w (constant (F := Ideal) ⟨2, ![M, N]⟩ .f32 0x00000000#32) (ix2 p q)
      = ∑ k : Fin K, x (ix2 p k) * w (ix2 k q) := by
  rw [Ideal.matmul_constant_zero_apply, ← Equiv.sum_comp (contrEquiv1 (DotDims.plain M K N) K rfl rfl).symm]
  refine Finset.sum_congr rfl fun k _ => ?_
  rw [lhsIdx_eq, rhsIdx_eq]

end LibMatmulNN

end
-- ==== Proof.LibLaneReduce.lean ====
/-
  Reductions along the lanes of an `[r, n]` block, read at a row.

  A kernel that keeps a quantity's index on the rows reduces over the lanes of an `[r, n]` value (axis 1), obtaining a
  vector of length `r`, and views it as an `[r, 1]` column (a sum or a maximum taken with the axis kept).  At the
  extended reals the entry of that column at row `p` is the sum, or the fold of `max` from the accumulator's value, over
  the `n` entries of row `p`; where the maximum is first taken once more against the accumulator's value broadcast (as
  a lowered softmax does), it is the `max` of that value with the fold.  General in both extents.
-/
import Idealize.ShloMosaic.PureOps.Ideal.Laws
import Idealize.ShloMosaic.Lib.ValueIdx
import Idealize.ShloMosaic.Lib.Pipeline.Value

noncomputable section

open scoped BigOperators

namespace LibLaneReduce

open Idealize.ShloMosaic Idealize.ShloMosaic.ValueIdx

variable {r n : Nat}

/-- The reduced index `p` with lane `k` put back is `(p, k)`. -/
theorem lift_lanes (h : (⟨2, ![r, n]⟩ : Shape).Reduces [1] (⟨1, ![r]⟩ : Shape)) (p : Fin r)
    (k : Fin ((⟨2, ![r, n]⟩ : Shape).size 1)) : h.lift (ix1 p) k = ix2 p (⟨k.val, k.isLt⟩ : Fin n) := by
  funext c; apply Fin.ext
  fin_cases c <;> rfl

/-- A vector of length `r` viewed as a column `[r, 1]` reads, at `(p, 0)`, the vector at `p`: the reshape keeps the
    row-major position `p = p · 1 + 0`. -/
theorem col_apply {α : Type} (x : (⟨1, ![r]⟩ : Shape).Idx → α) (hs : (⟨1, ![r]⟩ : Shape).ShapeCasts ⟨2, ![r, 1]⟩) (p : Fin r) :
    shapeCast ⟨2, ![r, 1]⟩ x hs (ix2 p (0 : Fin 1)) = x (ix1 p) :=
  shapeCast_apply x hs _ _ (by
    rw [Shape.rowMajor_val_one, Shape.rowMajor_val_two]
    show p.val = p.val * 1 + 0
    omega)

/-- A sum along the lanes kept as a column: at row `p` the sum of row `p`. -/
theorem sumLanes_apply (V : FVec Ideal ⟨2, ![r, n]⟩ .f32) (h : (⟨2, ![r, n]⟩ : Shape).Reduces [1] (⟨1, ![r]⟩ : Shape))
    (hφ : FKind.Formats .f32) (hacc : (0x00000000#32 : BitVec 32) = 0x00000000#32)
    (hs : (⟨1, ![r]⟩ : Shape).ShapeCasts ⟨2, ![r, 1]⟩) (p : Fin r) :
    shapeCast ⟨2, ![r, 1]⟩ (multiReduction .add [1] ⟨1, ![r]⟩ V 0x00000000#32 h hφ hacc) hs (ix2 p (0 : Fin 1))
      = ∑ k : Fin n, V (ix2 p k) := by
  refine (col_apply _ hs p).trans ?_
  refine (Ideal.multiReduction_add_single V 0x00000000#32 h hφ hacc (ix1 p)).trans ?_
  exact Finset.sum_congr rfl fun k _ => congrArg V (lift_lanes h p k)

/-- A maximum along the lanes from the accumulator's value, taken once more against that value, kept as a column:
    at row `p` the `max` of that value with the fold of `max` over row `p`. -/
theorem maxLanes_apply (V : FVec Ideal ⟨2, ![r, n]⟩ .f32) (acc : BitVec 32) (h : (⟨2, ![r, n]⟩ : Shape).Reduces [1] (⟨1, ![r]⟩ : Shape))
    (hφ : FKind.Formats .f32) (hacc' : acc = FKind.maximumf.neutral .f32 hφ)
    (hs : (⟨1, ![r]⟩ : Shape).ShapeCasts ⟨2, ![r, 1]⟩) (p : Fin r) :
    shapeCast ⟨2, ![r, 1]⟩ (maximumf (broadcast ⟨1, ![r]⟩ (Scalar.ofBits .f32 acc)) (multiReduction .maximumf [1] ⟨1, ![r]⟩ V acc h hφ hacc')) hs (ix2 p (0 : Fin 1))
      = max (Ideal.ofBits .f32 acc) ((Finset.univ : Finset (Fin n)).fold max (Ideal.ofBits .f32 acc) fun k => V (ix2 p k)) := by
  refine (col_apply _ hs p).trans ?_
  refine congrArg (max (Ideal.ofBits .f32 acc)) ?_
  refine (Ideal.multiReduction_maximumf_single V acc h hφ hacc' (ix1 p)).trans ?_
  exact congrArg (fun f => Finset.fold max (Ideal.ofBits .f32 acc) f (Finset.univ : Finset (Fin n)))
    (funext fun k => congrArg V (lift_lanes h p k))

end LibLaneReduce

end
-- ==== Proof.LibColumnLayout.lean ====
/-
  Two layout operations read at an index, for shapes with unit axes, in the style of the library's
  Lib/ValueLayout.lean (which has the row form [1, b] → [a, b] and the single leading unit axis):
  a COLUMN [a, 1] broadcast along its unit axis to [a, b], and a matrix [a, b] viewed with TWO leading
  unit axes [1, 1, a, b].
-/
import Idealize.ShloMosaic.Lib.Pipeline.Value
import Idealize.ShloMosaic.Lib.ValueIdx

noncomputable section

namespace Idealize.ShloMosaic.ValueIdx

variable {α : Type}

/-- An `[a, 1]` column broadcast to `[a, b]` reads, at `(p, c)`, the column's entry of row `p`: the broadcast
    repeats the one entry of each row along the new lanes. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array cast to `[1, 1, a, b]` reads, at `(u, u', i, j)`, the operand at `(i, j)`: both arrays list the
    same entries in the same row-major order, the two unit coordinates contributing nothing to the position. -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    simp only [hu, hu', Nat.zero_mul, Nat.zero_add, Nat.mul_one, Nat.add_zero])

end Idealize.ShloMosaic.ValueIdx

end
-- ==== Proof.KBlock.lean ====
/-
  One head of attention on a block of query rows, read entry by entry on the extended reals.

  A block of `r` query rows meets all `n` keys.  For one head the block's scores are a column (the rows' query
  terms) plus a row (the keys' terms) plus the head's bias; a row's largest score is taken along the lanes and kept as
  a column; the scores less that column are exponentiated, divided by their row sums, and multiplied into the `n × d`
  feature matrix on the matrix unit into a zero accumulator.  Each definition below spells one of those steps the way
  a kernel body does — with the shape casts that change nothing and the one-element slice that picks the bias — and
  each lemma reads it at an entry: the scores as the three terms added, the kept maximum as the fold of `max` from
  minus infinity over the row, the product as the softmax-weighted sum of a feature column.  The last step of a layer,
  the product with one eighth and the leaky rectifier, is read as the rectifier of the quotient by eight.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.Pipeline.FrameBody
import proofs.«136446_j28295244546247_2_alg».proof.Proof.LibMatmulNN
import proofs.«136446_j28295244546247_2_alg».proof.Proof.LibLaneReduce
import proofs.«136446_j28295244546247_2_alg».proof.Proof.LibColumnLayout
import proofs.«136446_j28295244546247_2_alg».proof.Proof.Spec

noncomputable section

open scoped BigOperators

namespace KBlock

open Idealize.ShloMosaic Idealize.ShloMosaic.ValueIdx

variable {r n d : Nat}

/-! ## The scores of one head -/

/-- The block's scores for head `h`: the column of query terms and the row of key terms, each spread over the block,
    added, plus entry `h` of the bias row. -/
def scoresOf (col : FVec Ideal ⟨2, ![r, 1]⟩ .f32) (row : FVec Ideal ⟨2, ![1, n]⟩ .f32) (ab : FVec Ideal ⟨2, ![1, 8]⟩ .f32)
    (h : Nat) (hh : h < 8)
    (hcc : (⟨2, ![r, 1]⟩ : Shape).ShapeCasts ⟨2, ![r, 1]⟩) (hrc : (⟨2, ![1, n]⟩ : Shape).ShapeCasts ⟨2, ![1, n]⟩)
    (hcb : (⟨2, ![r, 1]⟩ : Shape).Broadcasts ⟨2, ![r, n]⟩) (hrb : (⟨2, ![1, n]⟩ : Shape).Broadcasts ⟨2, ![r, n]⟩)
    (hs : (⟨2, ![1, 8]⟩ : Shape).Slices ![0, h] ⟨2, ![1, 1]⟩)
    (hp : ∀ a, (![0, 0] : Fin 2 → Nat) a < (⟨2, ![1, 1]⟩ : Shape).size a) : FVec Ideal ⟨2, ![r, n]⟩ .f32 :=
  addf
    (addf (broadcastTo ⟨2, ![r, n]⟩ (shapeCast ⟨2, ![r, 1]⟩ col hcc) hcb)
      (broadcastTo ⟨2, ![r, n]⟩ (shapeCast ⟨2, ![1, n]⟩ row hrc) hrb))
    (broadcast ⟨2, ![r, n]⟩ (extractAt ![0, 0] (extractStridedSlice ⟨2, ![1, 1]⟩ ![0, h] ab hs) hp))

/-- The one-element slice at `(0, h)` of the bias row, read out, is its entry `h`. -/
theorem bias_entry (ab : FVec Ideal ⟨2, ![1, 8]⟩ .f32) (h : Nat) (hh : h < 8)
    (hs : (⟨2, ![1, 8]⟩ : Shape).Slices ![0, h] ⟨2, ![1, 1]⟩)
    (hp : ∀ a, (![0, 0] : Fin 2 → Nat) a < (⟨2, ![1, 1]⟩ : Shape).size a) :
    extractAt ![0, 0] (extractStridedSlice ⟨2, ![1, 1]⟩ ![0, h] ab hs) hp = ab (ix2 (0 : Fin 1) (⟨h, hh⟩ : Fin 8)) := by
  unfold extractAt
  refine extractStridedSlice_apply _ ab hs _ (ix2 (0 : Fin 1) (⟨h, hh⟩ : Fin 8)) fun a => ?_
  match a with
  | ⟨0, _⟩ => rfl
  | ⟨1, _⟩ => rfl

/-- The scores at `(p, j)`: query term of row `p`, key term of key `j`, the head's bias. -/
theorem scoresOf_apply (col : FVec Ideal ⟨2, ![r, 1]⟩ .f32) (row : FVec Ideal ⟨2, ![1, n]⟩ .f32) (ab : FVec Ideal ⟨2, ![1, 8]⟩ .f32)
    (h : Nat) (hh : h < 8) (hcc hrc hcb hrb hs hp) (p : Fin r) (j : Fin n) :
    scoresOf col row ab h hh hcc hrc hcb hrb hs hp (ix2 p j)
      = col (ix2 p (0 : Fin 1)) + row (ix2 (0 : Fin 1) j) + ab (ix2 (0 : Fin 1) (⟨h, hh⟩ : Fin 8)) := by
  unfold scoresOf
  rw [addf_apply, addf_apply, broadcast_apply, broadcastTo_a1_ab_apply, broadcastTo_1b_ab_apply, shapeCast_self, shapeCast_self,
    bias_entry ab h hh hs hp]

/-! ## A row's largest score, kept as a column -/

/-- The maximum along the lanes from minus infinity, viewed as a column. -/
def maxcolOf (sc : FVec Ideal ⟨2, ![r, n]⟩ .f32) (hred : (⟨2, ![r, n]⟩ : Shape).Reduces [1] (⟨1, ![r]⟩ : Shape))
    (hφ : FKind.Formats .f32) (hacc : (0xFF800000#32 : BitVec 32) = FKind.maximumf.neutral .f32 hφ)
    (hcast : (⟨1, ![r]⟩ : Shape).ShapeCasts ⟨2, ![r, 1]⟩) : FVec Ideal ⟨2, ![r, 1]⟩ .f32 :=
  shapeCast ⟨2, ![r, 1]⟩ (multiReduction .maximumf [1] ⟨1, ![r]⟩ sc 0xFF800000#32 hred hφ hacc) hcast

/-- At row `p` it is the fold of `max` from minus infinity over the row's entries. -/
theorem maxcolOf_apply (sc : FVec Ideal ⟨2, ![r, n]⟩ .f32) (hred hφ hacc hcast) (p : Fin r) :
    maxcolOf sc hred hφ hacc hcast (ix2 p (0 : Fin 1))
      = (Finset.univ : Finset (Fin n)).fold max (Ideal.ofBits .f32 0xFF800000#32) fun k => sc (ix2 p k) := by
  unfold maxcolOf
  refine (LibLaneReduce.col_apply _ hcast p).trans ?_
  refine (Ideal.multiReduction_maximumf_single sc 0xFF800000#32 hred hφ hacc (ix1 p)).trans ?_
  exact congrArg (fun f => Finset.fold max (Ideal.ofBits .f32 0xFF800000#32) f (Finset.univ : Finset (Fin n)))
    (funext fun k => congrArg sc (LibLaneReduce.lift_lanes hred p k))

/-! ## One head's contribution -/

/-- The exponentials of the scores less a column spread over the lanes. -/
def expOf (sc : FVec Ideal ⟨2, ![r, n]⟩ .f32) (mcol : FVec Ideal ⟨2, ![r, 1]⟩ .f32)
    (hcb : (⟨2, ![r, 1]⟩ : Shape).Broadcasts ⟨2, ![r, n]⟩) : FVec Ideal ⟨2, ![r, n]⟩ .f32 :=
  exp (subf sc (broadcastTo ⟨2, ![r, n]⟩ mcol hcb))

theorem expOf_apply (sc : FVec Ideal ⟨2, ![r, n]⟩ .f32) (mcol : FVec Ideal ⟨2, ![r, 1]⟩ .f32) (hcb) (p : Fin r) (j : Fin n) :
    expOf sc mcol hcb (ix2 p j) = Ideal.exp (sc (ix2 p j) - mcol (ix2 p (0 : Fin 1))) := by
  unfold expOf
  show Ideal.exp (subf sc (broadcastTo ⟨2, ![r, n]⟩ mcol hcb) (ix2 p j)) = _
  rw [subf_apply, broadcastTo_a1_ab_apply]

/-- The exponentials divided by their row sums, rounded for the matrix unit (no rounding on the extended reals),
    times the feature matrix, into a zero accumulator. -/
def contribOf (sc : FVec Ideal ⟨2, ![r, n]⟩ .f32) (mcol : FVec Ideal ⟨2, ![r, 1]⟩ .f32) (emb : FVec Ideal ⟨2, ![n, d]⟩ .bf16)
    (D : DotDims ⟨2, ![r, n]⟩ ⟨2, ![n, d]⟩ ⟨2, ![r, d]⟩)
    (hcb : (⟨2, ![r, 1]⟩ : Shape).Broadcasts ⟨2, ![r, n]⟩)
    (hred : (⟨2, ![r, n]⟩ : Shape).Reduces [1] (⟨1, ![r]⟩ : Shape)) (hφ : FKind.Formats .f32)
    (hacc : (0x00000000#32 : BitVec 32) = 0x00000000#32)
    (hcast : (⟨1, ![r]⟩ : Shape).ShapeCasts ⟨2, ![r, 1]⟩) (hlt : FTy.bits .bf16 < FTy.bits .f32) : FVec Ideal ⟨2, ![r, d]⟩ .f32 :=
  FloatOps.matmul D none
    (truncf .bf16
      (divf (expOf sc mcol hcb)
        (broadcastTo ⟨2, ![r, n]⟩
          (shapeCast ⟨2, ![r, 1]⟩ (multiReduction .add [1] ⟨1, ![r]⟩ (expOf sc mcol hcb) 0x00000000#32 hred hφ hacc) hcast) hcb))
      hlt)
    emb (constant ⟨2, ![r, d]⟩ .f32 0x00000000#32)

/-- At `(p, q)`: the sum over the keys of the normalised exponential of row `p` times column `q` of the features. -/
theorem contribOf_apply (sc : FVec Ideal ⟨2, ![r, n]⟩ .f32) (mcol : FVec Ideal ⟨2, ![r, 1]⟩ .f32) (emb : FVec Ideal ⟨2, ![n, d]⟩ .bf16)
    (D : DotDims ⟨2, ![r, n]⟩ ⟨2, ![n, d]⟩ ⟨2, ![r, d]⟩) (hD : D = DotDims.plain r n d) (hcb hred hφ hacc hcast hlt)
    (p : Fin r) (q : Fin d) :
    contribOf sc mcol emb D hcb hred hφ hacc hcast hlt (ix2 p q)
      = ∑ j : Fin n, Ideal.div (Ideal.exp (sc (ix2 p j) - mcol (ix2 p (0 : Fin 1))))
          (∑ j' : Fin n, Ideal.exp (sc (ix2 p j') - mcol (ix2 p (0 : Fin 1)))) * emb (ix2 j q) := by
  subst hD
  unfold contribOf
  refine (LibMatmulNN.matmul_zero_apply r n d none _ emb p q).trans ?_
  refine Finset.sum_congr rfl fun j _ => ?_
  refine congrArg (· * emb (ix2 j q)) ?_
  rw [truncf_apply, divf_apply, broadcastTo_a1_ab_apply, LibLaneReduce.sumLanes_apply, expOf_apply]
  refine congrArg (Ideal.div _) ?_
  exact Finset.sum_congr rfl fun j' _ => expOf_apply sc mcol hcb p j'

/-! ## A whole head, against the specification -/

/-- One head from its column, row and bias: scores, their row maxima, and the contribution. -/
def headOf (col : FVec Ideal ⟨2, ![r, 1]⟩ .f32) (row : FVec Ideal ⟨2, ![1, n]⟩ .f32) (ab : FVec Ideal ⟨2, ![1, 8]⟩ .f32)
    (h : Nat) (hh : h < 8) (emb : FVec Ideal ⟨2, ![n, d]⟩ .bf16) (D : DotDims ⟨2, ![r, n]⟩ ⟨2, ![n, d]⟩ ⟨2, ![r, d]⟩)
    (hcc : (⟨2, ![r, 1]⟩ : Shape).ShapeCasts ⟨2, ![r, 1]⟩) (hrc : (⟨2, ![1, n]⟩ : Shape).ShapeCasts ⟨2, ![1, n]⟩)
    (hcb : (⟨2, ![r, 1]⟩ : Shape).Broadcasts ⟨2, ![r, n]⟩) (hrb : (⟨2, ![1, n]⟩ : Shape).Broadcasts ⟨2, ![r, n]⟩)
    (hs : (⟨2, ![1, 8]⟩ : Shape).Slices ![0, h] ⟨2, ![1, 1]⟩)
    (hp : ∀ a, (![0, 0] : Fin 2 → Nat) a < (⟨2, ![1, 1]⟩ : Shape).size a)
    (hred : (⟨2, ![r, n]⟩ : Shape).Reduces [1] (⟨1, ![r]⟩ : Shape)) (hφ : FKind.Formats .f32)
    (hmax : (0xFF800000#32 : BitVec 32) = FKind.maximumf.neutral .f32 hφ) (hacc : (0x00000000#32 : BitVec 32) = 0x00000000#32)
    (hcast : (⟨1, ![r]⟩ : Shape).ShapeCasts ⟨2, ![r, 1]⟩) (hlt : FTy.bits .bf16 < FTy.bits .f32) : FVec Ideal ⟨2, ![r, d]⟩ .f32 :=
  contribOf (scoresOf col row ab h hh hcc hrc hcb hrb hs hp)
    (maxcolOf (scoresOf col row ab h hh hcc hrc hcb hrb hs hp) hred hφ hmax hcast) emb D hcb hred hφ hacc hcast hlt

/-- A contribution computed from a head's scores and their kept row maxima is the specification's softmax-weighted
    feature column, for the row of scores `j ↦ col p + row j + ab h`. -/
theorem contrib_scores_apply (col : FVec Ideal ⟨2, ![r, 1]⟩ .f32) (row : FVec Ideal ⟨2, ![1, 4096]⟩ .f32)
    (ab : FVec Ideal ⟨2, ![1, 8]⟩ .f32) (h : Nat) (hh : h < 8) (emb : FVec Ideal ⟨2, ![4096, d]⟩ .bf16)
    (D : DotDims ⟨2, ![r, 4096]⟩ ⟨2, ![4096, d]⟩ ⟨2, ![r, d]⟩) (hD : D = DotDims.plain r 4096 d)
    (hcc hrc hcb hrb hs hp hred hφ hmax hacc hcast hlt) (p : Fin r) (q : Fin d) :
    contribOf (scoresOf col row ab h hh hcc hrc hcb hrb hs hp)
        (maxcolOf (scoresOf col row ab h hh hcc hrc hcb hrb hs hp) hred hφ hmax hcast) emb D hcb hred hφ hacc hcast hlt (ix2 p q)
      = MHA.head (fun j k => emb (ix2 j k))
          (fun j => col (ix2 p (0 : Fin 1)) + row (ix2 (0 : Fin 1) j) + ab (ix2 (0 : Fin 1) (⟨h, hh⟩ : Fin 8))) q := by
  rw [contribOf_apply _ _ _ D hD, maxcolOf_apply]
  unfold MHA.head MHA.expo MHA.rowMax
  simp only [scoresOf_apply]

/-! ## The end of a layer -/

/-- The accumulated heads times one eighth, through the leaky rectifier of slope 0.2. -/
def finishOf (acc : FVec Ideal ⟨2, ![r, d]⟩ .f32) : FVec Ideal ⟨2, ![r, d]⟩ .f32 :=
  select
    (cmpf .oge (mulf acc (broadcast ⟨2, ![r, d]⟩ (FloatOps.ofBits (F := Ideal) .f32 0x3E000000#32)))
      (broadcast ⟨2, ![r, d]⟩ (FloatOps.ofBits (F := Ideal) .f32 0x00000000#32)))
    (mulf acc (broadcast ⟨2, ![r, d]⟩ (FloatOps.ofBits (F := Ideal) .f32 0x3E000000#32)))
    (mulf (broadcast ⟨2, ![r, d]⟩ (FloatOps.ofBits (F := Ideal) .f32 0x3E4CCCCD#32))
      (mulf acc (broadcast ⟨2, ![r, d]⟩ (FloatOps.ofBits (F := Ideal) .f32 0x3E000000#32))))

/-- It is the specification's rectifier of the accumulated heads divided by eight. -/
theorem finishOf_apply (acc : FVec Ideal ⟨2, ![r, d]⟩ .f32) (i : (⟨2, ![r, d]⟩ : Shape).Idx) :
    finishOf acc i = MHA.leaky (Ideal.div (acc i) (Ideal.ofBits .f32 0x41000000#32)) := by
  unfold finishOf MHA.leaky
  rw [select_apply, cmpf_apply, mulf_apply, mulf_apply, mulf_apply, broadcast_apply, broadcast_apply, broadcast_apply]
  rw [show (FloatOps.ofBits (F := Ideal) .f32 0x3E000000#32 : EReal) = Ideal.ofBits .f32 0x3E000000#32 from rfl, MHA.mul_eighth]
  rfl

/-! ## Loads through unit rectangles -/

/-- Column `h` of an `r × c` block, loaded as an `r × 1` block, holds at row `p` the block's entry `(p, h)`. -/
theorem ld_col {c : Nat} (X : Vec Ideal ⟨2, ![r, c]⟩ .f32) (h : Nat) (hh : h < c)
    (inb : ∀ a, (![0, h] : Fin 2 → Nat) a + (⟨2, ![r, 1]⟩ : Shape).size a ≤ (⟨2, ![r, c]⟩ : Shape).size a) (p : Fin r) :
    View.ld X (Rect.unit (s := ⟨2, ![r, c]⟩) ![0, h] (⟨2, ![r, 1]⟩ : Shape).size inb) (ix2 p (0 : Fin 1))
      = X (ix2 p (⟨h, hh⟩ : Fin c)) := by
  show X _ = X _
  refine congrArg X (funext fun a => Fin.ext ?_)
  match a with
  | ⟨0, _⟩ => show 0 + 1 * p.val = p.val; omega
  | ⟨1, _⟩ => show h + 1 * 0 = h; omega

/-- Row `h` of a `c × n` block, loaded as a `1 × n` block, holds at lane `j` the block's entry `(h, j)`. -/
theorem ld_row {c : Nat} (X : Vec Ideal ⟨2, ![c, n]⟩ .f32) (h : Nat) (hh : h < c)
    (inb : ∀ a, (![h, 0] : Fin 2 → Nat) a + (⟨2, ![1, n]⟩ : Shape).size a ≤ (⟨2, ![c, n]⟩ : Shape).size a) (j : Fin n) :
    View.ld X (Rect.unit (s := ⟨2, ![c, n]⟩) ![h, 0] (⟨2, ![1, n]⟩ : Shape).size inb) (ix2 (0 : Fin 1) j)
      = X (ix2 (⟨h, hh⟩ : Fin c) j) := by
  show X _ = X _
  refine congrArg X (funext fun a => Fin.ext ?_)
  match a with
  | ⟨0, _⟩ => show h + 1 * 0 = h; omega
  | ⟨1, _⟩ => show 0 + 1 * j.val = j.val; omega

end KBlock

end
-- ==== Proof.KRegion0.lean ====
/-
  What the first attention kernel leaves in its output block, entry by entry.

  At a grid point the kernel holds a block of 256 query rows of the query terms (256 × 8, one column per head), all of
  the key terms (8 × 4096, one row per head), the bias row (1 × 8) and the whole feature matrix (4096 × 64).  Head by
  head it forms the block's scores, their row maxima, and the softmax-weighted product with the features, adds the
  eight products up from zero, multiplies by one eighth and applies the leaky rectifier.  So entry `(p, q)` of the block
  it stores is the specification's layer value for the query row `p` of the block: the mean over the heads of the
  softmax-weighted column `q` of the features, rectified.
-/
import proofs.«136446_j28295244546247_2_alg».proof.Proof.Gen.KernelIdeal.Frame
import proofs.«136446_j28295244546247_2_alg».proof.Proof.KBlock

noncomputable section

open scoped BigOperators

namespace Cert.KernelIdeal.KRegion0

open Cert.KernelIdeal Cert.KernelIdeal.Gen Idealize.ShloMosaic Idealize.ShloMosaic.ValueIdx

/-- The block's scores for head `h` from a column of query terms, a row of key terms and the bias row. -/
abbrev sc (col : Vec Ideal S256x1 .f32) (row : Vec Ideal S1x4096 .f32) (ab : FVec Ideal S1x8 .f32) (h : Nat) (hh : h < 8)
    (hs : S1x8.Slices ![0, h] S1x1) : FVec Ideal S256x4096 .f32 :=
  KBlock.scoresOf (r := 256) (n := 4096) col row ab h hh shapeCasts_S256x1_S256x1 shapeCasts_S1x4096_S1x4096
    broadcasts_S256x1_S256x4096 broadcasts_S1x4096_S256x4096 hs inpos_S1x1_p0_0

/-- The row maxima of a block of scores, as a column. -/
abbrev mx (s : FVec Ideal S256x4096 .f32) : FVec Ideal S256x1 .f32 :=
  KBlock.maxcolOf (r := 256) (n := 4096) s reduces_S256x4096_S256 (.inl rfl) rfl shapeCasts_S256_S256x1

/-- One head's softmax-weighted product with the features. -/
abbrev ct (s : FVec Ideal S256x4096 .f32) (m : FVec Ideal S256x1 .f32) (emb : FVec Ideal S4096x64 .bf16) : FVec Ideal S256x64 .f32 :=
  KBlock.contribOf (r := 256) (n := 4096) (d := 64) s m emb dot_S256x4096_S4096x64_S256x64_1_0_0_1_n_n
    broadcasts_S256x1_S256x4096 reduces_S256x4096_S256 (.inl rfl) rfl shapeCasts_S256_S256x1 bitsLt_bf16_f32

/-! ## The body's values as compositions of those steps -/

set_option maxHeartbeats 400000 in
theorem pay1_eq (v2 : FVec Ideal S4096x64 .bf16) (v166 : FVec Ideal S256x64 .f32) (v177 : FVec Ideal S256x4096 .f32) (v179 : FVec Ideal S256x1 .f32) :
    k0_pay1 (F := Ideal) v2 v166 v177 v179 = KBlock.finishOf (addf v166 (ct v177 v179 v2)) := rfl

theorem pay2_apply (v0 : Vec Ideal S4096x64 .f32) (i : S4096x64.Idx) : k0_pay2 (F := Ideal) v0 i = v0 i := by
  unfold k0_pay2
  rw [truncf_apply, shapeCast_self]

theorem pay3_eq (v3 : Vec Ideal S1x8 .f32) : k0_pay3 (F := Ideal) v3 = v3 := by
  unfold k0_pay3
  exact shapeCast_self _ _

set_option maxHeartbeats 400000 in
theorem pay4_eq (v0 : Vec Ideal S4096x64 .f32) (v3 : Vec Ideal S1x8 .f32) (v6 : Vec Ideal S256x1 .f32) (v8 : Vec Ideal S1x4096 .f32) :
    k0_pay4 (F := Ideal) v0 v3 v6 v8
      = addf (broadcast S256x64 (FloatOps.ofBits (F := Ideal) .f32 0x00000000#32))
          (ct (sc v6 v8 (k0_pay3 v3) 0 (by decide) slices_S1x8_o0_0_S1x1) (mx (sc v6 v8 (k0_pay3 v3) 0 (by decide) slices_S1x8_o0_0_S1x1)) (k0_pay2 v0)) := rfl

set_option maxHeartbeats 400000 in
theorem pay5_eq (v3 : Vec Ideal S1x8 .f32) (v29 : Vec Ideal S256x1 .f32) (v31 : Vec Ideal S1x4096 .f32) :
    k0_pay5 (F := Ideal) v3 v29 v31 = sc v29 v31 (k0_pay3 v3) 1 (by decide) slices_S1x8_o0_1_S1x1 := rfl

set_option maxHeartbeats 400000 in
theorem pay6_eq (v3 : Vec Ideal S1x8 .f32) (v29 : Vec Ideal S256x1 .f32) (v31 : Vec Ideal S1x4096 .f32) :
    k0_pay6 (F := Ideal) v3 v29 v31 = mx (k0_pay5 v3 v29 v31) := rfl

set_option maxHeartbeats 400000 in
theorem pay7_eq (v2 : FVec Ideal S4096x64 .bf16) (v4 : FVec Ideal S1x8 .f32) (v28 : FVec Ideal S256x64 .f32) (v39 : FVec Ideal S256x4096 .f32)
    (v41 : FVec Ideal S256x1 .f32) (v52 : Vec Ideal S256x1 .f32) (v54 : Vec Ideal S1x4096 .f32) :
    k0_pay7 (F := Ideal) v2 v4 v28 v39 v41 v52 v54
      = addf (addf v28 (ct v39 v41 v2))
          (ct (sc v52 v54 v4 2 (by decide) slices_S1x8_o0_2_S1x1) (mx (sc v52 v54 v4 2 (by decide) slices_S1x8_o0_2_S1x1)) v2) := rfl

set_option maxHeartbeats 400000 in
theorem pay8_eq (v4 : FVec Ideal S1x8 .f32) (v75 : Vec Ideal S256x1 .f32) (v77 : Vec Ideal S1x4096 .f32) :
    k0_pay8 (F := Ideal) v4 v75 v77 = sc v75 v77 v4 3 (by decide) slices_S1x8_o0_3_S1x1 := rfl

set_option maxHeartbeats 400000 in
theorem pay9_eq (v4 : FVec Ideal S1x8 .f32) (v75 : Vec Ideal S256x1 .f32) (v77 : Vec Ideal S1x4096 .f32) :
    k0_pay9 (F := Ideal) v4 v75 v77 = mx (k0_pay8 v4 v75 v77) := rfl

set_option maxHeartbeats 400000 in
theorem pay10_eq (v2 : FVec Ideal S4096x64 .bf16) (v4 : FVec Ideal S1x8 .f32) (v74 : FVec Ideal S256x64 .f32) (v85 : FVec Ideal S256x4096 .f32)
    (v87 : FVec Ideal S256x1 .f32) (v98 : Vec Ideal S256x1 .f32) (v100 : Vec Ideal S1x4096 .f32) :
    k0_pay10 (F := Ideal) v2 v4 v74 v85 v87 v98 v100
      = addf (addf v74 (ct v85 v87 v2))
          (ct (sc v98 v100 v4 4 (by decide) slices_S1x8_o0_4_S1x1) (mx (sc v98 v100 v4 4 (by decide) slices_S1x8_o0_4_S1x1)) v2) := rfl

set_option maxHeartbeats 400000 in
theorem pay11_eq (v4 : FVec Ideal S1x8 .f32) (v121 : Vec Ideal S256x1 .f32) (v123 : Vec Ideal S1x4096 .f32) :
    k0_pay11 (F := Ideal) v4 v121 v123 = sc v121 v123 v4 5 (by decide) slices_S1x8_o0_5_S1x1 := rfl

set_option maxHeartbeats 400000 in
theorem pay12_eq (v4 : FVec Ideal S1x8 .f32) (v121 : Vec Ideal S256x1 .f32) (v123 : Vec Ideal S1x4096 .f32) :
    k0_pay12 (F := Ideal) v4 v121 v123 = mx (k0_pay11 v4 v121 v123) := rfl

set_option maxHeartbeats 400000 in
theorem pay13_eq (v2 : FVec Ideal S4096x64 .bf16) (v4 : FVec Ideal S1x8 .f32) (v120 : FVec Ideal S256x64 .f32) (v131 : FVec Ideal S256x4096 .f32)
    (v133 : FVec Ideal S256x1 .f32) (v144 : Vec Ideal S256x1 .f32) (v146 : Vec Ideal S1x4096 .f32) :
    k0_pay13 (F := Ideal) v2 v4 v120 v131 v133 v144 v146
      = addf (addf v120 (ct v131 v133 v2))
          (ct (sc v144 v146 v4 6 (by decide) slices_S1x8_o0_6_S1x1) (mx (sc v144 v146 v4 6 (by decide) slices_S1x8_o0_6_S1x1)) v2) := rfl

set_option maxHeartbeats 400000 in
theorem pay14_eq (v4 : FVec Ideal S1x8 .f32) (v167 : Vec Ideal S256x1 .f32) (v169 : Vec Ideal S1x4096 .f32) :
    k0_pay14 (F := Ideal) v4 v167 v169 = sc v167 v169 v4 7 (by decide) slices_S1x8_o0_7_S1x1 := rfl

set_option maxHeartbeats 400000 in
theorem pay15_eq (v4 : FVec Ideal S1x8 .f32) (v167 : Vec Ideal S256x1 .f32) (v169 : Vec Ideal S1x4096 .f32) :
    k0_pay15 (F := Ideal) v4 v167 v169 = mx (k0_pay14 v4 v167 v169) := rfl

/-! ## One head, from the loaded blocks -/

theorem hz2 : (![0, 0] : Fin 2 → Nat) = fun _ => 0 := funext fun a => by fin_cases a <;> rfl

/-- The value of head `h` for query row `p`: the softmax, over the keys, of the row's scores, against column `q` of the features. -/
def headVal (x0 : Vec Ideal S256x8 .f32) (x1 : Vec Ideal S8x4096 .f32) (x2 : Vec Ideal S1x8 .f32) (x3 : Vec Ideal S4096x64 .f32)
    (p : Fin 256) (q : Fin 64) (h : Fin 8) : EReal :=
  MHA.head (fun j k => x3 (ix2 j k)) (fun j => x0 (ix2 p h) + x1 (ix2 h j) + x2 (ix2 (0 : Fin 1) h)) q

set_option maxHeartbeats 1000000 in
theorem head_apply (x0 : Vec Ideal S256x8 .f32) (x1 : Vec Ideal S8x4096 .f32) (x2 : Vec Ideal S1x8 .f32) (x3 : Vec Ideal S4096x64 .f32)
    (h : Nat) (hh : h < 8)
    (inbc : ∀ a, (![0, h] : Fin 2 → Nat) a + S256x1.size a ≤ S256x8.size a)
    (inbr : ∀ a, (![h, 0] : Fin 2 → Nat) a + S1x4096.size a ≤ S8x4096.size a)
    (hs : S1x8.Slices ![0, h] S1x1) (p : Fin 256) (q : Fin 64) :
    ct (sc (View.ld x0 (Rect.unit (s := S256x8) ![0, h] S256x1.size inbc)) (View.ld x1 (Rect.unit (s := S8x4096) ![h, 0] S1x4096.size inbr))
          (k0_pay3 (View.ld x2 r0_1)) h hh hs)
        (mx (sc (View.ld x0 (Rect.unit (s := S256x8) ![0, h] S256x1.size inbc)) (View.ld x1 (Rect.unit (s := S8x4096) ![h, 0] S1x4096.size inbr))
          (k0_pay3 (View.ld x2 r0_1)) h hh hs))
        (k0_pay2 (View.ld x3 r0_0)) (ix2 p q)
      = headVal x0 x1 x2 x3 p q ⟨h, hh⟩ := by
  unfold headVal
  refine (KBlock.contrib_scores_apply (r := 256) (d := 64) _ _ _ h hh _ _ rfl _ _ _ _ _ _ _ _ _ _ _ _ p q).trans ?_
  rw [KBlock.ld_col x0 h hh inbc p, pay3_eq, View.ld_unit_zero (S := S1x8) hz2]
  refine congrArg₂ (fun e s => MHA.head e s q) (funext fun j => funext fun k => ?_) (funext fun j => ?_)
  · rw [pay2_apply, View.ld_unit_zero (S := S4096x64) hz2]
  · rw [KBlock.ld_row x1 h hh inbr j]

/-! ## The stored block -/

set_option maxHeartbeats 2000000 in
/-- Entry `(p, q)` of the block the body stores: the specification's layer value for row `p` of the block. -/
theorem out0_apply (x0 : Vec Ideal S256x8 .f32) (x1 : Vec Ideal S8x4096 .f32) (x2 : Vec Ideal S1x8 .f32) (x3 : Vec Ideal S4096x64 .f32)
    (p : Fin 256) (q : Fin 64) :
    out0_4 (F := Ideal) x0 x1 x2 x3 (ix2 p q)
      = MHA.leaky (Ideal.div (∑ h : Fin 8, headVal x0 x1 x2 x3 p q h) (Ideal.ofBits .f32 0x41000000#32)) := by
  unfold out0_4
  rw [View.canon_unit_zero hz2, pay1_eq, KBlock.finishOf_apply]
  refine congrArg MHA.leaky (congrArg (fun a => Ideal.div a _) ?_)
  rw [addf_apply, pay13_eq, addf_apply, addf_apply, pay10_eq, addf_apply, addf_apply, pay7_eq, addf_apply, addf_apply, pay4_eq,
    addf_apply, broadcast_apply]
  rw [pay15_eq, pay14_eq, pay12_eq, pay11_eq, pay9_eq, pay8_eq, pay6_eq, pay5_eq]
  rw [head_apply x0 x1 x2 x3 0, head_apply x0 x1 x2 x3 1, head_apply x0 x1 x2 x3 2, head_apply x0 x1 x2 x3 3,
    head_apply x0 x1 x2 x3 4, head_apply x0 x1 x2 x3 5, head_apply x0 x1 x2 x3 6, head_apply x0 x1 x2 x3 7]
  rw [← MHA.sum8 (headVal x0 x1 x2 x3 p q)]
  rw [show (FloatOps.ofBits (F := Ideal) .f32 0x00000000#32 : EReal) = 0 from Ideal.ofBits_zero_f32]
  rfl

end Cert.KernelIdeal.KRegion0

end
-- ==== Proof.KArray0.lean ====
/-
  From the blocks to the array: what the first attention region leaves in its result array.

  The region walks 16 grid points; point `t` reads rows `256 t … 256 t + 255` of the query terms, all of the key terms,
  the bias row and the whole feature matrix, and writes back rows `256 t … 256 t + 255` of the result.  What it writes
  at `(p, q)` of its block is the attention layer's value at row `256 t + p` and column `q`; the sixteen blocks tile the
  4096 rows, so the array ends holding the layer's value at every index, as one function of the four arrays the region
  found at its entry.
-/
import proofs.«136446_j28295244546247_2_alg».proof.Proof.KRegion0
import Idealize.ShloMosaic.Lib.Pipeline.Value

noncomputable section

open scoped BigOperators

namespace Cert.KernelIdeal.KArray0

open Cert.KernelIdeal Cert.KernelIdeal.Gen Idealize.ShloMosaic Idealize.ShloMosaic.TcCoe Idealize.ShloMosaic.ValueIdx
open Idealize.ShloMosaic.Pipeline (Dat)

/-- The attention layer of four whole arrays — features `[4096, 64]`, query terms `[4096, 8]`, key terms transposed
    `[8, 4096]`, bias row `[1, 8]` — index by index. -/
def layerOf (emb : S4096x64.Idx → EReal) (si : S4096x8.Idx → EReal) (sjT : S8x4096.Idx → EReal) (abr : S1x8.Idx → EReal) :
    S4096x64.Idx → EReal :=
  fun i => MHA.layer (fun j k => emb (ix2 j k)) (fun a h => si (ix2 a h)) (fun a h => sjT (ix2 h a))
    (fun h => abr (ix2 (0 : Fin 1) h)) (i 0) (i 1)

/-- What the body stores at `(p, q)` of its block, when its four input blocks are row `r` of the query terms (at block row
    `p`) and the other three arrays whole, is the layer's value at `(r, q)`: the two sides spell one sum over the heads. -/
theorem block_layer (emb : S4096x64.Idx → EReal) (si : S4096x8.Idx → EReal) (sjT : S8x4096.Idx → EReal) (abr : S1x8.Idx → EReal)
    (x0 : Vec Ideal S256x8 .f32) (x1 : Vec Ideal S8x4096 .f32) (x2 : Vec Ideal S1x8 .f32) (x3 : Vec Ideal S4096x64 .f32)
    (r : Fin 4096) (p : Fin 256) (q : Fin 64)
    (h0 : ∀ h : Fin 8, x0 (ix2 p h) = si (ix2 r h)) (h1 : x1 = sjT) (h2 : x2 = abr) (h3 : x3 = emb) :
    out0_4 (F := Ideal) x0 x1 x2 x3 (ix2 p q) = layerOf emb si sjT abr (ix2 r q) := by
  subst h1 h2 h3
  rw [KRegion0.out0_apply]
  unfold layerOf MHA.layer
  refine congrArg MHA.leaky (congrArg (fun a => Ideal.div a _) (Finset.sum_congr rfl fun h _ => ?_))
  unfold KRegion0.headVal
  rw [h0 h]
  rfl

/-! ## The index maps, decided over the grid -/

/-- The query terms' window and the result's window move one block of 256 rows per point; the other three windows are
    the whole arrays at every point. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

section Blocks

variable (V : (c : Dev nD) → (b : Ref sig .tc) → Buf (Elt Ideal) ((c : Thread nD τ).loc b))

/-! ## The input blocks at a point, read off the arrays -/

/-- The query terms' block at point `t` holds, at `(p, h)`, the query terms at `(256 t + p, h)`. -/
theorem iblk_q (c : Dev nD) (t : Fin cfg0.N) (x : S256x8.Idx) (k : S4096x8.Idx)
    (hk0 : (k 0).val = 256 * t.val + (x 0).val) (hk1 : (k 1).val = (x 1).val) :
    (iblk0 V c 0 t : Vec Ideal S256x8 .f32) x = (V c main_v7 : S4096x8.Idx → EReal) k := by
  obtain ⟨e0, e1, -⟩ := idx_facts t
  unfold iblk0
  rw [View.read_apply]
  show (V c main_v7 : S4096x8.Idx → EReal) _ = (V c main_v7 : S4096x8.Idx → EReal) k
  refine congrArg _ (funext fun a => Fin.ext ?_)
  match a with
  | ⟨0, _⟩ => show win0_0.index t (0 : Fin 2) * 256 + 1 * (x 0).val = (k 0).val; omega
  | ⟨1, _⟩ => show win0_0.index t (1 : Fin 2) * 8 + 1 * (x 1).val = (k 1).val; omega

/-- The key terms' block at every point is the whole array. -/
theorem iblk_k (c : Dev nD) (t : Fin cfg0.N) :
    (iblk0 V c 1 t : Vec Ideal S8x4096 .f32) = (V c main_v11 : S8x4096.Idx → EReal) := by
  obtain ⟨-, -, e0, e1, -⟩ := idx_facts t
  funext y
  unfold iblk0
  rw [View.read_apply]
  show (V c main_v11 : S8x4096.Idx → EReal) _ = (V c main_v11 : S8x4096.Idx → EReal) y
  refine congrArg _ (funext fun a => Fin.ext ?_)
  match a with
  | ⟨0, _⟩ => show win0_1.index t (0 : Fin 2) * 8 + 1 * (y 0).val = (y 0).val; omega
  | ⟨1, _⟩ => show win0_1.index t (1 : Fin 2) * 4096 + 1 * (y 1).val = (y 1).val; omega

/-- The bias row's block at every point is the whole row. -/
theorem iblk_b (c : Dev nD) (t : Fin cfg0.N) :
    (iblk0 V c 2 t : Vec Ideal S1x8 .f32) = (V c main_v12 : S1x8.Idx → EReal) := by
  obtain ⟨-, -, -, -, e0, e1, -⟩ := idx_facts t
  funext y
  unfold iblk0
  rw [View.read_apply]
  show (V c main_v12 : S1x8.Idx → EReal) _ = (V c main_v12 : S1x8.Idx → EReal) y
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 8 + 1 * (y 1).val = (y 1).val; omega

/-- The features' block at every point is the whole matrix. -/
theorem iblk_e (c : Dev nD) (t : Fin cfg0.N) :
    (iblk0 V c 3 t : Vec Ideal S4096x64 .f32) = (V c main_v4 : S4096x64.Idx → EReal) := by
  obtain ⟨-, -, -, -, -, -, e0, e1, -⟩ := idx_facts t
  funext y
  unfold iblk0
  rw [View.read_apply]
  show (V c main_v4 : S4096x64.Idx → EReal) _ = (V c main_v4 : S4096x64.Idx → EReal) y
  refine congrArg _ (funext fun a => Fin.ext ?_)
  match a with
  | ⟨0, _⟩ => show win0_3.index t (0 : Fin 2) * 4096 + 1 * (y 0).val = (y 0).val; omega
  | ⟨1, _⟩ => show win0_3.index t (1 : Fin 2) * 64 + 1 * (y 1).val = (y 1).val; omega

/-! ## What a point writes back -/

/-- The layer of the region's four entry arrays. -/
def G (c : Dev nD) : S4096x64.Idx → EReal :=
  layerOf (V c main_v4 : S4096x64.Idx → EReal) (V c main_v7 : S4096x8.Idx → EReal) (V c main_v11 : S8x4096.Idx → EReal)
    (V c main_v12 : S1x8.Idx → EReal)

/-- What the body leaves at `(p, q)` of point `t`'s block is the layer at `(256 t + p, q)`. -/
theorem point_eq (c : Dev nD) (t : Fin cfg0.N) (p : Fin 256) (q : Fin 64) (r : Fin 4096) (hr : r.val = 256 * t.val + p.val) :
    out0_4 (F := Ideal) (iblk0 V c 0 t) (iblk0 V c 1 t) (iblk0 V c 2 t) (iblk0 V c 3 t) (ix2 p q) = G V c (ix2 r q) :=
  block_layer _ _ _ _ _ _ _ _ r p q (fun h => iblk_q V c t (ix2 p h) (ix2 r h) hr rfl) (iblk_k V c t) (iblk_b V c t) (iblk_e V c t)

/-- Point `t` writes back block `t` of the layer. -/
theorem flushed_eq (c : Dev nD) (t : Fin cfg0.N) :
    (dat0 V c).flushed 4 t = ((cfg0.win 4).blk t).view.read (Elt Ideal) (G V c) := by
  have hN : grid0.N = 16 := N_0
  have ht : t.val < 16 := hN ▸ t.isLt
  obtain ⟨-, -, -, -, -, -, -, -, e0, e1⟩ := idx_facts t
  show (cfg0.win 4).cut (grid0.coords t) ((dat0 V c).after 4 t) = _
  rw [after0_4]
  funext y
  have hy0 : (y 0).val < 256 := (y 0).isLt
  have hy1 : (y 1).val < 64 := (y 1).isLt
  show out0_4 (F := Ideal) (iblk0 V c 0 t) (iblk0 V c 1 t) (iblk0 V c 2 t) (iblk0 V c 3 t) y
      = G V c (((cfg0.win 4).blk t).view.emb y)
  have hemb : ((cfg0.win 4).blk t).view.emb y
      = (ix2 (⟨256 * t.val + (y 0).val, by omega⟩ : Fin 4096) (⟨(y 1).val, hy1⟩ : Fin 64) : S4096x64.Idx) := by
    funext a; apply Fin.ext
    match a with
    | ⟨0, _⟩ => show win0_4.index t (0 : Fin 2) * 256 + 1 * (y 0).val = 256 * t.val + (y 0).val; omega
    | ⟨1, _⟩ => show win0_4.index t (1 : Fin 2) * 64 + 1 * (y 1).val = (y 1).val; omega
  rw [hemb]
  have hy : y = (ix2 (⟨(y 0).val, hy0⟩ : Fin 256) (⟨(y 1).val, hy1⟩ : Fin 64) : S256x64.Idx) := by
    funext a; match a with | ⟨0, _⟩ => rfl | ⟨1, _⟩ => rfl
  refine (congrArg (fun z : S256x64.Idx =>
    out0_4 (F := Ideal) (iblk0 V c 0 t) (iblk0 V c 1 t) (iblk0 V c 2 t) (iblk0 V c 3 t) z) hy).trans ?_
  exact point_eq V c t ⟨(y 0).val, hy0⟩ ⟨(y 1).val, hy1⟩ ⟨256 * t.val + (y 0).val, by omega⟩ rfl

/-! ## The sixteen blocks tile the array -/

/-- An index of the array is in point `t`'s block iff each coordinate is in the block's range on its axis. -/
theorem mem_blk (t : Fin cfg0.N) (i : S4096x64.Idx) :
    i ∈ ((cfg0.win 4).blk t).view.set
      ↔ ∀ a : Fin 2, win0_4.index t a * S256x64.size a ≤ (i a).val ∧ (i a).val < win0_4.index t a * S256x64.size a + S256x64.size a := by
  show i ∈ ((View.whole main_v13).slice (win0_4.rect t)).set ↔ _
  rw [View.set_slice_whole, Rect.mem_set_unit]
  exact Iff.rfl

/-- Row `r` is in the block of point `r / 256`. -/
theorem cover (i : S4096x64.Idx) : ∃ t : Fin cfg0.N, (cfg0.win 4).flush t = true ∧ i ∈ ((cfg0.win 4).blk t).view.set := by
  have hN : grid0.N = 16 := N_0
  have hi0 : (i 0).val < 4096 := (i 0).isLt
  have hi1 : (i 1).val < 64 := (i 1).isLt
  let t : Fin cfg0.N := ⟨(i 0).val / 256, by show (i 0).val / 256 < grid0.N; omega⟩
  have htv : t.val = (i 0).val / 256 := rfl
  obtain ⟨-, -, -, -, -, -, -, -, e0, e1⟩ := idx_facts t
  refine ⟨t, flush0_4 t, ?_⟩
  rw [mem_blk]
  intro a
  match a with
  | ⟨0, _⟩ => show win0_4.index t (0 : Fin 2) * 256 ≤ (i 0).val ∧ (i 0).val < win0_4.index t (0 : Fin 2) * 256 + 256; omega
  | ⟨1, _⟩ => show win0_4.index t (1 : Fin 2) * 64 ≤ (i 1).val ∧ (i 1).val < win0_4.index t (1 : Fin 2) * 64 + 64; omega

/-- The result array after the region: the layer of the four entry arrays at every index. -/
theorem final0 (c : Dev nD) :
    (dat0 (F := Ideal) V c).arrAt 4 cfg0.N
      = fun i => MHA.layer (fun j k => (V c main_v4 : S4096x64.Idx → EReal) (ix2 j k)) (fun a h => (V c main_v7 : S4096x8.Idx → EReal) (ix2 a h))
          (fun a h => (V c main_v11 : S8x4096.Idx → EReal) (ix2 h a)) (fun h => (V c main_v12 : S1x8.Idx → EReal) (ix2 (0 : Fin 1) h)) (i 0) (i 1) :=
  (dat0 V c).arrAt_eq_of_cover 4 (G V c) (fun t _ => flushed_eq V c t) cover

end Blocks

end Cert.KernelIdeal.KArray0

end
-- ==== Proof.KRegion1.lean ====
/-
  What the second attention kernel leaves in its output block, entry by entry.

  At a grid point the kernel holds a block of 256 query rows of the query terms (256 × 8, one column per head), all of
  the key terms (8 × 4096, one row per head), the bias row (1 × 8) and the whole feature matrix (4096 × 32).  Head by
  head it forms the block's scores, their row maxima, and the softmax-weighted product with the features, adds the
  eight products up from zero, multiplies by one eighth and applies the leaky rectifier.  So entry `(p, q)` of the block
  it stores is the specification's layer value for the query row `p` of the block: the mean over the heads of the
  softmax-weighted column `q` of the features, rectified.
-/
import proofs.«136446_j28295244546247_2_alg».proof.Proof.Gen.KernelIdeal.Frame
import proofs.«136446_j28295244546247_2_alg».proof.Proof.KBlock

noncomputable section

open scoped BigOperators

namespace Cert.KernelIdeal.KRegion1

open Cert.KernelIdeal Cert.KernelIdeal.Gen Idealize.ShloMosaic Idealize.ShloMosaic.ValueIdx

/-- The block's scores for head `h` from a column of query terms, a row of key terms and the bias row. -/
abbrev sc (col : Vec Ideal S256x1 .f32) (row : Vec Ideal S1x4096 .f32) (ab : FVec Ideal S1x8 .f32) (h : Nat) (hh : h < 8)
    (hs : S1x8.Slices ![0, h] S1x1) : FVec Ideal S256x4096 .f32 :=
  KBlock.scoresOf (r := 256) (n := 4096) col row ab h hh shapeCasts_S256x1_S256x1 shapeCasts_S1x4096_S1x4096
    broadcasts_S256x1_S256x4096 broadcasts_S1x4096_S256x4096 hs inpos_S1x1_p0_0

/-- The row maxima of a block of scores, as a column. -/
abbrev mx (s : FVec Ideal S256x4096 .f32) : FVec Ideal S256x1 .f32 :=
  KBlock.maxcolOf (r := 256) (n := 4096) s reduces_S256x4096_S256 (.inl rfl) rfl shapeCasts_S256_S256x1

/-- One head's softmax-weighted product with the features. -/
abbrev ct (s : FVec Ideal S256x4096 .f32) (m : FVec Ideal S256x1 .f32) (emb : FVec Ideal S4096x32 .bf16) : FVec Ideal S256x32 .f32 :=
  KBlock.contribOf (r := 256) (n := 4096) (d := 32) s m emb dot_S256x4096_S4096x32_S256x32_1_0_0_1_n_n
    broadcasts_S256x1_S256x4096 reduces_S256x4096_S256 (.inl rfl) rfl shapeCasts_S256_S256x1 bitsLt_bf16_f32

/-! ## The body's values as compositions of those steps -/

set_option maxHeartbeats 400000 in
theorem pay1_eq (v2 : FVec Ideal S4096x32 .bf16) (v166 : FVec Ideal S256x32 .f32) (v177 : FVec Ideal S256x4096 .f32) (v179 : FVec Ideal S256x1 .f32) :
    k1_pay1 (F := Ideal) v2 v166 v177 v179 = KBlock.finishOf (addf v166 (ct v177 v179 v2)) := rfl

theorem pay2_apply (v0 : Vec Ideal S4096x32 .f32) (i : S4096x32.Idx) : k1_pay2 (F := Ideal) v0 i = v0 i := by
  unfold k1_pay2
  rw [truncf_apply, shapeCast_self]

theorem pay3_eq (v3 : Vec Ideal S1x8 .f32) : k1_pay3 (F := Ideal) v3 = v3 := by
  unfold k1_pay3
  exact shapeCast_self _ _

set_option maxHeartbeats 400000 in
theorem pay4_eq (v0 : Vec Ideal S4096x32 .f32) (v3 : Vec Ideal S1x8 .f32) (v6 : Vec Ideal S256x1 .f32) (v8 : Vec Ideal S1x4096 .f32) :
    k1_pay4 (F := Ideal) v0 v3 v6 v8
      = addf (broadcast S256x32 (FloatOps.ofBits (F := Ideal) .f32 0x00000000#32))
          (ct (sc v6 v8 (k1_pay3 v3) 0 (by decide) slices_S1x8_o0_0_S1x1) (mx (sc v6 v8 (k1_pay3 v3) 0 (by decide) slices_S1x8_o0_0_S1x1)) (k1_pay2 v0)) := rfl

set_option maxHeartbeats 400000 in
theorem pay5_eq (v3 : Vec Ideal S1x8 .f32) (v29 : Vec Ideal S256x1 .f32) (v31 : Vec Ideal S1x4096 .f32) :
    k1_pay5 (F := Ideal) v3 v29 v31 = sc v29 v31 (k1_pay3 v3) 1 (by decide) slices_S1x8_o0_1_S1x1 := rfl

set_option maxHeartbeats 400000 in
theorem pay6_eq (v3 : Vec Ideal S1x8 .f32) (v29 : Vec Ideal S256x1 .f32) (v31 : Vec Ideal S1x4096 .f32) :
    k1_pay6 (F := Ideal) v3 v29 v31 = mx (k1_pay5 v3 v29 v31) := rfl

set_option maxHeartbeats 400000 in
theorem pay7_eq (v2 : FVec Ideal S4096x32 .bf16) (v4 : FVec Ideal S1x8 .f32) (v28 : FVec Ideal S256x32 .f32) (v39 : FVec Ideal S256x4096 .f32)
    (v41 : FVec Ideal S256x1 .f32) (v52 : Vec Ideal S256x1 .f32) (v54 : Vec Ideal S1x4096 .f32) :
    k1_pay7 (F := Ideal) v2 v4 v28 v39 v41 v52 v54
      = addf (addf v28 (ct v39 v41 v2))
          (ct (sc v52 v54 v4 2 (by decide) slices_S1x8_o0_2_S1x1) (mx (sc v52 v54 v4 2 (by decide) slices_S1x8_o0_2_S1x1)) v2) := rfl

set_option maxHeartbeats 400000 in
theorem pay8_eq (v4 : FVec Ideal S1x8 .f32) (v75 : Vec Ideal S256x1 .f32) (v77 : Vec Ideal S1x4096 .f32) :
    k1_pay8 (F := Ideal) v4 v75 v77 = sc v75 v77 v4 3 (by decide) slices_S1x8_o0_3_S1x1 := rfl

set_option maxHeartbeats 400000 in
theorem pay9_eq (v4 : FVec Ideal S1x8 .f32) (v75 : Vec Ideal S256x1 .f32) (v77 : Vec Ideal S1x4096 .f32) :
    k1_pay9 (F := Ideal) v4 v75 v77 = mx (k1_pay8 v4 v75 v77) := rfl

set_option maxHeartbeats 400000 in
theorem pay10_eq (v2 : FVec Ideal S4096x32 .bf16) (v4 : FVec Ideal S1x8 .f32) (v74 : FVec Ideal S256x32 .f32) (v85 : FVec Ideal S256x4096 .f32)
    (v87 : FVec Ideal S256x1 .f32) (v98 : Vec Ideal S256x1 .f32) (v100 : Vec Ideal S1x4096 .f32) :
    k1_pay10 (F := Ideal) v2 v4 v74 v85 v87 v98 v100
      = addf (addf v74 (ct v85 v87 v2))
          (ct (sc v98 v100 v4 4 (by decide) slices_S1x8_o0_4_S1x1) (mx (sc v98 v100 v4 4 (by decide) slices_S1x8_o0_4_S1x1)) v2) := rfl

set_option maxHeartbeats 400000 in
theorem pay11_eq (v4 : FVec Ideal S1x8 .f32) (v121 : Vec Ideal S256x1 .f32) (v123 : Vec Ideal S1x4096 .f32) :
    k1_pay11 (F := Ideal) v4 v121 v123 = sc v121 v123 v4 5 (by decide) slices_S1x8_o0_5_S1x1 := rfl

set_option maxHeartbeats 400000 in
theorem pay12_eq (v4 : FVec Ideal S1x8 .f32) (v121 : Vec Ideal S256x1 .f32) (v123 : Vec Ideal S1x4096 .f32) :
    k1_pay12 (F := Ideal) v4 v121 v123 = mx (k1_pay11 v4 v121 v123) := rfl

set_option maxHeartbeats 400000 in
theorem pay13_eq (v2 : FVec Ideal S4096x32 .bf16) (v4 : FVec Ideal S1x8 .f32) (v120 : FVec Ideal S256x32 .f32) (v131 : FVec Ideal S256x4096 .f32)
    (v133 : FVec Ideal S256x1 .f32) (v144 : Vec Ideal S256x1 .f32) (v146 : Vec Ideal S1x4096 .f32) :
    k1_pay13 (F := Ideal) v2 v4 v120 v131 v133 v144 v146
      = addf (addf v120 (ct v131 v133 v2))
          (ct (sc v144 v146 v4 6 (by decide) slices_S1x8_o0_6_S1x1) (mx (sc v144 v146 v4 6 (by decide) slices_S1x8_o0_6_S1x1)) v2) := rfl

set_option maxHeartbeats 400000 in
theorem pay14_eq (v4 : FVec Ideal S1x8 .f32) (v167 : Vec Ideal S256x1 .f32) (v169 : Vec Ideal S1x4096 .f32) :
    k1_pay14 (F := Ideal) v4 v167 v169 = sc v167 v169 v4 7 (by decide) slices_S1x8_o0_7_S1x1 := rfl

set_option maxHeartbeats 400000 in
theorem pay15_eq (v4 : FVec Ideal S1x8 .f32) (v167 : Vec Ideal S256x1 .f32) (v169 : Vec Ideal S1x4096 .f32) :
    k1_pay15 (F := Ideal) v4 v167 v169 = mx (k1_pay14 v4 v167 v169) := rfl

/-! ## One head, from the loaded blocks -/

theorem hz2 : (![0, 0] : Fin 2 → Nat) = fun _ => 0 := funext fun a => by fin_cases a <;> rfl

/-- The value of head `h` for query row `p`: the softmax, over the keys, of the row's scores, against column `q` of the features. -/
def headVal (x0 : Vec Ideal S256x8 .f32) (x1 : Vec Ideal S8x4096 .f32) (x2 : Vec Ideal S1x8 .f32) (x3 : Vec Ideal S4096x32 .f32)
    (p : Fin 256) (q : Fin 32) (h : Fin 8) : EReal :=
  MHA.head (fun j k => x3 (ix2 j k)) (fun j => x0 (ix2 p h) + x1 (ix2 h j) + x2 (ix2 (0 : Fin 1) h)) q

set_option maxHeartbeats 1000000 in
theorem head_apply (x0 : Vec Ideal S256x8 .f32) (x1 : Vec Ideal S8x4096 .f32) (x2 : Vec Ideal S1x8 .f32) (x3 : Vec Ideal S4096x32 .f32)
    (h : Nat) (hh : h < 8)
    (inbc : ∀ a, (![0, h] : Fin 2 → Nat) a + S256x1.size a ≤ S256x8.size a)
    (inbr : ∀ a, (![h, 0] : Fin 2 → Nat) a + S1x4096.size a ≤ S8x4096.size a)
    (hs : S1x8.Slices ![0, h] S1x1) (p : Fin 256) (q : Fin 32) :
    ct (sc (View.ld x0 (Rect.unit (s := S256x8) ![0, h] S256x1.size inbc)) (View.ld x1 (Rect.unit (s := S8x4096) ![h, 0] S1x4096.size inbr))
          (k1_pay3 (View.ld x2 r1_1)) h hh hs)
        (mx (sc (View.ld x0 (Rect.unit (s := S256x8) ![0, h] S256x1.size inbc)) (View.ld x1 (Rect.unit (s := S8x4096) ![h, 0] S1x4096.size inbr))
          (k1_pay3 (View.ld x2 r1_1)) h hh hs))
        (k1_pay2 (View.ld x3 r1_0)) (ix2 p q)
      = headVal x0 x1 x2 x3 p q ⟨h, hh⟩ := by
  unfold headVal
  refine (KBlock.contrib_scores_apply (r := 256) (d := 32) _ _ _ h hh _ _ rfl _ _ _ _ _ _ _ _ _ _ _ _ p q).trans ?_
  rw [KBlock.ld_col x0 h hh inbc p, pay3_eq, View.ld_unit_zero (S := S1x8) hz2]
  refine congrArg₂ (fun e s => MHA.head e s q) (funext fun j => funext fun k => ?_) (funext fun j => ?_)
  · rw [pay2_apply, View.ld_unit_zero (S := S4096x32) hz2]
  · rw [KBlock.ld_row x1 h hh inbr j]

/-! ## The stored block -/

set_option maxHeartbeats 2000000 in
/-- Entry `(p, q)` of the block the body stores: the specification's layer value for row `p` of the block. -/
theorem out1_apply (x0 : Vec Ideal S256x8 .f32) (x1 : Vec Ideal S8x4096 .f32) (x2 : Vec Ideal S1x8 .f32) (x3 : Vec Ideal S4096x32 .f32)
    (p : Fin 256) (q : Fin 32) :
    out1_4 (F := Ideal) x0 x1 x2 x3 (ix2 p q)
      = MHA.leaky (Ideal.div (∑ h : Fin 8, headVal x0 x1 x2 x3 p q h) (Ideal.ofBits .f32 0x41000000#32)) := by
  unfold out1_4
  rw [View.canon_unit_zero hz2, pay1_eq, KBlock.finishOf_apply]
  refine congrArg MHA.leaky (congrArg (fun a => Ideal.div a _) ?_)
  rw [addf_apply, pay13_eq, addf_apply, addf_apply, pay10_eq, addf_apply, addf_apply, pay7_eq, addf_apply, addf_apply, pay4_eq,
    addf_apply, broadcast_apply]
  rw [pay15_eq, pay14_eq, pay12_eq, pay11_eq, pay9_eq, pay8_eq, pay6_eq, pay5_eq]
  rw [head_apply x0 x1 x2 x3 0, head_apply x0 x1 x2 x3 1, head_apply x0 x1 x2 x3 2, head_apply x0 x1 x2 x3 3,
    head_apply x0 x1 x2 x3 4, head_apply x0 x1 x2 x3 5, head_apply x0 x1 x2 x3 6, head_apply x0 x1 x2 x3 7]
  rw [← MHA.sum8 (headVal x0 x1 x2 x3 p q)]
  rw [show (FloatOps.ofBits (F := Ideal) .f32 0x00000000#32 : EReal) = 0 from Ideal.ofBits_zero_f32]
  rfl

end Cert.KernelIdeal.KRegion1

end
-- ==== Proof.KArray1.lean ====
/-
  From the blocks to the array: what the second attention region leaves in its result array.

  The region walks 16 grid points; point `t` reads rows `256 t … 256 t + 255` of the query terms, all of the key terms,
  the bias row and the whole feature matrix, and writes back rows `256 t … 256 t + 255` of the result.  What it writes
  at `(p, q)` of its block is the attention layer's value at row `256 t + p` and column `q`; the sixteen blocks tile the
  4096 rows, so the array ends holding the layer's value at every index, as one function of the four arrays the region
  found at its entry.
-/
import proofs.«136446_j28295244546247_2_alg».proof.Proof.KRegion1
import Idealize.ShloMosaic.Lib.Pipeline.Value

noncomputable section

open scoped BigOperators

namespace Cert.KernelIdeal.KArray1

open Cert.KernelIdeal Cert.KernelIdeal.Gen Idealize.ShloMosaic Idealize.ShloMosaic.TcCoe Idealize.ShloMosaic.ValueIdx
open Idealize.ShloMosaic.Pipeline (Dat)

/-- The attention layer of four whole arrays — features `[4096, 32]`, query terms `[4096, 8]`, key terms transposed
    `[8, 4096]`, bias row `[1, 8]` — index by index. -/
def layerOf (emb : S4096x32.Idx → EReal) (si : S4096x8.Idx → EReal) (sjT : S8x4096.Idx → EReal) (abr : S1x8.Idx → EReal) :
    S4096x32.Idx → EReal :=
  fun i => MHA.layer (fun j k => emb (ix2 j k)) (fun a h => si (ix2 a h)) (fun a h => sjT (ix2 h a))
    (fun h => abr (ix2 (0 : Fin 1) h)) (i 0) (i 1)

/-- What the body stores at `(p, q)` of its block, when its four input blocks are row `r` of the query terms (at block row
    `p`) and the other three arrays whole, is the layer's value at `(r, q)`: the two sides spell one sum over the heads. -/
theorem block_layer (emb : S4096x32.Idx → EReal) (si : S4096x8.Idx → EReal) (sjT : S8x4096.Idx → EReal) (abr : S1x8.Idx → EReal)
    (x0 : Vec Ideal S256x8 .f32) (x1 : Vec Ideal S8x4096 .f32) (x2 : Vec Ideal S1x8 .f32) (x3 : Vec Ideal S4096x32 .f32)
    (r : Fin 4096) (p : Fin 256) (q : Fin 32)
    (h0 : ∀ h : Fin 8, x0 (ix2 p h) = si (ix2 r h)) (h1 : x1 = sjT) (h2 : x2 = abr) (h3 : x3 = emb) :
    out1_4 (F := Ideal) x0 x1 x2 x3 (ix2 p q) = layerOf emb si sjT abr (ix2 r q) := by
  subst h1 h2 h3
  rw [KRegion1.out1_apply]
  unfold layerOf MHA.layer
  refine congrArg MHA.leaky (congrArg (fun a => Ideal.div a _) (Finset.sum_congr rfl fun h _ => ?_))
  unfold KRegion1.headVal
  rw [h0 h]
  rfl

/-! ## The index maps, decided over the grid -/

/-- The query terms' window and the result's window move one block of 256 rows per point; the other three windows are
    the whole arrays at every point. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

section Blocks

variable (V : (c : Dev nD) → (b : Ref sig .tc) → Buf (Elt Ideal) ((c : Thread nD τ).loc b))

/-! ## The input blocks at a point, read off the arrays -/

/-- The query terms' block at point `t` holds, at `(p, h)`, the query terms at `(256 t + p, h)`. -/
theorem iblk_q (c : Dev nD) (t : Fin cfg1.N) (x : S256x8.Idx) (k : S4096x8.Idx)
    (hk0 : (k 0).val = 256 * t.val + (x 0).val) (hk1 : (k 1).val = (x 1).val) :
    (iblk1 V c 0 t : Vec Ideal S256x8 .f32) x = (V c main_v25 : S4096x8.Idx → EReal) k := by
  obtain ⟨e0, e1, -⟩ := idx_facts t
  unfold iblk1
  rw [View.read_apply]
  show (V c main_v25 : S4096x8.Idx → EReal) _ = (V c main_v25 : S4096x8.Idx → EReal) k
  refine congrArg _ (funext fun a => Fin.ext ?_)
  match a with
  | ⟨0, _⟩ => show win1_0.index t (0 : Fin 2) * 256 + 1 * (x 0).val = (k 0).val; omega
  | ⟨1, _⟩ => show win1_0.index t (1 : Fin 2) * 8 + 1 * (x 1).val = (k 1).val; omega

/-- The key terms' block at every point is the whole array. -/
theorem iblk_k (c : Dev nD) (t : Fin cfg1.N) :
    (iblk1 V c 1 t : Vec Ideal S8x4096 .f32) = (V c main_v29 : S8x4096.Idx → EReal) := by
  obtain ⟨-, -, e0, e1, -⟩ := idx_facts t
  funext y
  unfold iblk1
  rw [View.read_apply]
  show (V c main_v29 : S8x4096.Idx → EReal) _ = (V c main_v29 : S8x4096.Idx → EReal) y
  refine congrArg _ (funext fun a => Fin.ext ?_)
  match a with
  | ⟨0, _⟩ => show win1_1.index t (0 : Fin 2) * 8 + 1 * (y 0).val = (y 0).val; omega
  | ⟨1, _⟩ => show win1_1.index t (1 : Fin 2) * 4096 + 1 * (y 1).val = (y 1).val; omega

/-- The bias row's block at every point is the whole row. -/
theorem iblk_b (c : Dev nD) (t : Fin cfg1.N) :
    (iblk1 V c 2 t : Vec Ideal S1x8 .f32) = (V c main_v30 : S1x8.Idx → EReal) := by
  obtain ⟨-, -, -, -, e0, e1, -⟩ := idx_facts t
  funext y
  unfold iblk1
  rw [View.read_apply]
  show (V c main_v30 : S1x8.Idx → EReal) _ = (V c main_v30 : S1x8.Idx → EReal) y
  refine congrArg _ (funext fun a => Fin.ext ?_)
  match a with
  | ⟨0, _⟩ => show win1_2.index t (0 : Fin 2) * 1 + 1 * (y 0).val = (y 0).val; omega
  | ⟨1, _⟩ => show win1_2.index t (1 : Fin 2) * 8 + 1 * (y 1).val = (y 1).val; omega

/-- The features' block at every point is the whole matrix. -/
theorem iblk_e (c : Dev nD) (t : Fin cfg1.N) :
    (iblk1 V c 3 t : Vec Ideal S4096x32 .f32) = (V c main_v22 : S4096x32.Idx → EReal) := by
  obtain ⟨-, -, -, -, -, -, e0, e1, -⟩ := idx_facts t
  funext y
  unfold iblk1
  rw [View.read_apply]
  show (V c main_v22 : S4096x32.Idx → EReal) _ = (V c main_v22 : S4096x32.Idx → EReal) y
  refine congrArg _ (funext fun a => Fin.ext ?_)
  match a with
  | ⟨0, _⟩ => show win1_3.index t (0 : Fin 2) * 4096 + 1 * (y 0).val = (y 0).val; omega
  | ⟨1, _⟩ => show win1_3.index t (1 : Fin 2) * 32 + 1 * (y 1).val = (y 1).val; omega

/-! ## What a point writes back -/

/-- The layer of the region's four entry arrays. -/
def G (c : Dev nD) : S4096x32.Idx → EReal :=
  layerOf (V c main_v22 : S4096x32.Idx → EReal) (V c main_v25 : S4096x8.Idx → EReal) (V c main_v29 : S8x4096.Idx → EReal)
    (V c main_v30 : S1x8.Idx → EReal)

/-- What the body leaves at `(p, q)` of point `t`'s block is the layer at `(256 t + p, q)`. -/
theorem point_eq (c : Dev nD) (t : Fin cfg1.N) (p : Fin 256) (q : Fin 32) (r : Fin 4096) (hr : r.val = 256 * t.val + p.val) :
    out1_4 (F := Ideal) (iblk1 V c 0 t) (iblk1 V c 1 t) (iblk1 V c 2 t) (iblk1 V c 3 t) (ix2 p q) = G V c (ix2 r q) :=
  block_layer _ _ _ _ _ _ _ _ r p q (fun h => iblk_q V c t (ix2 p h) (ix2 r h) hr rfl) (iblk_k V c t) (iblk_b V c t) (iblk_e V c t)

/-- Point `t` writes back block `t` of the layer. -/
theorem flushed_eq (c : Dev nD) (t : Fin cfg1.N) :
    (dat1 V c).flushed 4 t = ((cfg1.win 4).blk t).view.read (Elt Ideal) (G V c) := by
  have hN : grid1.N = 16 := N_1
  have ht : t.val < 16 := hN ▸ t.isLt
  obtain ⟨-, -, -, -, -, -, -, -, e0, e1⟩ := idx_facts t
  show (cfg1.win 4).cut (grid1.coords t) ((dat1 V c).after 4 t) = _
  rw [after1_4]
  funext y
  have hy0 : (y 0).val < 256 := (y 0).isLt
  have hy1 : (y 1).val < 32 := (y 1).isLt
  show out1_4 (F := Ideal) (iblk1 V c 0 t) (iblk1 V c 1 t) (iblk1 V c 2 t) (iblk1 V c 3 t) y
      = G V c (((cfg1.win 4).blk t).view.emb y)
  have hemb : ((cfg1.win 4).blk t).view.emb y
      = (ix2 (⟨256 * t.val + (y 0).val, by omega⟩ : Fin 4096) (⟨(y 1).val, hy1⟩ : Fin 32) : S4096x32.Idx) := by
    funext a; apply Fin.ext
    match a with
    | ⟨0, _⟩ => show win1_4.index t (0 : Fin 2) * 256 + 1 * (y 0).val = 256 * t.val + (y 0).val; omega
    | ⟨1, _⟩ => show win1_4.index t (1 : Fin 2) * 32 + 1 * (y 1).val = (y 1).val; omega
  rw [hemb]
  have hy : y = (ix2 (⟨(y 0).val, hy0⟩ : Fin 256) (⟨(y 1).val, hy1⟩ : Fin 32) : S256x32.Idx) := by
    funext a; match a with | ⟨0, _⟩ => rfl | ⟨1, _⟩ => rfl
  refine (congrArg (fun z : S256x32.Idx =>
    out1_4 (F := Ideal) (iblk1 V c 0 t) (iblk1 V c 1 t) (iblk1 V c 2 t) (iblk1 V c 3 t) z) hy).trans ?_
  exact point_eq V c t ⟨(y 0).val, hy0⟩ ⟨(y 1).val, hy1⟩ ⟨256 * t.val + (y 0).val, by omega⟩ rfl

/-! ## The sixteen blocks tile the array -/

/-- An index of the array is in point `t`'s block iff each coordinate is in the block's range on its axis. -/
theorem mem_blk (t : Fin cfg1.N) (i : S4096x32.Idx) :
    i ∈ ((cfg1.win 4).blk t).view.set
      ↔ ∀ a : Fin 2, win1_4.index t a * S256x32.size a ≤ (i a).val ∧ (i a).val < win1_4.index t a * S256x32.size a + S256x32.size a := by
  show i ∈ ((View.whole main_v31).slice (win1_4.rect t)).set ↔ _
  rw [View.set_slice_whole, Rect.mem_set_unit]
  exact Iff.rfl

/-- Row `r` is in the block of point `r / 256`. -/
theorem cover (i : S4096x32.Idx) : ∃ t : Fin cfg1.N, (cfg1.win 4).flush t = true ∧ i ∈ ((cfg1.win 4).blk t).view.set := by
  have hN : grid1.N = 16 := N_1
  have hi0 : (i 0).val < 4096 := (i 0).isLt
  have hi1 : (i 1).val < 32 := (i 1).isLt
  let t : Fin cfg1.N := ⟨(i 0).val / 256, by show (i 0).val / 256 < grid1.N; omega⟩
  have htv : t.val = (i 0).val / 256 := rfl
  obtain ⟨-, -, -, -, -, -, -, -, e0, e1⟩ := idx_facts t
  refine ⟨t, flush1_4 t, ?_⟩
  rw [mem_blk]
  intro a
  match a with
  | ⟨0, _⟩ => show win1_4.index t (0 : Fin 2) * 256 ≤ (i 0).val ∧ (i 0).val < win1_4.index t (0 : Fin 2) * 256 + 256; omega
  | ⟨1, _⟩ => show win1_4.index t (1 : Fin 2) * 32 ≤ (i 1).val ∧ (i 1).val < win1_4.index t (1 : Fin 2) * 32 + 32; omega

/-- The result array after the region: the layer of the four entry arrays at every index. -/
theorem final1 (c : Dev nD) :
    (dat1 (F := Ideal) V c).arrAt 4 cfg1.N
      = fun i => MHA.layer (fun j k => (V c main_v22 : S4096x32.Idx → EReal) (ix2 j k)) (fun a h => (V c main_v25 : S4096x8.Idx → EReal) (ix2 a h))
          (fun a h => (V c main_v29 : S8x4096.Idx → EReal) (ix2 h a)) (fun h => (V c main_v30 : S1x8.Idx → EReal) (ix2 (0 : Fin 1) h)) (i 0) (i 1) :=
  (dat1 V c).arrAt_eq_of_cover 4 (G V c) (fun t _ => flushed_eq V c t) cover

end Blocks

end Cert.KernelIdeal.KArray1

end
-- ==== Proof.RefReadSoftmax.lean ====
/-
  The reference's scores and their softmax, read at an index.

  The scores of every head and pair of nodes are laid out over [8, 4096, 4096] by transposes and broadcasts of the
  query terms, the key terms and the head biases; each row's largest score is a fold of the maximum along the last
  axis, and the softmax divides the exponentials of the scores less that largest by their sum along the same axis.
  Here each of these arrays is read at an index given by its coordinates, as the entry-by-entry attention layer of
  the specification spells it: first the layout operations (general in the extents), then the reductions along the
  last axis, then the four stages.
-/
import proofs.«136446_j28295244546247_2_alg».proof.Proof.RefStages
import proofs.«136446_j28295244546247_2_alg».proof.Proof.Spec
import Idealize.ShloMosaic.Lib.Pipeline.Value
import Idealize.ShloMosaic.Lib.ValueIdx
import Idealize.ShloMosaic.Lib.ValueLayout
import Idealize.ShloMosaic.Lib.IdealHost

noncomputable section

open scoped BigOperators

namespace Cert.ReferenceIdeal.RefRead

open Cert.ReferenceIdeal Cert.ReferenceIdeal.Gen Idealize.ShloMosaic Idealize.ShloMosaic.ValueIdx

/-! ## Layout operations read at an index -/

section Layout

variable {α : Type}

/-- A coordinate below n is 0 when n is 1. -/
theorem val_eq_ite {n : ℕ} (p : Fin n) : p.val = if n = 1 then 0 else p.val := by
  split
  · have := p.isLt; omega
  · rfl

/-- A matrix [a, b] placed on axes (0, 1) of [a, b, 1] reads, at (p, q, u), its entry (p, q). -/
theorem bid_ab_ab1_apply {a b : ℕ} (v : (⟨2, ![a, b]⟩ : Shape).Idx → α)
    (h : (⟨2, ![a, b]⟩ : Shape).BroadcastsInDim ⟨3, ![a, b, 1]⟩ ![0, 1]) (p : Fin a) (q : Fin b) (u : Fin 1) :
    broadcastInDim ⟨3, ![a, b, 1]⟩ ![0, 1] h v (ix3 p q u) = v (ix2 p q) := by
  refine broadcastInDim_apply _ h v (ix3 p q u) (ix2 p q) fun ax => ?_
  match ax with
  | ⟨0, _⟩ => exact val_eq_ite p
  | ⟨1, _⟩ => exact val_eq_ite q

/-- [a, b, 1] spread along the last axis of [a, b, c] reads, at (p, q, r), the operand at (p, q, 0). -/
theorem bid_ab1_abc_apply {a b c : ℕ} (v : (⟨3, ![a, b, 1]⟩ : Shape).Idx → α)
    (h : (⟨3, ![a, b, 1]⟩ : Shape).BroadcastsInDim ⟨3, ![a, b, c]⟩ ![0, 1, 2]) (p : Fin a) (q : Fin b) (r : Fin c) :
    broadcastInDim ⟨3, ![a, b, c]⟩ ![0, 1, 2] h v (ix3 p q r) = v (ix3 p q (0 : Fin 1)) := by
  refine broadcastInDim_apply _ h v (ix3 p q r) (ix3 p q (0 : Fin 1)) fun ax => ?_
  match ax with
  | ⟨0, _⟩ => exact val_eq_ite p
  | ⟨1, _⟩ => exact val_eq_ite q
  | ⟨2, _⟩ => rfl

/-- A matrix [a, c] placed on axes (0, 2) of [a, 1, c] reads, at (p, u, r), its entry (p, r). -/
theorem bid_ac_a1c_apply {a c : ℕ} (v : (⟨2, ![a, c]⟩ : Shape).Idx → α)
    (h : (⟨2, ![a, c]⟩ : Shape).BroadcastsInDim ⟨3, ![a, 1, c]⟩ ![0, 2]) (p : Fin a) (u : Fin 1) (r : Fin c) :
    broadcastInDim ⟨3, ![a, 1, c]⟩ ![0, 2] h v (ix3 p u r) = v (ix2 p r) := by
  refine broadcastInDim_apply _ h v (ix3 p u r) (ix2 p r) fun ax => ?_
  match ax with
  | ⟨0, _⟩ => exact val_eq_ite p
  | ⟨1, _⟩ => exact val_eq_ite r

/-- [a, 1, c] spread along the middle axis of [a, b, c] reads, at (p, q, r), the operand at (p, 0, r). -/
theorem bid_a1c_abc_apply {a b c : ℕ} (v : (⟨3, ![a, 1, c]⟩ : Shape).Idx → α)
    (h : (⟨3, ![a, 1, c]⟩ : Shape).BroadcastsInDim ⟨3, ![a, b, c]⟩ ![0, 1, 2]) (p : Fin a) (q : Fin b) (r : Fin c) :
    broadcastInDim ⟨3, ![a, b, c]⟩ ![0, 1, 2] h v (ix3 p q r) = v (ix3 p (0 : Fin 1) r) := by
  refine broadcastInDim_apply _ h v (ix3 p q r) (ix3 p (0 : Fin 1) r) fun ax => ?_
  match ax with
  | ⟨0, _⟩ => exact val_eq_ite p
  | ⟨1, _⟩ => rfl
  | ⟨2, _⟩ => exact val_eq_ite r

/-- A vector [a] placed on axis 0 of [a, 1, 1] reads, at (p, u, w), its entry p. -/
theorem bid_a_a11_apply {a : ℕ} (v : (⟨1, ![a]⟩ : Shape).Idx → α)
    (h : (⟨1, ![a]⟩ : Shape).BroadcastsInDim ⟨3, ![a, 1, 1]⟩ ![0]) (p : Fin a) (u w : Fin 1) :
    broadcastInDim ⟨3, ![a, 1, 1]⟩ ![0] h v (ix3 p u w) = v (ix1 p) := by
  refine broadcastInDim_apply _ h v (ix3 p u w) (ix1 p) fun ax => ?_
  match ax with
  | ⟨0, _⟩ => exact val_eq_ite p

/-- [a, 1, 1] spread along the last two axes of [a, b, c] reads, at (p, q, r), the operand at (p, 0, 0). -/
theorem bid_a11_abc_apply {a b c : ℕ} (v : (⟨3, ![a, 1, 1]⟩ : Shape).Idx → α)
    (h : (⟨3, ![a, 1, 1]⟩ : Shape).BroadcastsInDim ⟨3, ![a, b, c]⟩ ![0, 1, 2]) (p : Fin a) (q : Fin b) (r : Fin c) :
    broadcastInDim ⟨3, ![a, b, c]⟩ ![0, 1, 2] h v (ix3 p q r) = v (ix3 p (0 : Fin 1) (0 : Fin 1)) := by
  refine broadcastInDim_apply _ h v (ix3 p q r) (ix3 p (0 : Fin 1) (0 : Fin 1)) fun ax => ?_
  match ax with
  | ⟨0, _⟩ => exact val_eq_ite p
  | ⟨1, _⟩ => rfl
  | ⟨2, _⟩ => rfl

end Layout

/-! ## Reductions along the last axis of a rank-3 array -/

/-- The reduced index (p, q) with the coordinate k put back on the last axis is (p, q, k). -/
theorem lift_axis2 {a b c : ℕ} (h : (⟨3, ![a, b, c]⟩ : Shape).Reduces [2] (⟨2, ![a, b]⟩ : Shape)) (p : Fin a) (q : Fin b)
    (k : Fin ((⟨3, ![a, b, c]⟩ : Shape).size 2)) : h.lift (ix2 p q) k = ix3 p q (⟨k.val, k.isLt⟩ : Fin c) := by
  funext d; apply Fin.ext
  fin_cases d <;> rfl

/-- The larger of minus infinity and x is x. -/
theorem max_negInf (x : EReal) : max (Ideal.ofBits .f32 0xFF800000#32) x = x := by
  rw [MHA.ofBits_negInf]; exact max_eq_right bot_le

/-! ## The four stages over [8, 4096, 4096] -/

/-- The last axis of [8, 4096, 4096] drops to [8, 4096]. -/
theorem reduces_d2 : S8x4096x4096.Reduces [2] S8x4096 := by decide

set_option maxHeartbeats 400000 in
/-- A value per head and query node, spread over the keys, reads at (h, i, j) the value at (h, i). -/
theorem overKeys_apply (v : FVec Ideal S8x4096 .f32) (h : Fin 8) (i j : Fin 4096) :
    Stages.overKeys v (ix3 h i j) = v (ix2 h i) := by
  unfold Stages.overKeys
  exact (bid_ab1_abc_apply _ _ h i j).trans (bid_ab_ab1_apply v _ h i 0)

set_option maxHeartbeats 400000 in
/-- The scores at (h, i, j): the query term of node i, the key term of node j and the bias, all of head h. -/
theorem scores_apply (si sj : FVec Ideal S4096x8 .f32) (ab : FVec Ideal S8 .f32) (h : Fin 8) (i j : Fin 4096) :
    Stages.scores si sj ab (ix3 h i j)
      = MHA.score (fun a k => si (ix2 a k)) (fun a k => sj (ix2 a k)) (fun k => ab (ix1 k)) h i j := by
  unfold Stages.scores MHA.score
  have e1 : Stages.overKeys (transpose S8x4096 [1, 0] si transposes_S4096x8_S8x4096_1_0) (ix3 h i j) = si (ix2 i h) :=
    (overKeys_apply _ h i j).trans (transpose_ix2_apply si _ h i)
  have e2 : broadcastInDim S8x4096x4096 ![0, 1, 2] bcast_S8x1x4096_S8x4096x4096_0_1_2
        (broadcastInDim S8x1x4096 ![0, 2] bcast_S8x4096_S8x1x4096_0_2
          (transpose S8x4096 [1, 0] sj transposes_S4096x8_S8x4096_1_0)) (ix3 h i j) = sj (ix2 j h) :=
    (bid_a1c_abc_apply _ _ h i j).trans ((bid_ac_a1c_apply _ _ h 0 j).trans (transpose_ix2_apply sj _ h j))
  have e3 : broadcastInDim S8x4096x4096 ![0, 1, 2] bcast_S8x1x1_S8x4096x4096_0_1_2
      (broadcastInDim S8x1x1 ![0] bcast_S8_S8x1x1_0 ab) (ix3 h i j) = ab (ix1 h) :=
    (bid_a11_abc_apply _ _ h i j).trans (bid_a_a11_apply ab _ h 0 0)
  exact congrArg₂ (· + ·) (congrArg₂ (· + ·) e1 e2) e3

set_option maxHeartbeats 400000 in
/-- Each row's largest score: the fold of the maximum over the keys from minus infinity. -/
theorem rowmax_apply (s : FVec Ideal S8x4096x4096 .f32) (h : Fin 8) (i : Fin 4096) :
    Stages.rowmax s (ix2 h i) = MHA.rowMax (fun j => s (ix3 h i j)) := by
  unfold Stages.rowmax MHA.rowMax
  have e1 : broadcastInDim S8x4096 ![] bcast_S_S8x4096 (constant (F := Ideal) S_ .f32 0xFF800000#32) (ix2 h i)
      = Ideal.ofBits .f32 0xFF800000#32 := rfl
  rw [maximumf_apply, e1, max_negInf,
    Host.reduce_eq_fold_single FloatOps.maximumf s _ reducesTo_S8x4096x4096_S8x4096_d2 reduces_d2 h_S_]
  exact congrArg (fun f => Finset.fold max (Ideal.ofBits .f32 0xFF800000#32) f (Finset.univ : Finset (Fin 4096)))
    (funext fun k => congrArg s (lift_axis2 reduces_d2 h i k))

set_option maxHeartbeats 400000 in
/-- The exponential of a score less its row's largest. -/
theorem expo_apply (s : FVec Ideal S8x4096x4096 .f32) (h : Fin 8) (i j : Fin 4096) :
    Stages.expo s (ix3 h i j) = MHA.expo (fun j => s (ix3 h i j)) j := by
  unfold Stages.expo MHA.expo
  show Ideal.exp (s (ix3 h i j) - Stages.overKeys (Stages.rowmax s) (ix3 h i j)) = _
  rw [overKeys_apply, rowmax_apply]

set_option maxHeartbeats 400000 in
/-- The softmax of a row of scores: each exponential over the sum of the row's exponentials. -/
theorem softmax_apply (s : FVec Ideal S8x4096x4096 .f32) (h : Fin 8) (i j : Fin 4096) :
    Stages.softmax s (ix3 h i j)
      = Ideal.div (MHA.expo (fun j => s (ix3 h i j)) j) (∑ j' : Fin 4096, MHA.expo (fun j => s (ix3 h i j)) j') := by
  unfold Stages.softmax
  show Ideal.div (Stages.expo s (ix3 h i j)) (Stages.overKeys _ (ix3 h i j)) = _
  rw [overKeys_apply, expo_apply, hostReduceAdd_apply,
    Ideal.hostReduceAdd_single reducesTo_S8x4096x4096_S8x4096_d2 reduces_d2]
  show Ideal.div _ (Ideal.ofBits .f32 0x00000000#32 + _) = _
  rw [Ideal.ofBits_zero_f32, zero_add]
  refine congrArg (Ideal.div _) ?_
  exact Finset.sum_congr rfl fun k _ =>
    (congrArg (Stages.expo s) (lift_axis2 reduces_d2 h i k)).trans (expo_apply s h i _)

set_option maxHeartbeats 400000 in
/-- The softmax of the scores, in the specification's words. -/
theorem softmax_scores_apply (si sj : FVec Ideal S4096x8 .f32) (ab : FVec Ideal S8 .f32) (h : Fin 8) (i j : Fin 4096) :
    Stages.softmax (Stages.scores si sj ab) (ix3 h i j)
      = Ideal.div (MHA.expo (MHA.score (fun a k => si (ix2 a k)) (fun a k => sj (ix2 a k)) (fun k => ab (ix1 k)) h i) j)
          (∑ j' : Fin 4096,
            MHA.expo (MHA.score (fun a k => si (ix2 a k)) (fun a k => sj (ix2 a k)) (fun k => ab (ix1 k)) h i) j') := by
  have e : (fun j => Stages.scores si sj ab (ix3 h i j))
      = MHA.score (fun a k => si (ix2 a k)) (fun a k => sj (ix2 a k)) (fun k => ab (ix1 k)) h i :=
    funext fun j => scores_apply si sj ab h i j
  rw [softmax_apply, e]

end Cert.ReferenceIdeal.RefRead

end
-- ==== Proof.RefRead.lean ====
/-
  The reference's attention layers and the unit between them, read at an index.

  After the softmax of the scores, a layer multiplies each head's [4096, 4096] weights into the embedding, adds the
  eight heads' products, divides by eight and applies the leaky rectifier.  Read at a node and a feature this is the
  specification's layer: the product is a sum over the key nodes, the addition over the heads a sum over the eight
  heads, and the two constants spread over the array read as the constants.  The exponential linear unit between the
  layers reads entry by entry; where its argument is not above zero the inner choice is the argument itself.
-/
import proofs.«136446_j28295244546247_2_alg».proof.Proof.RefReadSoftmax

noncomputable section

open scoped BigOperators

namespace Cert.ReferenceIdeal.RefRead

open Cert.ReferenceIdeal Cert.ReferenceIdeal.Gen Idealize.ShloMosaic Idealize.ShloMosaic.ValueIdx

/-! ## A stack of matrices against one matrix -/

/-- The dimension numbers of a stack [H, N, K] against a matrix [K, d]: the stack's last axis is contracted with the
    matrix's first; the result is [H, N, d]. -/
def attnDims (H N K d : ℕ)
    (wf : DotDims.WF ⟨3, ![H, N, K]⟩ ⟨2, ![K, d]⟩ ⟨3, ![H, N, d]⟩ [2] [0] [0, 1] [1] [] []) :
    DotDims ⟨3, ![H, N, K]⟩ ⟨2, ![K, d]⟩ ⟨3, ![H, N, d]⟩ where
  lhsContracting := [2]
  rhsContracting := [0]
  lhsNonContracting := [0, 1]
  rhsNonContracting := [1]
  lhsBatch := []
  rhsBatch := []
  wf := wf

section Attn

variable (H N K d : ℕ) (wf : DotDims.WF ⟨3, ![H, N, K]⟩ ⟨2, ![K, d]⟩ ⟨3, ![H, N, d]⟩ [2] [0] [0, 1] [1] [] [])

set_option maxHeartbeats 400000 in
/-- The stack's index at result index (h, i, q) and contraction index k is (h, i, k). -/
theorem attn_lhsIdx_eq (h : Fin H) (i : Fin N) (q : Fin d) (k : Fin K) :
    (attnDims H N K d wf).lhsIdx (ix3 h i q) ((contrEquiv1 (attnDims H N K d wf) K rfl rfl).symm k) = ix3 h i k := by
  have hk := contrEquiv1_symm_val (attnDims H N K d wf) K rfl rfl k
  funext a
  apply Fin.ext
  match a with
  | ⟨0, _⟩ => rfl
  | ⟨1, _⟩ => rfl
  | ⟨2, _⟩ => exact ((attnDims H N K d wf).lhsIdx_val_of_single rfl _ _).trans hk

set_option maxHeartbeats 400000 in
/-- The matrix's index at result index (h, i, q) and contraction index k is (k, q). -/
theorem attn_rhsIdx_eq (h : Fin H) (i : Fin N) (q : Fin d) (k : Fin K) :
    (attnDims H N K d wf).rhsIdx (ix3 h i q) ((contrEquiv1 (attnDims H N K d wf) K rfl rfl).symm k) = ix2 k q := by
  have hk := contrEquiv1_symm_val (attnDims H N K d wf) K rfl rfl k
  funext a
  apply Fin.ext
  match a with
  | ⟨0, _⟩ => exact ((attnDims H N K d wf).rhsIdx_val_of_single rfl _ _).trans hk
  | ⟨1, _⟩ => rfl

/-- Entry (h, i, q) of the host's product of the stack with the matrix: the sum over k of a[h, i, k] · e[k, q]. -/
theorem attn_dot_apply (prec : Option ContractPrecision) (sched : HostSchedule)
    (a : FVec Ideal ⟨3, ![H, N, K]⟩ .f32) (e : FVec Ideal ⟨2, ![K, d]⟩ .f32) (h : Fin H) (i : Fin N) (q : Fin d) :
    FloatOps.dotGeneral (attnDims H N K d wf) prec sched a e (ix3 h i q) = ∑ k : Fin K, a (ix3 h i k) * e (ix2 k q) := by
  rw [Ideal.dotGeneral_apply, ← Equiv.sum_comp (contrEquiv1 (attnDims H N K d wf) K rfl rfl).symm]
  refine Finset.sum_congr rfl fun k _ => ?_
  rw [attn_lhsIdx_eq, attn_rhsIdx_eq]

end Attn

/-- The reduced index (q, r) with the coordinate k put back on the first axis is (k, q, r). -/
theorem lift_axis0 {a b c : ℕ} (h : (⟨3, ![a, b, c]⟩ : Shape).Reduces [0] (⟨2, ![b, c]⟩ : Shape)) (q : Fin b) (r : Fin c)
    (k : Fin ((⟨3, ![a, b, c]⟩ : Shape).size 0)) : h.lift (ix2 q r) k = ix3 (⟨k.val, k.isLt⟩ : Fin a) q r := by
  funext d; apply Fin.ext
  fin_cases d <;> rfl

/-! ## The head mean, the rectifier and the layers -/

/-- The first axis of [8, 4096, 64] drops to [4096, 64]. -/
theorem reduces_d0_64 : S8x4096x64.Reduces [0] S4096x64 := by decide

/-- The first axis of [8, 4096, 32] drops to [4096, 32]. -/
theorem reduces_d0_32 : S8x4096x32.Reduces [0] S4096x32 := by decide

set_option maxHeartbeats 400000 in
/-- The head mean at (i, q), 64 features: the sum over the heads and the key nodes of weight times feature, over eight. -/
theorem mean1_apply (a : FVec Ideal S8x4096x4096 .f32) (e : FVec Ideal S4096x64 .f32) (i : Fin 4096) (q : Fin 64) :
    Stages.mean1 a e (ix2 i q)
      = Ideal.div (∑ h : Fin 8, ∑ j : Fin 4096, a (ix3 h i j) * e (ix2 j q)) (Ideal.ofBits .f32 0x41000000#32) := by
  unfold Stages.mean1
  show Ideal.div (Host.reduceAdd (F := Ideal) (Host.dotGeneral dot_S8x4096x4096_S4096x64_S8x4096x64_2_0_01_1_n_n none a e)
      (constant (F := Ideal) S_ .f32 0x00000000#32) reducesTo_S8x4096x64_S4096x64_d0 h_S_ (ix2 i q))
    (Ideal.ofBits .f32 0x41000000#32) = _
  refine congrArg (Ideal.div · _) ?_
  rw [hostReduceAdd_apply, Ideal.hostReduceAdd_single reducesTo_S8x4096x64_S4096x64_d0 reduces_d0_64]
  show Ideal.ofBits .f32 0x00000000#32 + _ = _
  rw [Ideal.ofBits_zero_f32, zero_add]
  exact Finset.sum_congr rfl fun k _ =>
    (congrArg (Host.dotGeneral dot_S8x4096x4096_S4096x64_S8x4096x64_2_0_01_1_n_n none a e)
        (lift_axis0 reduces_d0_64 i q k)).trans
      (attn_dot_apply 8 4096 4096 64 dot_S8x4096x4096_S4096x64_S8x4096x64_2_0_01_1_n_n_wf none .single a e _ i q)

set_option maxHeartbeats 400000 in
/-- The head mean at (i, q), 32 features. -/
theorem mean2_apply (a : FVec Ideal S8x4096x4096 .f32) (e : FVec Ideal S4096x32 .f32) (i : Fin 4096) (q : Fin 32) :
    Stages.mean2 a e (ix2 i q)
      = Ideal.div (∑ h : Fin 8, ∑ j : Fin 4096, a (ix3 h i j) * e (ix2 j q)) (Ideal.ofBits .f32 0x41000000#32) := by
  unfold Stages.mean2
  show Ideal.div (Host.reduceAdd (F := Ideal) (Host.dotGeneral dot_S8x4096x4096_S4096x32_S8x4096x32_2_0_01_1_n_n none a e)
      (constant (F := Ideal) S_ .f32 0x00000000#32) reducesTo_S8x4096x32_S4096x32_d0 h_S_ (ix2 i q))
    (Ideal.ofBits .f32 0x41000000#32) = _
  refine congrArg (Ideal.div · _) ?_
  rw [hostReduceAdd_apply, Ideal.hostReduceAdd_single reducesTo_S8x4096x32_S4096x32_d0 reduces_d0_32]
  show Ideal.ofBits .f32 0x00000000#32 + _ = _
  rw [Ideal.ofBits_zero_f32, zero_add]
  exact Finset.sum_congr rfl fun k _ =>
    (congrArg (Host.dotGeneral dot_S8x4096x4096_S4096x32_S8x4096x32_2_0_01_1_n_n none a e)
        (lift_axis0 reduces_d0_32 i q k)).trans
      (attn_dot_apply 8 4096 4096 32 dot_S8x4096x4096_S4096x32_S8x4096x32_2_0_01_1_n_n_wf none .single a e _ i q)

set_option maxHeartbeats 400000 in
/-- The leaky rectifier reads entry by entry (64 features). -/
theorem leaky1_apply (y : FVec Ideal S4096x64 .f32) (j : S4096x64.Idx) : Stages.leaky1 y j = MHA.leaky (y j) := rfl

set_option maxHeartbeats 400000 in
/-- The leaky rectifier reads entry by entry (32 features). -/
theorem leaky2_apply (y : FVec Ideal S4096x32 .f32) (j : S4096x32.Idx) : Stages.leaky2 y j = MHA.leaky (y j) := rfl

set_option maxHeartbeats 400000 in
/-- Layer 1 after its embedding and projections is the specification's layer, entry by entry. -/
theorem tail1_apply (e : FVec Ideal S4096x64 .f32) (si sj : FVec Ideal S4096x8 .f32) (ab : FVec Ideal S8 .f32)
    (i : Fin 4096) (q : Fin 64) :
    Stages.tail1 e si sj ab (ix2 i q)
      = MHA.layer (fun j k => e (ix2 j k)) (fun a h => si (ix2 a h)) (fun a h => sj (ix2 a h)) (fun h => ab (ix1 h)) i q := by
  unfold Stages.tail1 MHA.layer MHA.head
  rw [leaky1_apply, mean1_apply]
  refine congrArg (fun v => MHA.leaky (Ideal.div v _)) ?_
  exact Finset.sum_congr rfl fun h _ => Finset.sum_congr rfl fun j _ =>
    congrArg (· * e (ix2 j q)) (softmax_scores_apply si sj ab h i j)

set_option maxHeartbeats 400000 in
/-- Layer 2 after its embedding and projections is the specification's layer, entry by entry. -/
theorem tail2_apply (e : FVec Ideal S4096x32 .f32) (si sj : FVec Ideal S4096x8 .f32) (ab : FVec Ideal S8 .f32)
    (i : Fin 4096) (q : Fin 32) :
    Stages.tail2 e si sj ab (ix2 i q)
      = MHA.layer (fun j k => e (ix2 j k)) (fun a h => si (ix2 a h)) (fun a h => sj (ix2 a h)) (fun h => ab (ix1 h)) i q := by
  unfold Stages.tail2 MHA.layer MHA.head
  rw [leaky2_apply, mean2_apply]
  refine congrArg (fun v => MHA.leaky (Ideal.div v _)) ?_
  exact Finset.sum_congr rfl fun h _ => Finset.sum_congr rfl fun j _ =>
    congrArg (· * e (ix2 j q)) (softmax_scores_apply si sj ab h i j)

/-! ## The exponential linear unit -/

set_option maxHeartbeats 400000 in
/-- The unit between the layers, entry by entry: above zero the entry itself; otherwise the inner choice is the entry,
    and one times its exponential less one is the exponential less one. -/
theorem elu1_apply (y : FVec Ideal S4096x64 .f32) (j : S4096x64.Idx) : Stages.elu1 y j = MHA.elu (y j) := by
  unfold Stages.elu1 MHA.elu
  show Scalar.select (FloatOps.cmpf (F := Ideal) (φ := .f32) .ogt (y j) (Ideal.ofBits .f32 0x00000000#32)) (y j)
      (Ideal.ofBits .f32 0x3F800000#32
        * (Ideal.exp (Scalar.select (FloatOps.cmpf (F := Ideal) (φ := .f32) .ogt (y j) (Ideal.ofBits .f32 0x00000000#32))
            (Ideal.ofBits .f32 0x00000000#32) (y j)) - 1)) = _
  by_cases hb : FloatOps.cmpf (F := Ideal) (φ := .f32) .ogt (y j) (Ideal.ofBits .f32 0x00000000#32) = 1#1
  · rw [hb, select_one, select_one]
  · rw [eq_zero_of_ne_one hb, select_zero, select_zero, select_zero, MHA.ofBits_one, one_mul]

end Cert.ReferenceIdeal.RefRead

end
-- ==== Proof.HostBridge.lean ====
/-
  The two programs' host stages are the same functions.

  Before each attention region the kernel program applies, operation for operation, the host operations the reference
  begins each layer with: the linear embedding and the two projections onto the halves of the attention weights.  Each
  program names the contraction records and the shape facts of these operations for itself; the records have the same
  fields and the facts are propositions, so the stages of the one program and of the other are the same functions of
  the arrays they read.
-/
import proofs.«136446_j28295244546247_2_alg».proof.Proof.KStages
import proofs.«136446_j28295244546247_2_alg».proof.Proof.RefStages

noncomputable section

namespace Cert.HostBridge

open Idealize.ShloMosaic

set_option maxHeartbeats 400000 in
/-- Layer 1's embedding. -/
theorem emb1_eq (x : FVec Ideal Cert.KernelIdeal.S4096x64 .f32) (W : FVec Ideal Cert.KernelIdeal.S64x64 .f32)
    (b : FVec Ideal Cert.KernelIdeal.S64 .f32) :
    Cert.KernelIdeal.KStages.emb1 x W b = Cert.ReferenceIdeal.Stages.emb1 x W b := rfl

set_option maxHeartbeats 400000 in
/-- Layer 1's query terms. -/
theorem projI1_eq (e : FVec Ideal Cert.KernelIdeal.S4096x64 .f32) (aw : FVec Ideal Cert.KernelIdeal.S8x128 .f32) :
    Cert.KernelIdeal.KStages.projI1 e aw = Cert.ReferenceIdeal.Stages.projI1 e aw := rfl

set_option maxHeartbeats 400000 in
/-- Layer 1's key terms. -/
theorem projJ1_eq (e : FVec Ideal Cert.KernelIdeal.S4096x64 .f32) (aw : FVec Ideal Cert.KernelIdeal.S8x128 .f32) :
    Cert.KernelIdeal.KStages.projJ1 e aw = Cert.ReferenceIdeal.Stages.projJ1 e aw := rfl

set_option maxHeartbeats 400000 in
/-- Layer 2's embedding. -/
theorem emb2_eq (z : FVec Ideal Cert.KernelIdeal.S4096x64 .f32) (W : FVec Ideal Cert.KernelIdeal.S32x64 .f32)
    (b : FVec Ideal Cert.KernelIdeal.S32 .f32) :
    Cert.KernelIdeal.KStages.emb2 z W b = Cert.ReferenceIdeal.Stages.emb2 z W b := rfl

set_option maxHeartbeats 400000 in
/-- Layer 2's query terms. -/
theorem projI2_eq (e : FVec Ideal Cert.KernelIdeal.S4096x32 .f32) (aw : FVec Ideal Cert.KernelIdeal.S8x64 .f32) :
    Cert.KernelIdeal.KStages.projI2 e aw = Cert.ReferenceIdeal.Stages.projI2 e aw := rfl

set_option maxHeartbeats 400000 in
/-- Layer 2's key terms. -/
theorem projJ2_eq (e : FVec Ideal Cert.KernelIdeal.S4096x32 .f32) (aw : FVec Ideal Cert.KernelIdeal.S8x64 .f32) :
    Cert.KernelIdeal.KStages.projJ2 e aw = Cert.ReferenceIdeal.Stages.projJ2 e aw := rfl

end Cert.HostBridge

end
-- ==== Proof.Bridge.lean ====
/-
  The kernel program's result is the reference's function of the arguments.

  Each attention kernel leaves, in its output array, the specification's layer of the four arrays it was handed: the
  features, the query terms, the transposed key terms and the bias row.  Those four arrays are host stages of the
  arguments — the same operations the reference applies —, the key terms handed over transposed and the bias as a row,
  which the layer reads back entry by entry as the reference's untransposed terms and bias.  The reference's own
  layer, read at an entry, is the same specification.  Between the layers both programs apply the exponential linear
  unit, pointwise the same function.  So the first kernel's array is the reference's first layer, and the second
  kernel's array, the program's result, is the reference's result.
-/
import proofs.«136446_j28295244546247_2_alg».proof.Proof.Gen.KernelIdeal.Frame
import proofs.«136446_j28295244546247_2_alg».proof.Proof.KStages
import proofs.«136446_j28295244546247_2_alg».proof.Proof.KStagesRead
import proofs.«136446_j28295244546247_2_alg».proof.Proof.KArray0
import proofs.«136446_j28295244546247_2_alg».proof.Proof.KArray1
import proofs.«136446_j28295244546247_2_alg».proof.Proof.RefStages
import proofs.«136446_j28295244546247_2_alg».proof.Proof.RefRead
import proofs.«136446_j28295244546247_2_alg».proof.Proof.HostBridge
import proofs.«136446_j28295244546247_2_alg».proof.Proof.Spec

noncomputable section

namespace Cert.Bridge

open Cert.KernelIdeal Idealize.ShloMosaic Idealize.ShloMosaic.ValueIdx Idealize.ShloMosaic.TcCoe Idealize.SL.Sem
open Cert.ReferenceIdeal (Stages.emb1 Stages.projI1 Stages.projJ1 Stages.out1 Stages.elu1 Stages.emb2 Stages.projI2 Stages.projJ2 Stages.result)

variable (m : (ℓ : Loc nD τ sig) → Buf (Elt Ideal) ℓ) (ρ : Dev nD → PrngReg) (c : Dev nD)

/-- The first kernel's array is the reference's first layer of the arguments. -/
theorem layer1_value :
    Gen.W2 m ρ c (Proc.devRef .tc main_v13)
      = Stages.out1 (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  refine ((Gen.W2_arr m ρ c 4).trans (KArray0.final0 (Gen.V1 m ρ) c)).trans ?_
  funext i
  obtain ⟨p, q, rfl⟩ : ∃ (p : Fin 4096) (q : Fin 64), i = ix2 p q := ⟨i 0, i 1, eq_ix2 i⟩
  unfold Cert.ReferenceIdeal.Stages.out1
  rw [Cert.ReferenceIdeal.RefRead.tail1_apply]
  show MHA.layer _ _ _ _ p q = _
  have e4 : Gen.V1 m ρ c main_v4 = _ := (KStages.W1_v4 m ρ c).trans (HostBridge.emb1_eq _ _ _)
  have e7 : Gen.V1 m ρ c main_v7 = _ := (KStages.W1_v7 m ρ c).trans ((congrArg (fun e => KStages.projI1 e _) (HostBridge.emb1_eq _ _ _)).trans (HostBridge.projI1_eq _ _))
  have e11 : Gen.V1 m ρ c main_v11 = _ := KStages.W1_v11 m ρ c
  have e12 : Gen.V1 m ρ c main_v12 = _ := KStages.W1_v12 m ρ c
  rw [e4, e7, e11, e12]
  refine congrArg₂ (fun sj ab => MHA.layer _ _ sj ab p q) (funext fun a => funext fun h => ?_) (funext fun h => ?_)
  · rw [KStages.projJT1_apply, HostBridge.emb1_eq, HostBridge.projJ1_eq]
  · rw [KStages.abRow_apply]

/-- The exponential linear unit of the first layer is the same array in both programs. -/
theorem elu_value :
    KStages.eluK (Gen.W2 m ρ c (Proc.devRef .tc main_v13))
      = Stages.elu1 (Stages.out1 (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))) := by
  rw [layer1_value]
  funext j
  rw [KStages.eluK_apply, Cert.ReferenceIdeal.RefRead.elu1_apply]

/-- The program's result array is the reference's result of the arguments. -/
theorem kernel_value :
    Gen.W6 m ρ c (Proc.devRef .tc main_v31)
      = Stages.result (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) := by
  refine ((Gen.W6_arr m ρ c 4).trans (KArray1.final1 (Gen.V5 m ρ) c)).trans ?_
  funext i
  obtain ⟨p, q, rfl⟩ : ∃ (p : Fin 4096) (q : Fin 32), i = ix2 p q := ⟨i 0, i 1, eq_ix2 i⟩
  unfold Cert.ReferenceIdeal.Stages.result
  rw [Cert.ReferenceIdeal.RefRead.tail2_apply]
  show MHA.layer _ _ _ _ p q = _
  have hz := elu_value m ρ c
  have e22 : Gen.V5 m ρ c main_v22 = _ := (KStages.W5_v22 m ρ c).trans ((congrArg (fun z => KStages.emb2 z _ _) hz).trans (HostBridge.emb2_eq _ _ _))
  have e25 : Gen.V5 m ρ c main_v25 = _ :=
    (KStages.W5_v25 m ρ c).trans ((congrArg (fun z => KStages.projI2 (KStages.emb2 z _ _) _) hz).trans
      ((congrArg (fun e => KStages.projI2 e _) (HostBridge.emb2_eq _ _ _)).trans (HostBridge.projI2_eq _ _)))
  have e29 : Gen.V5 m ρ c main_v29 = _ := KStages.W5_v29 m ρ c
  have e30 : Gen.V5 m ρ c main_v30 = _ := KStages.W5_v30 m ρ c
  rw [e22, e25, e29, e30]
  refine congrArg₂ (fun sj ab => MHA.layer _ _ sj ab p q) (funext fun a => funext fun h => ?_) (funext fun h => ?_)
  · rw [KStages.projJT2_apply, hz, HostBridge.emb2_eq, HostBridge.projJ2_eq]
  · rw [KStages.abRow_apply]

end Cert.Bridge

end
-- ==== Proof.lean ====
/-
  Two layers of multi-head attention over 4096 nodes — a linear embedding, eight heads of softmax attention whose
  scores are a query term plus a key term plus a bias, the mean over the heads, a leaky rectifier; an exponential
  linear unit between the layers — computed once with the attention of each layer in a kernel that walks blocks of
  256 query rows, and once wholly by array operations.  On the extended reals the two computations are the same
  function of the nine argument arrays: the kernels' blockwise softmax and matrix products are the array
  operations' softmax and contraction entry by entry, the heads added one after the other from zero are their sum,
  and the product with one eighth is the division by eight.  No finiteness of the arguments is used.

  Every execution of the kernel program terminates without a fault and leaves the argument arrays unchanged, read at
  the word level and on the extended reals alike; the reference's does, by its run with the result forgotten.  The
  word-level kernel program and its idealization are one text read at the two instances, so the claim that the second
  preserves the first is trivially true.
-/
import proofs.«136446_j28295244546247_2_alg».proof.Defs
import proofs.«136446_j28295244546247_2_alg».proof.Proof.Gen.Kernel
import proofs.«136446_j28295244546247_2_alg».proof.Proof.Gen.Kernel.Frame
import proofs.«136446_j28295244546247_2_alg».proof.Proof.Gen.KernelIdeal
import proofs.«136446_j28295244546247_2_alg».proof.Proof.Gen.KernelIdeal.Frame
import proofs.«136446_j28295244546247_2_alg».proof.Proof.Gen.ReferenceIdeal
import proofs.«136446_j28295244546247_2_alg».proof.Proof.Gen.Pre_finite_inputs
import proofs.«136446_j28295244546247_2_alg».proof.Proof.KRun
import proofs.«136446_j28295244546247_2_alg».proof.Proof.RefRun
import proofs.«136446_j28295244546247_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference runs and leaves its arguments alone: its run, the result dropped. -/
theorem frame_ri : Cert.frame_ReferenceIdeal := fun m ρ _ =>
  (θ_run Cert.ReferenceIdeal.defs _ _).mono (fun _ h c => (h c).2) (Cert.ReferenceIdeal.RefRun.run m ρ)

/-- Both programs end with the reference's function of the arguments in their result arrays. -/
theorem algebraic : Cert.algebraic_KernelIdeal_ReferenceIdeal := by
  intro m ρ m' ρ' _ hagree
  refine ⟨fun c => Cert.KernelIdeal.Gen.W6 m ρ c (Proc.devRef .tc Cert.KernelIdeal.main_v31),
    Cert.KernelIdeal.KRun.run_named (F := Ideal) m ρ, ?_⟩
  refine (θ_run Cert.ReferenceIdeal.defs _ _).mono (fun _ h c => ⟨(h c).1.trans ?_, (h c).2⟩)
    (Cert.ReferenceIdeal.RefRun.run m' ρ')
  obtain ⟨e0, e1, e2, e3, e4, e5, e6, e7, e8⟩ := hagree c
  rw [e0, e1, e2, e3, e4, e5, e6, e7, e8]
  exact (Cert.Bridge.kernel_value m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
